-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S528x128 : Shape := ⟨2, ![528, 128]⟩
abbrev S528 : Shape := ⟨1, ![528]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S528x128 : S_.BroadcastsInDim S528x128 (![] : Fin 0 → Fin S528x128.rank)
  reducesTo_S528x128_S_d0_1 : S528x128.ReducesTo [0, 1] S_
  bcast_S_S528 : S_.BroadcastsInDim S528 (![] : Fin 0 → Fin S528.rank)
  reducesTo_S528_S_d0 : S528.ReducesTo [0] S_

variable [Facts]

def fn {F : FTy → Type} [FloatOps F] (main_arg0 : FVec F S50000x128 .f32) (main_arg1 : FVec F S528x128 .f32) (main_arg2 : FVec F S528 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S528x128 .f32 := Host.absf main_arg1
  let main_cst_0 : FVec F S_ .f32 := constant S_ .f32 0x7F800000#32
  let main_v5 : FVec F S528x128 .f32 := broadcastInDim S528x128 ![] bcast_S_S528x128 main_cst_0
  let main_v6 : IVec S528x128 1 := cmpf .olt main_v4 main_v5
  let main_c_1 : IVec S_ 1 := constantI S_ 1 1#1
  let main_v7 : IVec S_ 1 := (fun x v => Host.reduce IntOp.andi x v reducesTo_S528x128_S_d0_1 h_S_) main_v6 main_c_1
  let main_v8 : IVec S_ 1 := andi main_v3 main_v7
  let main_v9 : FVec F S528 .f32 := Host.absf main_arg2
  let main_cst_2 : FVec F S_ .f32 := constant S_ .f32 0x7F800000#32
  let main_v10 : FVec F S528 .f32 := broadcastInDim S528 ![] bcast_S_S528 main_cst_2
  let main_v11 : IVec S528 1 := cmpf .olt main_v9 main_v10
  let main_c_3 : IVec S_ 1 := constantI S_ 1 1#1
  let main_v12 : IVec S_ 1 := (fun x v => Host.reduce IntOp.andi x v reducesTo_S528_S_d0 h_S_) main_v11 main_c_3
  let main_v13 : IVec S_ 1 := andi main_v8 main_v12
  main_v13
-- ==== Kernel.lean ====
abbrev S50000x128 : Shape := ⟨2, ![50000, 128]⟩
abbrev S528x128 : Shape := ⟨2, ![528, 128]⟩
abbrev S528 : Shape := ⟨1, ![528]⟩
abbrev S1024 : Shape := ⟨1, ![1024]⟩
abbrev S_ : Shape := ⟨0, ![]⟩
abbrev S1024x1 : Shape := ⟨2, ![1024, 1]⟩
abbrev S1024x128 : Shape := ⟨2, ![1024, 128]⟩
abbrev S1024x50000 : Shape := ⟨2, ![1024, 50000]⟩
abbrev S2048x128 : Shape := ⟨2, ![2048, 128]⟩
abbrev S1024x2048 : Shape := ⟨2, ![1024, 2048]⟩
abbrev S32x32x50000 : Shape := ⟨3, ![32, 32, 50000]⟩
abbrev S50000x32x32 : Shape := ⟨3, ![50000, 32, 32]⟩

abbrev nBuf : Space → Nat
  | .hbm => 22
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S528x128, .f32⟩
  | .hbm, ⟨2, _⟩ => ⟨S528, .f32⟩
  | .hbm, ⟨3, _⟩ => ⟨S1024, .i32⟩
  | .hbm, ⟨4, _⟩ => ⟨S1024, .i1⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S1024x128, .f32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1024, .f32⟩
  | .hbm, ⟨18, _⟩ => ⟨S1024x1, .f32⟩
  | .hbm, ⟨19, _⟩ => ⟨S1024x50000, .f32⟩
  | .hbm, ⟨20, _⟩ => ⟨S32x32x50000, .f32⟩
  | .hbm, ⟨21, _⟩ => ⟨S50000x32x32, .f32⟩
  | .local _ .vmem, ⟨0, _⟩ => ⟨S1024x128, .f32⟩
  | .local _ .vmem, ⟨1, _⟩ => ⟨S2048x128, .f32⟩
  | .local _ .vmem, ⟨2, _⟩ => ⟨S2048x128, .f32⟩
  | .local _ .vmem, ⟨3, _⟩ => ⟨S1024x1, .f32⟩
  | .local _ .vmem, ⟨4, _⟩ => ⟨S1024x2048, .f32⟩
  | .local _ .vmem, ⟨5, _⟩ => ⟨S1024x2048, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_3 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2048 : S1024x1.Broadcasts S1024x2048
  inb_S1024x2048_S1024x2048_0_0 : ∀ a, (![0, 0] : Fin 2 → Nat) a + S1024x2048.size a ≤ S1024x2048.size a
  h_S1024x2048 : 0 < S1024x2048.numel
  shapeCasts_S1024x50000_S32x32x50000 : S1024x50000.ShapeCasts S32x32x50000
  transposes_S32x32x50000_S50000x32x32_2_0_1 : S32x32x50000.Transposes [2, 0, 1] S50000x32x32
  gather_S528x128_S1024x1_S1024x128_1_0_n_n_0_1_1128_wf : GatherDims.WF S528x128 S1024x1 S1024x128 [1] [0] [] [0] [] 1 ![1, 128]
  gather_S528_S1024x1_S1024_n_0_n_n_0_1_1_wf : GatherDims.WF S528 S1024x1 S1024 [] [0] [] [0] [] 1 ![1]
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x128.size a < S50000x128.size a
  hwx0_1 : ∀ i : grid0.Coords, EltTy.bits .f32 = 32 ∨ (Rect.unit (s := S50000x128) (fun a => cc0_transform_1 i a * S2048x128.size a) (fun a => (Pipeline.Clip.of (cc0_transform_1 i a) (S2048x128.size a) (S50000x128.size a)).extent (S2048x128.size a)) fun a => Pipeline.Clip.inb (Pipeline.Clip.ok_of (hstart0_1 i a))).WholeWords (EltTy.packing .f32)
  hwxs0_1 : ∀ i : grid0.Coords, EltTy.bits .f32 = 32 ∨ (Rect.unit (s := S2048x128) (fun _ => 0) (fun a => (Pipeline.Clip.of (cc0_transform_1 i a) (S2048x128.size a) (S50000x128.size a)).extent (S2048x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x2048.size a < S1024x50000.size a
  hwx0_3 : ∀ i : grid0.Coords, EltTy.bits .f32 = 32 ∨ (Rect.unit (s := S1024x50000) (fun a => cc0_transform_3 i a * S1024x2048.size a) (fun a => (Pipeline.Clip.of (cc0_transform_3 i a) (S1024x2048.size a) (S1024x50000.size a)).extent (S1024x2048.size a)) fun a => Pipeline.Clip.inb (Pipeline.Clip.ok_of (hstart0_3 i a))).WholeWords (EltTy.packing .f32)
  hwxs0_3 : ∀ i : grid0.Coords, EltTy.bits .f32 = 32 ∨ (Rect.unit (s := S1024x2048) (fun _ => 0) (fun a => (Pipeline.Clip.of (cc0_transform_3 i a) (S1024x2048.size a) (S1024x50000.size a)).extent (S1024x2048.size a)) fun a => (Nat.zero_add _).trans_le (Pipeline.Clip.extent_le (Pipeline.Clip.ok_of (hstart0_3 i a)))).WholeWords (EltTy.packing .f32)

variable [Facts₀]

def gather_S528x128_S1024x1_S1024x128_1_0_n_n_0_1_1128 : GatherDims S528x128 S1024x1 S1024x128 where
  offsetDims := [1]
  collapsedSliceDims := [0]
  operandBatchingDims := []
  startIndicesBatchingDims := []
  startIndexMap := [0]
  indexVectorDim := 1
  sliceSizes := ![1, 128]
  wf := gather_S528x128_S1024x1_S1024x128_1_0_n_n_0_1_1128_wf
def gather_S528_S1024x1_S1024_n_0_n_n_0_1_1 : GatherDims S528 S1024x1 S1024 where
  offsetDims := []
  collapsedSliceDims := [0]
  operandBatchingDims := []
  startIndicesBatchingDims := []
  startIndexMap := [0]
  indexVectorDim := 1
  sliceSizes := ![1]
  wf := gather_S528_S1024x1_S1024_n_0_n_n_0_1_1_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_v4) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg0) S2048x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v10) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v11) S1024x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S528x128 : Shape := ⟨2, ![528, 128]⟩
abbrev S528 : Shape := ⟨1, ![528]⟩
abbrev S128x528 : Shape := ⟨2, ![128, 528]⟩
abbrev S50000x528 : Shape := ⟨2, ![50000, 528]⟩
abbrev S1x528 : Shape := ⟨2, ![1, 528]⟩
abbrev S_ : Shape := ⟨0, ![]⟩
abbrev S32x32 : Shape := ⟨2, ![32, 32]⟩
abbrev S1024 : Shape := ⟨1, ![1024]⟩
abbrev S1024x1 : Shape := ⟨2, ![1024, 1]⟩
abbrev S50000x32x32 : Shape := ⟨3, ![50000, 32, 32]⟩
abbrev S528x1 : Shape := ⟨2, ![528, 1]⟩
abbrev S528x2 : Shape := ⟨2, ![528, 2]⟩

abbrev nBuf : Space → Nat
  | .hbm => 163
  | .vmem => 0
  | .smem => 0
  | _ => 0

abbrev hbmTy0_0 (i : Nat) : BufTy := match i % 128 with
  | 0 => ⟨S50000x128, .f32⟩
  | 1 => ⟨S528x128, .f32⟩
  | 2 => ⟨S528, .f32⟩
  | 3 => ⟨S128x528, .f32⟩
  | 4 => ⟨S50000x528, .f32⟩
  | 5 => ⟨S1x528, .f32⟩
  | 6 => ⟨S50000x528, .f32⟩
  | 7 => ⟨S50000x528, .f32⟩
  | 8 => ⟨S_, .f32⟩
  | 9 => ⟨S32x32, .f32⟩
  | 10 => ⟨S32x32, .i32⟩
  | 11 => ⟨S_, .i32⟩
  | 12 => ⟨S32x32, .i32⟩
  | 13 => ⟨S32x32, .i32⟩
  | 14 => ⟨S32x32, .i32⟩
  | 15 => ⟨S32x32, .i1⟩
  | 16 => ⟨S_, .f32⟩
  | 17 => ⟨S32x32, .f32⟩
  | 18 => ⟨S32x32, .f32⟩
  | 19 => ⟨S_, .f32⟩
  | 20 => ⟨S32x32, .f32⟩
  | 21 => ⟨S32x32, .i1⟩
  | 22 => ⟨S1024, .i1⟩
  | 23 => ⟨S1024, .i32⟩
  | 24 => ⟨S_, .i32⟩
  | 25 => ⟨S_, .i32⟩
  | 26 => ⟨S1024, .i32⟩
  | 27 => ⟨S_, .i32⟩
  | 28 => ⟨S528, .i32⟩
  | 29 => ⟨S_, .i32⟩
  | 30 => ⟨S_, .i32⟩
  | 31 => ⟨S1024, .i32⟩
  | 32 => ⟨S1024, .i32⟩
  | 33 => ⟨S_, .i32⟩
  | 34 => ⟨S1024, .i32⟩
  | 35 => ⟨S1024, .i1⟩
  | 36 => ⟨S_, .i32⟩
  | 37 => ⟨S1024, .i32⟩
  | 38 => ⟨S1024, .i32⟩
  | 39 => ⟨S1024, .i32⟩
  | 40 => ⟨S1024x1, .i32⟩
  | 41 => ⟨S_, .i32⟩
  | 42 => ⟨S1024, .i32⟩
  | 43 => ⟨S528, .i32⟩
  | 44 => ⟨S_, .i32⟩
  | 45 => ⟨S_, .i32⟩
  | 46 => ⟨S528, .i32⟩
  | 47 => ⟨S_, .i32⟩
  | 48 => ⟨S528, .i32⟩
  | 49 => ⟨S528, .i32⟩
  | 50 => ⟨S528, .i32⟩
  | 51 => ⟨S_, .i32⟩
  | 52 => ⟨S528, .i32⟩
  | 53 => ⟨S528, .i1⟩
  | 54 => ⟨S528, .i32⟩
  | 55 => ⟨S528, .i32⟩
  | 56 => ⟨S_, .i32⟩
  | 57 => ⟨S528, .i32⟩
  | 58 => ⟨S528, .i1⟩
  | 59 => ⟨S528, .i1⟩
  | 60 => ⟨S_, .i32⟩
  | 61 => ⟨S528, .i32⟩
  | 62 => ⟨S528, .i32⟩
  | 63 => ⟨S528, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S528, .i32⟩
  | 71 => ⟨S528, .i32⟩
  | 72 => ⟨S_, .i32⟩
  | 73 => ⟨S528, .i32⟩
  | 74 => ⟨S528, .i1⟩
  | 75 => ⟨S_, .i32⟩
  | 76 => ⟨S528, .i32⟩
  | 77 => ⟨S528, .i1⟩
  | 78 => ⟨S_, .i32⟩
  | 79 => ⟨S_, .i1⟩
  | 80 => ⟨S528, .i1⟩
  | 81 => ⟨S528, .i1⟩
  | 82 => ⟨S528, .i1⟩
  | 83 => ⟨S528, .i32⟩
  | 84 => ⟨S528, .i32⟩
  | 85 => ⟨S528, .i32⟩
  | 86 => ⟨S_, .i32⟩
  | 87 => ⟨S528, .i32⟩
  | 88 => ⟨S528, .i32⟩
  | 89 => ⟨S528, .i32⟩
  | 90 => ⟨S_, .i32⟩
  | 91 => ⟨S528, .i32⟩
  | 92 => ⟨S528, .i1⟩
  | 93 => ⟨S528, .i32⟩
  | 94 => ⟨S528, .i32⟩
  | 95 => ⟨S_, .i32⟩
  | 96 => ⟨S528, .i32⟩
  | 97 => ⟨S528, .i1⟩
  | 98 => ⟨S528, .i1⟩
  | 99 => ⟨S_, .i32⟩
  | 100 => ⟨S528, .i32⟩
  | 101 => ⟨S528, .i32⟩
  | 102 => ⟨S528, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S528, .i32⟩
  | 110 => ⟨S528, .i32⟩
  | 111 => ⟨S_, .i32⟩
  | 112 => ⟨S528, .i32⟩
  | 113 => ⟨S528, .i1⟩
  | 114 => ⟨S_, .i32⟩
  | 115 => ⟨S528, .i32⟩
  | 116 => ⟨S528, .i1⟩
  | 117 => ⟨S_, .i32⟩
  | 118 => ⟨S_, .i1⟩
  | 119 => ⟨S528, .i1⟩
  | 120 => ⟨S528, .i1⟩
  | 121 => ⟨S528, .i1⟩
  | 122 => ⟨S528, .i32⟩
  | 123 => ⟨S528, .i32⟩
  | 124 => ⟨S528, .i32⟩
  | 125 => ⟨S_, .f32⟩
  | 126 => ⟨S50000x32x32, .f32⟩
  | 127 => ⟨S_, .i32⟩
  | _ => ⟨S50000x128, .f32⟩

abbrev hbmTy0_1 (i : Nat) : BufTy := match i % 128 with
  | 0 => ⟨S528, .i32⟩
  | 1 => ⟨S528, .i1⟩
  | 2 => ⟨S_, .i32⟩
  | 3 => ⟨S528, .i32⟩
  | 4 => ⟨S528, .i32⟩
  | 5 => ⟨S528, .i32⟩
  | 6 => ⟨S_, .i32⟩
  | 7 => ⟨S528, .i32⟩
  | 8 => ⟨S528, .i1⟩
  | 9 => ⟨S_, .i32⟩
  | 10 => ⟨S528, .i32⟩
  | 11 => ⟨S528, .i32⟩
  | 12 => ⟨S528, .i32⟩
  | 13 => ⟨S528x1, .i32⟩
  | 14 => ⟨S528x1, .i32⟩
  | 15 => ⟨S528x2, .i32⟩
  | 16 => ⟨S50000x32x32, .f32⟩
  | 17 => ⟨S_, .i32⟩
  | 18 => ⟨S528, .i32⟩
  | 19 => ⟨S528, .i1⟩
  | 20 => ⟨S_, .i32⟩
  | 21 => ⟨S528, .i32⟩
  | 22 => ⟨S528, .i32⟩
  | 23 => ⟨S528, .i32⟩
  | 24 => ⟨S_, .i32⟩
  | 25 => ⟨S528, .i32⟩
  | 26 => ⟨S528, .i1⟩
  | 27 => ⟨S_, .i32⟩
  | 28 => ⟨S528, .i32⟩
  | 29 => ⟨S528, .i32⟩
  | 30 => ⟨S528, .i32⟩
  | 31 => ⟨S528x1, .i32⟩
  | 32 => ⟨S528x1, .i32⟩
  | 33 => ⟨S528x2, .i32⟩
  | 34 => ⟨S50000x32x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_cst : Ref sig .tc := ⟨.hbm, 16, rfl⟩
abbrev main_call0_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_call1_v0 : Ref sig .tc := ⟨.hbm, 22, rfl⟩
abbrev main_call1_v1 : Ref sig .tc := ⟨.hbm, 23, rfl⟩
abbrev main_call1_call0_c : Ref sig .tc := ⟨.hbm, 24, rfl⟩
abbrev main_call1_call0_v0 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_c_1 : Ref sig .tc := ⟨.hbm, 29, rfl⟩
abbrev main_call2_v0 : Ref sig .tc := ⟨.hbm, 30, rfl⟩
abbrev main_call2_v1 : Ref sig .tc := ⟨.hbm, 31, rfl⟩
abbrev main_v11 : Ref sig .tc := ⟨.hbm, 32, rfl⟩
abbrev main_c_2 : Ref sig .tc := ⟨.hbm, 33, rfl⟩
abbrev main_v12 : Ref sig .tc := ⟨.hbm, 34, rfl⟩
abbrev main_v13 : Ref sig .tc := ⟨.hbm, 35, rfl⟩
abbrev main_c_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_4 : Ref sig .tc := ⟨.hbm, 41, rfl⟩
abbrev main_v18 : Ref sig .tc := ⟨.hbm, 42, rfl⟩
abbrev main_v19 : Ref sig .tc := ⟨.hbm, 43, rfl⟩
abbrev main_call3_call0_c : Ref sig .tc := ⟨.hbm, 44, rfl⟩
abbrev main_call3_call0_v0 : Ref sig .tc := ⟨.hbm, 45, rfl⟩
abbrev main_v20 : Ref sig .tc := ⟨.hbm, 46, rfl⟩
abbrev main_c_5 : Ref sig .tc := ⟨.hbm, 47, rfl⟩
abbrev main_call4_v0 : Ref sig .tc := ⟨.hbm, 48, rfl⟩
abbrev main_call4_v1 : Ref sig .tc := ⟨.hbm, 49, rfl⟩
abbrev main_call4_v2 : Ref sig .tc := ⟨.hbm, 50, rfl⟩
abbrev main_call4_v3 : Ref sig .tc := ⟨.hbm, 51, rfl⟩
abbrev main_call4_v4 : Ref sig .tc := ⟨.hbm, 52, rfl⟩
abbrev main_call4_v5 : Ref sig .tc := ⟨.hbm, 53, rfl⟩
abbrev main_call4_v6 : Ref sig .tc := ⟨.hbm, 54, rfl⟩
abbrev main_call4_v7 : Ref sig .tc := ⟨.hbm, 55, rfl⟩
abbrev main_call4_c : Ref sig .tc := ⟨.hbm, 56, rfl⟩
abbrev main_call4_v8 : Ref sig .tc := ⟨.hbm, 57, rfl⟩
abbrev main_call4_v9 : Ref sig .tc := ⟨.hbm, 58, rfl⟩
abbrev main_call4_v10 : Ref sig .tc := ⟨.hbm, 59, rfl⟩
abbrev main_call4_c_0 : Ref sig .tc := ⟨.hbm, 60, rfl⟩
abbrev main_call4_v11 : Ref sig .tc := ⟨.hbm, 61, rfl⟩
abbrev main_call4_v12 : Ref sig .tc := ⟨.hbm, 62, rfl⟩
abbrev main_v21 : Ref sig .tc := ⟨.hbm, 63, rfl⟩
abbrev main_c_6 : Ref sig .tc := ⟨.hbm, 64, rfl⟩
abbrev main_call5_v0 : Ref sig .tc := ⟨.hbm, 65, rfl⟩
abbrev main_call5_c : Ref sig .tc := ⟨.hbm, 66, rfl⟩
abbrev main_call5_v1 : Ref sig .tc := ⟨.hbm, 67, rfl⟩
abbrev main_call5_c_0 : Ref sig .tc := ⟨.hbm, 68, rfl⟩
abbrev main_call5_v2 : Ref sig .tc := ⟨.hbm, 69, rfl⟩
abbrev main_call5_v3 : Ref sig .tc := ⟨.hbm, 70, rfl⟩
abbrev main_call5_v4 : Ref sig .tc := ⟨.hbm, 71, rfl⟩
abbrev main_call5_c_1 : Ref sig .tc := ⟨.hbm, 72, rfl⟩
abbrev main_call5_v5 : Ref sig .tc := ⟨.hbm, 73, rfl⟩
abbrev main_call5_v6 : Ref sig .tc := ⟨.hbm, 74, rfl⟩
abbrev main_call5_c_2 : Ref sig .tc := ⟨.hbm, 75, rfl⟩
abbrev main_call5_v7 : Ref sig .tc := ⟨.hbm, 76, rfl⟩
abbrev main_call5_v8 : Ref sig .tc := ⟨.hbm, 77, rfl⟩
abbrev main_call5_c_3 : Ref sig .tc := ⟨.hbm, 78, rfl⟩
abbrev main_call5_v9 : Ref sig .tc := ⟨.hbm, 79, rfl⟩
abbrev main_call5_v10 : Ref sig .tc := ⟨.hbm, 80, rfl⟩
abbrev main_call5_v11 : Ref sig .tc := ⟨.hbm, 81, rfl⟩
abbrev main_call5_v12 : Ref sig .tc := ⟨.hbm, 82, rfl⟩
abbrev main_call5_v13 : Ref sig .tc := ⟨.hbm, 83, rfl⟩
abbrev main_call5_v14 : Ref sig .tc := ⟨.hbm, 84, rfl⟩
abbrev main_v22 : Ref sig .tc := ⟨.hbm, 85, rfl⟩
abbrev main_c_7 : Ref sig .tc := ⟨.hbm, 86, rfl⟩
abbrev main_call6_v0 : Ref sig .tc := ⟨.hbm, 87, rfl⟩
abbrev main_call6_v1 : Ref sig .tc := ⟨.hbm, 88, rfl⟩
abbrev main_call6_v2 : Ref sig .tc := ⟨.hbm, 89, rfl⟩
abbrev main_call6_v3 : Ref sig .tc := ⟨.hbm, 90, rfl⟩
abbrev main_call6_v4 : Ref sig .tc := ⟨.hbm, 91, rfl⟩
abbrev main_call6_v5 : Ref sig .tc := ⟨.hbm, 92, rfl⟩
abbrev main_call6_v6 : Ref sig .tc := ⟨.hbm, 93, rfl⟩
abbrev main_call6_v7 : Ref sig .tc := ⟨.hbm, 94, rfl⟩
abbrev main_call6_c : Ref sig .tc := ⟨.hbm, 95, rfl⟩
abbrev main_call6_v8 : Ref sig .tc := ⟨.hbm, 96, rfl⟩
abbrev main_call6_v9 : Ref sig .tc := ⟨.hbm, 97, rfl⟩
abbrev main_call6_v10 : Ref sig .tc := ⟨.hbm, 98, rfl⟩
abbrev main_call6_c_0 : Ref sig .tc := ⟨.hbm, 99, rfl⟩
abbrev main_call6_v11 : Ref sig .tc := ⟨.hbm, 100, rfl⟩
abbrev main_call6_v12 : Ref sig .tc := ⟨.hbm, 101, rfl⟩
abbrev main_v23 : Ref sig .tc := ⟨.hbm, 102, rfl⟩
abbrev main_c_8 : Ref sig .tc := ⟨.hbm, 103, rfl⟩
abbrev main_call7_v0 : Ref sig .tc := ⟨.hbm, 104, rfl⟩
abbrev main_call7_c : Ref sig .tc := ⟨.hbm, 105, rfl⟩
abbrev main_call7_v1 : Ref sig .tc := ⟨.hbm, 106, rfl⟩
abbrev main_call7_c_0 : Ref sig .tc := ⟨.hbm, 107, rfl⟩
abbrev main_call7_v2 : Ref sig .tc := ⟨.hbm, 108, rfl⟩
abbrev main_call7_v3 : Ref sig .tc := ⟨.hbm, 109, rfl⟩
abbrev main_call7_v4 : Ref sig .tc := ⟨.hbm, 110, rfl⟩
abbrev main_call7_c_1 : Ref sig .tc := ⟨.hbm, 111, rfl⟩
abbrev main_call7_v5 : Ref sig .tc := ⟨.hbm, 112, rfl⟩
abbrev main_call7_v6 : Ref sig .tc := ⟨.hbm, 113, rfl⟩
abbrev main_call7_c_2 : Ref sig .tc := ⟨.hbm, 114, rfl⟩
abbrev main_call7_v7 : Ref sig .tc := ⟨.hbm, 115, rfl⟩
abbrev main_call7_v8 : Ref sig .tc := ⟨.hbm, 116, rfl⟩
abbrev main_call7_c_3 : Ref sig .tc := ⟨.hbm, 117, rfl⟩
abbrev main_call7_v9 : Ref sig .tc := ⟨.hbm, 118, rfl⟩
abbrev main_call7_v10 : Ref sig .tc := ⟨.hbm, 119, rfl⟩
abbrev main_call7_v11 : Ref sig .tc := ⟨.hbm, 120, rfl⟩
abbrev main_call7_v12 : Ref sig .tc := ⟨.hbm, 121, rfl⟩
abbrev main_call7_v13 : Ref sig .tc := ⟨.hbm, 122, rfl⟩
abbrev main_call7_v14 : Ref sig .tc := ⟨.hbm, 123, rfl⟩
abbrev main_v24 : Ref sig .tc := ⟨.hbm, 124, rfl⟩
abbrev main_cst_9 : Ref sig .tc := ⟨.hbm, 125, rfl⟩
abbrev main_v25 : Ref sig .tc := ⟨.hbm, 126, rfl⟩
abbrev main_c_10 : Ref sig .tc := ⟨.hbm, 127, rfl⟩
abbrev main_v26 : Ref sig .tc := ⟨.hbm, 128, rfl⟩
abbrev main_v27 : Ref sig .tc := ⟨.hbm, 129, rfl⟩
abbrev main_c_11 : Ref sig .tc := ⟨.hbm, 130, rfl⟩
abbrev main_v28 : Ref sig .tc := ⟨.hbm, 131, rfl⟩
abbrev main_v29 : Ref sig .tc := ⟨.hbm, 132, rfl⟩
abbrev main_v30 : Ref sig .tc := ⟨.hbm, 133, rfl⟩
abbrev main_c_12 : Ref sig .tc := ⟨.hbm, 134, rfl⟩
abbrev main_v31 : Ref sig .tc := ⟨.hbm, 135, rfl⟩
abbrev main_v32 : Ref sig .tc := ⟨.hbm, 136, rfl⟩
abbrev main_c_13 : Ref sig .tc := ⟨.hbm, 137, rfl⟩
abbrev main_v33 : Ref sig .tc := ⟨.hbm, 138, rfl⟩
abbrev main_v34 : Ref sig .tc := ⟨.hbm, 139, rfl⟩
abbrev main_v35 : Ref sig .tc := ⟨.hbm, 140, rfl⟩
abbrev main_v36 : Ref sig .tc := ⟨.hbm, 141, rfl⟩
abbrev main_v37 : Ref sig .tc := ⟨.hbm, 142, rfl⟩
abbrev main_v38 : Ref sig .tc := ⟨.hbm, 143, rfl⟩
abbrev main_v39 : Ref sig .tc := ⟨.hbm, 144, rfl⟩
abbrev main_c_14 : Ref sig .tc := ⟨.hbm, 145, rfl⟩
abbrev main_v40 : Ref sig .tc := ⟨.hbm, 146, rfl⟩
abbrev main_v41 : Ref sig .tc := ⟨.hbm, 147, rfl⟩
abbrev main_c_15 : Ref sig .tc := ⟨.hbm, 148, rfl⟩
abbrev main_v42 : Ref sig .tc := ⟨.hbm, 149, rfl⟩
abbrev main_v43 : Ref sig .tc := ⟨.hbm, 150, rfl⟩
abbrev main_v44 : Ref sig .tc := ⟨.hbm, 151, rfl⟩
abbrev main_c_16 : Ref sig .tc := ⟨.hbm, 152, rfl⟩
abbrev main_v45 : Ref sig .tc := ⟨.hbm, 153, rfl⟩
abbrev main_v46 : Ref sig .tc := ⟨.hbm, 154, rfl⟩
abbrev main_c_17 : Ref sig .tc := ⟨.hbm, 155, rfl⟩
abbrev main_v47 : Ref sig .tc := ⟨.hbm, 156, rfl⟩
abbrev main_v48 : Ref sig .tc := ⟨.hbm, 157, rfl⟩
abbrev main_v49 : Ref sig .tc := ⟨.hbm, 158, rfl⟩
abbrev main_v50 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩

abbrev nD : Nat := 1
abbrev τ : Topo := Topo.v7x

variable {F : FTy → Type} [FloatOps F]

class Facts₀ : Prop where
  transposes_S528x128_S128x528_1_0 : S528x128.Transposes [1, 0] S128x528
  bcast_S528_S1x528_1 : S528.BroadcastsInDim S1x528 (![1] : Fin 1 → Fin S1x528.rank)
  bcast_S1x528_S50000x528_0_1 : S1x528.BroadcastsInDim S50000x528 (![0, 1] : Fin 2 → Fin S50000x528.rank)
  bcast_S_S32x32 : S_.BroadcastsInDim S32x32 (![] : Fin 0 → Fin S32x32.rank)
  shapeCasts_S32x32_S1024 : S32x32.ShapeCasts S1024
  natLt_1_32 : 1 < 32
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  bcast_S_S528 : S_.BroadcastsInDim S528 (![] : Fin 0 → Fin S528.rank)
  bcast_S_S1024 : S_.BroadcastsInDim S1024 (![] : Fin 0 → Fin S1024.rank)
  bcast_S1024_S1024x1_0 : S1024.BroadcastsInDim S1024x1 (![0] : Fin 1 → Fin S1024x1.rank)
  reduceWindows_S528_S528_w528s1p527_0 : S528.ReduceWindows (![528] : Fin 1 → Nat) ![1] ![527] ![0] S528
  bcast_S_S50000x32x32 : S_.BroadcastsInDim S50000x32x32 (![] : Fin 0 → Fin S50000x32x32.rank)
  bcast_S528_S528x1_0 : S528.BroadcastsInDim S528x1 (![0] : Fin 1 → Fin S528x1.rank)
  concatenates_S528x1_S528x1_S528x2_d1 : Shape.Concatenates [S528x1, S528x1] S528x2 1
  dot_S50000x128_S128x528_S50000x528_1_0_0_1_n_n_wf : DotDims.WF S50000x128 S128x528 S50000x528 [1] [0] [0] [1] [] []
  scatter_S528_S1024x1_S1024_n_0_0_1_wf : ScatterDims.WF S528 S1024x1 S1024 [] [0] [0] 1
  scatter_S50000x32x32_S528x2_S50000x528_0_12_12_1_wf : ScatterDims.WF S50000x32x32 S528x2 S50000x528 [0] [1, 2] [1, 2] 1

variable [Facts₀]

def dot_S50000x128_S128x528_S50000x528_1_0_0_1_n_n : DotDims S50000x128 S128x528 S50000x528 where
  lhsContracting := [1]
  rhsContracting := [0]
  lhsNonContracting := [0]
  rhsNonContracting := [1]
  lhsBatch := []
  rhsBatch := []
  wf := dot_S50000x128_S128x528_S50000x528_1_0_0_1_n_n_wf
def scatter_S528_S1024x1_S1024_n_0_0_1 : ScatterDims S528 S1024x1 S1024 where
  updateWindowDims := []
  insertedWindowDims := [0]
  scatterDimsToOperandDims := [0]
  indexVectorDim := 1
  wf := scatter_S528_S1024x1_S1024_n_0_0_1_wf
def scatter_S50000x32x32_S528x2_S50000x528_0_12_12_1 : ScatterDims S50000x32x32 S528x2 S50000x528 where
  updateWindowDims := [0]
  insertedWindowDims := [1, 2]
  scatterDimsToOperandDims := [1, 2]
  indexVectorDim := 1
  wf := scatter_S50000x32x32_S528x2_S50000x528_0_12_12_1_wf

class Facts : Prop extends Facts₀ where

variable [Facts]
-- ==== Proof.KBodyBits.lean ====
/-
  The kernel body's triple, for any float instance: on whole staging memrefs holding the gathered weight rows
  (a 1024×128 block), a 2048×128 block of the node features and the gathered bias column (1024×1), the body loads the
  three, forms the product of the weight block with the transposed feature block on a zero accumulator, adds the bias
  column spread over the 2048 columns, and stores the 1024×2048 result whole; the result's buffer ends holding that
  value, the three inputs' buffers what they held. The result's buffer is also loaded once (a dead load), so it is
  taken at any contents.
-/
import proofs.«104952_g68075231641772_cont_9to1c4b_264_9_alg».proof.Proof.Gen.Kernel.Frame
import proofs.«104952_g68075231641772_cont_9to1c4b_264_9_alg».proof.Proof.Gen.Kernel.Skeleton
import Idealize.ShloMosaic.Lib.Pipeline.FrameBody
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole rectangles of the four staging buffers. -/
abbrev rW : Rect S1024x128 := Rect.unit (s := S1024x128) ![0, 0] S1024x128.size inb_S1024x128_S1024x128_0_0
abbrev rX : Rect S2048x128 := Rect.unit (s := S2048x128) ![0, 0] S2048x128.size inb_S2048x128_S2048x128_0_0
abbrev rB : Rect S1024x1 := Rect.unit (s := S1024x1) ![0, 0] S1024x1.size inb_S1024x1_S1024x1_0_0
abbrev rO : Rect S1024x2048 := Rect.unit (s := S1024x2048) ![0, 0] S1024x2048.size inb_S1024x2048_S1024x2048_0_0

/-- What the result's staging buffer holds after the body, from what the three inputs' hold: its one whole store
    as a piece. -/
def outBlk (x0 : Vec F S1024x128 .f32) (x1 : Vec F S2048x128 .f32) (x2 : Vec F S1024x1 .f32) : Vec F S1024x2048 .f32 :=
  View.canon [⟨rO, k0_pay1 (View.ld x0 rW) (View.ld x1 rX) (View.ld x2 rB)⟩]

/-- The one store covers the buffer. -/
theorem cover_out (p0 : Vec F S1024x2048 .f32) (y : S1024x2048.Idx) :
    ∃ pc ∈ ([⟨rO, p0⟩] : List (View.Piece (Elt F) S1024x2048 .f32)), y ∈ pc.1.set :=
  View.cover_of_tiled [⟨rO, p0⟩] S1024x2048.size (by rfl) y

set_option maxHeartbeats 1000000 in
/-- The body's triple. -/
theorem sound_kernel (c : Dev nD) (E : Set ℕ) (i : grid0.Coords)
    (arg1 : Memref sig .tc .vmem S1024x128 .f32) (harg1 : arg1.IsWhole) (arg2 : Memref sig .tc .vmem S2048x128 .f32) (harg2 : arg2.IsWhole)
    (arg3 : Memref sig .tc .vmem S1024x1 .f32) (harg3 : arg3.IsWhole) (arg4 : Memref sig .tc .vmem S1024x2048 .f32) (harg4 : arg4.IsWhole)
    (x0 : Vec F S1024x128 .f32) (x1 : Vec F S2048x128 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.Kernel.Hand

end
-- ==== Proof.KRunBits.lean ====
/-
  The frame of the word-level program: @main's host operations, the one pipelined region on its 25 grid points, the
  host operations after it. The feature array's last block and the result array's last block overhang their arrays,
  so the staging buffer of the features holds, past the array's end, words nothing names; the matrix product of the
  body reads that buffer whole, and at this instance nothing is known of how an entry of a product depends on the
  rows of its right operand. So nothing is stated here of what the body leaves in the result's staging buffer: the
  result window is FORGOTTEN (its array ends at contents the run does not name), and the frame — every argument array
  ends as launched — is read off the run of the proof data with that window forgotten.
-/
import proofs.«104952_g68075231641772_cont_9to1c4b_264_9_alg».proof.Proof.KBodyBits
import proofs.«104952_g68075231641772_cont_9to1c4b_264_9_alg».proof.Defs
import proofs.«104952_g68075231641772_cont_9to1c4b_264_9_alg».proof.Proof.Gen.Pre_finite_inputs

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The result window (3) is forgotten. -/
def forgets0 : Fin 4 → Bool := fun w => w.val == 3

/-- The feature block at point `t` filled out to the staging buffer's 2048 rows: the block's rows inside the array,
    and past the array's end (at the last point only) the zero word, which nothing reads. -/
def xfill (c : Dev nD) (t : Fin cfg0.N) : S2048x128.Idx → Elt F .f32 :=
  win0_1.fill (grid0.coords t) (fun _ => Scalar.ofBits .f32 0#32) (iblk m c 1 t)

/-- The proof data of the one pipeline on core `c`: the arrays as the region finds them; after the body the weight
    rows' and the bias column's buffers at their blocks, the features' at its block filled out, the result's (forgotten)
    at anything; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => xfill m c t
    | ⟨2, _⟩ => iblk m c 2 t
    | ⟨3, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = xfill m c t := by dsimp only [dats]
theorem after0_2 (c : Dev nD) (t : Fin cfg0.N) : (dats m 0 c).after 2 t = iblk m c 2 t := by dsimp only [dats]

/-- The weight rows' and the bias column's buffers hold their (whole-array) blocks at every point. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
/-- The features' buffer, fetched at every point, holds the block on the rows inside the array and what it held
    (`d`) past the array's end. -/
theorem before0_1 (c : Dev nD) (t : Fin cfg0.N) (d) :
    (dats m 0 c).before 1 t d = win0_1.fill (grid0.coords t) d (iblk m c 1 t) := by
  unfold Dat.before; rw [if_pos (fetch0_1 t)]; rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ owns (c : Thread nD τ) (st0_2 t) fullShare ((dats m 0 c).after 2 t)
    ∗ (∃ X, owns (c : Thread nD τ) (st0_3 t) fullShare X))

/-- The body at any point: the inputs' buffers hold their blocks (the features' filled out with what the buffer
    held), so the body's triple applies; each input's buffer is handed back as it was, which on the rows inside the
    array is the proof data's; the result's is handed back at whatever the body left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩, ⟨%X3, H3⟩⟩
  iapply (sound_kernel c Set.univ (grid0.coords t) _ _ _ _ _ _ _ _ (iblk m c 0 t)
    (win0_1.fill (grid0.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    rw [show win0_1.cut (grid0.coords t) (xfill m c t) = iblk m c 1 t from win0_1.cut_fill _ _ _]
    iexact H1
  isplitl [H2]; · iexact H2
  iexists _; iexact H3

/-- The library's body obligation, the result window forgotten. -/
theorem body_obligation (c : Dev nD) :
    BodyObligationLoose (dats (F := F) m 0 c) (defs₀ (F := F)) Variants.none () Set.univ forgets0 := fun t => by
  rw [bigSep_W0, bigSep_W0]
  exact sound_body m c t

/-! ## The host operations after the region -/

/-- The buffers the operations after the region write: computed from the forgotten result, so nothing is stated of
    them either. -/
def T0 : Finset (Ref sig .tc) := {main_v12, main_v13}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The run and the frame -/

set_option backward.isDefEq.respectTransparency.types false in
/-- At the compiled mesh, for any values, from any memory with zero counters: every weakly fair execution of @main
    terminates, and every final state has every input array of the pipeline unchanged, nothing stated of the result
    array, and every other unscoped buffer the later operations do not write at its region-entry contents. -/
theorem run_main : θ_run defs (onTc (τ := τ) (main (F := F))) (s₀ m ρ)
    (Pipeline.RDat.FramePostR (cfgs 0) (fun c => (dats m 0 c).toRForget forgets0) T0 (V m)) :=
  Pipeline.RDat.θ_run_frame_around_T cfgs (0 : Fin 1) launch0 defs₀ Variants.none (fun c => (dats m 0 c).toRForget forgets0) T0 m ρ main
    (hbody := fun c => (body_obligation m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame claim's post from that run's: the features' array, a staged input, is as the region found it, which
    is as launched; the weights and the bias, which no window stages and no host operation writes, likewise. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m 0 c).toRForget forgets0).ArrAt_in 1 rfl _) _) ((h c).1 1)).trans ((A_eq m c 1).trans (V_main_arg0 m c)),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c)⟩)
    (run_main m ρ)

/-- The frame claim of the word-level program. -/
theorem frame : Cert.frame_Kernel := fun m ρ _ => frame_any (F := Bits) m ρ

end Cert.Kernel.Hand

end
-- ==== Proof.KBody.lean ====
/-
  The kernel body's triple, for any float instance: on whole staging memrefs holding the gathered weight rows
  (a 1024×128 block), a 2048×128 block of the node features and the gathered bias column (1024×1), the body loads the
  three, forms the product of the weight block with the transposed feature block on a zero accumulator, adds the bias
  column spread over the 2048 columns, and stores the 1024×2048 result whole; the result's buffer ends holding that
  value, the three inputs' buffers what they held. The result's buffer is also loaded once (a dead load), so it is
  taken at any contents.
-/
import proofs.«104952_g68075231641772_cont_9to1c4b_264_9_alg».proof.Proof.Gen.KernelIdeal.Frame
import proofs.«104952_g68075231641772_cont_9to1c4b_264_9_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole rectangles of the four staging buffers. -/
abbrev rW : Rect S1024x128 := Rect.unit (s := S1024x128) ![0, 0] S1024x128.size inb_S1024x128_S1024x128_0_0
abbrev rX : Rect S2048x128 := Rect.unit (s := S2048x128) ![0, 0] S2048x128.size inb_S2048x128_S2048x128_0_0
abbrev rB : Rect S1024x1 := Rect.unit (s := S1024x1) ![0, 0] S1024x1.size inb_S1024x1_S1024x1_0_0
abbrev rO : Rect S1024x2048 := Rect.unit (s := S1024x2048) ![0, 0] S1024x2048.size inb_S1024x2048_S1024x2048_0_0

/-- What the result's staging buffer holds after the body, from what the three inputs' hold: its one whole store
    as a piece. -/
def outBlk (x0 : Vec F S1024x128 .f32) (x1 : Vec F S2048x128 .f32) (x2 : Vec F S1024x1 .f32) : Vec F S1024x2048 .f32 :=
  View.canon [⟨rO, k0_pay1 (View.ld x0 rW) (View.ld x1 rX) (View.ld x2 rB)⟩]

/-- The one store covers the buffer. -/
theorem cover_out (p0 : Vec F S1024x2048 .f32) (y : S1024x2048.Idx) :
    ∃ pc ∈ ([⟨rO, p0⟩] : List (View.Piece (Elt F) S1024x2048 .f32)), y ∈ pc.1.set :=
  View.cover_of_tiled [⟨rO, p0⟩] S1024x2048.size (by rfl) y

/-- The four whole rectangles start at the origin. -/
theorem hz2 : (![0, 0] : Fin 2 → Nat) = fun _ => 0 := funext fun a => by fin_cases a <;> rfl

/-- The one whole store leaves its value, and the whole loads read what the buffers hold: the result block is the
    body's arithmetic (the product on a zero accumulator plus the spread bias column) of the three input blocks. -/
theorem outBlk_eq (x0 : Vec F S1024x128 .f32) (x1 : Vec F S2048x128 .f32) (x2 : Vec F S1024x1 .f32) :
    outBlk x0 x1 x2 = k0_pay1 x0 x1 x2 := by
  unfold outBlk
  rw [View.canon_unit_zero hz2, View.ld_unit_zero (S := S1024x128) hz2, View.ld_unit_zero (S := S2048x128) hz2,
    View.ld_unit_zero (S := S1024x1) hz2]

set_option maxHeartbeats 1000000 in
/-- The body's triple. -/
theorem sound_kernel (c : Dev nD) (E : Set ℕ) (i : grid0.Coords)
    (arg1 : Memref sig .tc .vmem S1024x128 .f32) (harg1 : arg1.IsWhole) (arg2 : Memref sig .tc .vmem S2048x128 .f32) (harg2 : arg2.IsWhole)
    (arg3 : Memref sig .tc .vmem S1024x1 .f32) (harg3 : arg3.IsWhole) (arg4 : Memref sig .tc .vmem S1024x2048 .f32) (harg4 : arg4.IsWhole)
    (x0 : Vec F S1024x128 .f32) (x1 : Vec F S2048x128 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.KernelIdeal.Hand

end
-- ==== Proof.KBodyIdx.lean ====
/-
  The body's arithmetic read at an entry, at the exact (extended-real) instance: entry (p, j) of the 1024×2048 result
  block is the sum over the 128 contracted coordinates k of weight-block entry (p, k) times feature-block entry (j, k),
  plus bias-column entry (p, 0). In particular column j of the result reads row j of the feature block and no other.
-/
import proofs.«104952_g68075231641772_cont_9to1c4b_264_9_alg».proof.Proof.KBody
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-- The product's dimension numbers: both operands contracted on their second axis. -/
abbrev DD : DotDims S1024x128 S2048x128 S1024x2048 := dot_S1024x128_S2048x128_S1024x2048_1_1_0_0_n_n

/-- The operand indices of the product at a result index and a contraction index, axis by axis. -/
theorem lhs_0 (i : S1024x2048.Idx) (q : DD.contr.Idx) : (DD.lhsIdx i q 0).val = (i 0).val := by
  unfold DotDims.lhsIdx
  rw [dif_neg (show ¬(0 : Fin S1024x128.rank) ∈ DD.lhsBatch by decide),
    dif_pos (show (0 : Fin S1024x128.rank) ∈ DD.lhsNonContracting by decide)]
  rfl
theorem lhs_1 (i : S1024x2048.Idx) (q : DD.contr.Idx) : (DD.lhsIdx i q 1).val = (q ⟨0, by decide⟩).val :=
  DD.lhsIdx_val_of_single rfl i q
theorem rhs_0 (i : S1024x2048.Idx) (q : DD.contr.Idx) : (DD.rhsIdx i q 0).val = (i 1).val := by
  unfold DotDims.rhsIdx
  rw [dif_neg (show ¬(0 : Fin S2048x128.rank) ∈ DD.rhsBatch by decide),
    dif_pos (show (0 : Fin S2048x128.rank) ∈ DD.rhsNonContracting by decide)]
  rfl
theorem rhs_1 (i : S1024x2048.Idx) (q : DD.contr.Idx) : (DD.rhsIdx i q 1).val = (q ⟨0, by decide⟩).val :=
  DD.rhsIdx_val_of_single rfl i q

/-- The product on the zero accumulator at an entry: the sum of the products along the contracted axis. -/
theorem mm_apply (x0 : FVec Ideal S1024x128 .f32) (x1 : FVec Ideal S2048x128 .f32) (p : Fin 1024) (j : Fin 2048) :
    matmul (F := Ideal) DD none x0 x1 (constant (F := Ideal) S1024x2048 .f32 0x00000000#32) (ix2 p j)
      = ∑ k : Fin 128, x0 (ix2 p k) * x1 (ix2 j k) := by
  refine (Ideal.matmul_constant_zero_apply DD none x0 x1 (ix2 p j)).trans ?_
  rw [← Equiv.sum_comp (contrEquiv1 DD 128 rfl rfl).symm]
  refine Finset.sum_congr rfl fun k _ => ?_
  have hk := contrEquiv1_symm_val DD 128 rfl rfl k
  have el : DD.lhsIdx (ix2 p j) ((contrEquiv1 DD 128 rfl rfl).symm k) = ix2 p k := funext fun a => Fin.ext (by
    match a with
    | ⟨0, _⟩ => exact lhs_0 _ _
    | ⟨1, _⟩ => exact (lhs_1 _ _).trans hk)
  have er : DD.rhsIdx (ix2 p j) ((contrEquiv1 DD 128 rfl rfl).symm k) = ix2 j k := funext fun a => Fin.ext (by
    match a with
    | ⟨0, _⟩ => exact rhs_0 _ _
    | ⟨1, _⟩ => exact (rhs_1 _ _).trans hk)
  rw [el, er]

/-- A 1024×1 column spread over 2048 columns, at an entry: the column's entry of that row. -/
theorem bcol_apply {α : Type} (v : S1024x1.Idx → α) (h : S1024x1.Broadcasts S1024x2048) (p : Fin 1024) (j : Fin 2048) :
    broadcastTo S1024x2048 v h (ix2 p j) = v (ix2 p (0 : Fin 1)) := by
  refine broadcastTo_apply v h (ix2 p j) (ix2 p (0 : Fin 1)) fun ax => ?_
  match ax with
  | ⟨0, _⟩ =>
    show p.val = if (1024 : ℕ) = 1 then 0 else p.val
    rw [if_neg (by decide)]
  | ⟨1, _⟩ => rfl

/-- The body's arithmetic at an entry. -/
theorem pay_apply (x0 : Vec Ideal S1024x128 .f32) (x1 : Vec Ideal S2048x128 .f32) (x2 : Vec Ideal S1024x1 .f32)
    (p : Fin 1024) (j : Fin 2048) :
    k0_pay1 (F := Ideal) x0 x1 x2 (ix2 p j)
      = (∑ k : Fin 128, x0 (ix2 p k) * x1 (ix2 j k)) + x2 (ix2 p (0 : Fin 1)) := by
  unfold k0_pay1
  show matmul (F := Ideal) DD none (shapeCast S1024x128 x0 shapeCasts_S1024x128_S1024x128) x1
        (constant (F := Ideal) S1024x2048 .f32 0x00000000#32) (ix2 p j)
      + broadcastTo S1024x2048 (shapeCast S1024x1 x2 shapeCasts_S1024x1_S1024x1) broadcasts_S1024x1_S1024x2048 (ix2 p j) = _
  rw [shapeCast_self, shapeCast_self]
  exact congrArg₂ (· + ·) (mm_apply x0 x1 p j) (bcol_apply x2 _ p j)

/-- The result block at an entry. -/
theorem outBlk_apply (x0 : Vec Ideal S1024x128 .f32) (x1 : Vec Ideal S2048x128 .f32) (x2 : Vec Ideal S1024x1 .f32)
    (p : Fin 1024) (j : Fin 2048) :
    outBlk (F := Ideal) x0 x1 x2 (ix2 p j)
      = (∑ k : Fin 128, x0 (ix2 p k) * x1 (ix2 j k)) + x2 (ix2 p (0 : Fin 1)) := by
  rw [outBlk_eq]; exact pay_apply x0 x1 x2 p j

end Cert.KernelIdeal.Hand

end
-- ==== Proof.KData.lean ====
/-
  The proof data of the idealized program's one pipeline, and its body obligation. The weight rows (window 0) and the
  bias column (window 2) are whole-array blocks fetched once; the features (window 1) are fetched in 25 blocks of 2048
  rows, the last reaching 1200 rows past the array's 50000: there the staging buffer's rows past the array hold words
  nothing names. The body multiplies the weight block with the whole staging buffer, so the result block's columns
  past the array's end are computed from those words — but column j of the result reads row j of the features'
  buffer only, and the write-back moves exactly the columns whose rows the fetch moved. So what is written back does
  not depend on the unnamed words: the proof data name the result block computed from the feature block filled out
  with zeros, and the body obligation (stated, for the two overhanging windows, on the moved part only) holds.
-/
import proofs.«104952_g68075231641772_cont_9to1c4b_264_9_alg».proof.Proof.KBodyIdx

set_option maxRecDepth 16384

noncomputable section

namespace Cert.KernelIdeal.Hand

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the two overhanging windows move at each point -/

/-- The features' blocks span the 128 columns at every point; -/
theorem xs1_1 : ∀ t : Fin cfg0.N, win0_1.xsize (grid0.coords t) 1 = 128 :=
  (by decide +kernel : ∀ t : Fin grid0.N, win0_1.xsize (grid0.coords t) 1 = 128)
/-- and the columns of the result block that are written back are as many as the rows of the feature block that are
    fetched (2048, at the last point 848). -/
theorem xs3_1 : ∀ t : Fin cfg0.N, win0_3.xsize (grid0.coords t) 1 = win0_1.xsize (grid0.coords t) 0 :=
  (by decide +kernel : ∀ t : Fin grid0.N, win0_3.xsize (grid0.coords t) 1 = win0_1.xsize (grid0.coords t) 0)

/-- On a fetched row the filled-out feature block is the block, whatever it was filled out with. -/
theorem fill_indep (t : Fin cfg0.N) (d d' : S2048x128.Idx → Elt Ideal .f32)
    (b : (win0_1.xblock (grid0.coords t)).Idx → Elt Ideal .f32) (j : Fin 2048) (k : Fin 128)
    (hj : j.val < win0_1.xsize (grid0.coords t) 0) :
    win0_1.fill (grid0.coords t) d b (ix2 j k) = win0_1.fill (grid0.coords t) d' b (ix2 j k) := by
  have hm : win0_1.moved (grid0.coords t) (ix2 j k) = true := (win0_1.moved_iff _ _).mpr fun a => by
    match a with
    | ⟨0, _⟩ => exact hj
    | ⟨1, _⟩ =>
      show k.val < win0_1.xsize (grid0.coords t) 1
      rw [xs1_1 t]; exact k.isLt
  unfold Window.fill; rw [dif_pos hm, dif_pos hm]

/-- The written-back columns of the result block do not depend on what the feature block was filled out with: each
    reads its own row of it, a fetched one. -/
theorem cut_out_indep (t : Fin cfg0.N) (x0 : Vec Ideal S1024x128 .f32) (x2 : Vec Ideal S1024x1 .f32)
    (b : (win0_1.xblock (grid0.coords t)).Idx → Elt Ideal .f32) (d d' : S2048x128.Idx → Elt Ideal .f32) :
    win0_3.cut (grid0.coords t) (outBlk (F := Ideal) x0 (win0_1.fill (grid0.coords t) d b) x2)
      = win0_3.cut (grid0.coords t) (outBlk (F := Ideal) x0 (win0_1.fill (grid0.coords t) d' b) x2) := by
  funext y
  have h0 : (y 0).val < 1024 := Nat.lt_of_lt_of_le (y 0).isLt (win0_3.xsize_le (grid0.coords t) 0)
  have h1 : (y 1).val < 2048 := Nat.lt_of_lt_of_le (y 1).isLt (win0_3.xsize_le (grid0.coords t) 1)
  have hy : (y 1).val < win0_1.xsize (grid0.coords t) 0 := by rw [← xs3_1 t]; exact (y 1).isLt
  have e : win0_3.xinj (grid0.coords t) y = ix2 (⟨(y 0).val, h0⟩ : Fin 1024) (⟨(y 1).val, h1⟩ : Fin 2048) :=
    funext fun a => match a with | ⟨0, _⟩ => rfl | ⟨1, _⟩ => rfl
  show outBlk (F := Ideal) x0 _ x2 (win0_3.xinj (grid0.coords t) y) = outBlk (F := Ideal) x0 _ x2 (win0_3.xinj (grid0.coords t) y)
  rw [e, outBlk_apply, outBlk_apply]
  exact congrArg (· + _) (Finset.sum_congr rfl fun k _ =>
    congrArg (_ * ·) (fill_indep t d d' b ⟨(y 1).val, h1⟩ k hy))

/-! ## The proof data -/

/-- The feature block at point `t` filled out to the staging buffer's 2048 rows with the zero word. -/
def xfill (c : Dev nD) (t : Fin cfg0.N) : S2048x128.Idx → Elt Ideal .f32 :=
  win0_1.fill (grid0.coords t) (fun _ => Scalar.ofBits (F := Ideal) .f32 0#32) (iblk m c 1 t)

/-- The result block at point `t`: the body's arithmetic of the weight block, the filled-out feature block and the
    bias column. -/
def oblk (c : Dev nD) (t : Fin cfg0.N) : S1024x2048.Idx → Elt Ideal .f32 :=
  outBlk (F := Ideal) (iblk m c 0 t) (xfill m c t) (iblk m c 2 t)

/-- The proof data of the one pipeline on core `c`: the arrays as the region finds them; after the body the inputs'
    buffers at their blocks (the features' filled out), the result's at `oblk`; the class invariant; nothing owed;
    full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => xfill m c t
    | ⟨2, _⟩ => iblk m c 2 t
    | ⟨3, _⟩ => oblk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = xfill m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = oblk m c t := by dsimp only [dats]

/-- The weight rows' and the bias column's buffers hold their (whole-array) blocks at every point. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
/-- The features' buffer, fetched at every point, holds the block on the rows inside the array and what it held
    (`d`) past the array's end. -/
theorem before0_1 (c : Dev nD) (t : Fin cfg0.N) (d) :
    (dats m 0 c).before 1 t d = win0_1.fill (grid0.coords t) d (iblk m c 1 t) := by
  unfold Dat.before; rw [if_pos (fetch0_1 t)]; rfl

/-- What the body computes from a feature buffer filled out with anything is, on the written-back columns, the proof
    data's result block. -/
theorem fill_oblk (c : Dev nD) (t : Fin cfg0.N) (d1 : S2048x128.Idx → Elt Ideal .f32) :
    win0_3.fill (grid0.coords t)
        (outBlk (F := Ideal) (iblk m c 0 t) (win0_1.fill (grid0.coords t) d1 (iblk m c 1 t)) (iblk m c 2 t))
        (win0_3.cut (grid0.coords t) (oblk m c t))
      = outBlk (F := Ideal) (iblk m c 0 t) (win0_1.fill (grid0.coords t) d1 (iblk m c 1 t)) (iblk m c 2 t) :=
  win0_3.fill_congr_cut (grid0.coords t)
    (cut_out_indep t (iblk m c 0 t) (iblk m c 2 t) (iblk m c 1 t) d1 (fun _ => Scalar.ofBits (F := Ideal) .f32 0#32))

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ owns (c : Thread nD τ) (st0_2 t) fullShare ((dats m 0 c).after 2 t)
    ∗ (∃ d, owns (c : Thread nD τ) (st0_3 t) fullShare
        (win0_3.fill (grid0.coords t) d (win0_3.cut (grid0.coords t) ((dats m 0 c).after 3 t)))))

/-- The body at any point: the inputs' buffers hold their blocks (the features' filled out with what the buffer
    held), so the body's triple applies; each input's buffer is handed back as it was, and the result's at the body's
    arithmetic of them, which on the moved parts are the proof data's. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel (F := Ideal) c Set.univ (grid0.coords t) _ _ _ _ _ _ _ _ (iblk m c 0 t)
    (win0_1.fill (grid0.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    rw [show win0_1.cut (grid0.coords t) (xfill m c t) = iblk m c 1 t from win0_1.cut_fill _ _ _]
    iexact H1
  isplitl [H2]; · iexact H2
  iexists (outBlk (F := Ideal) (iblk m c 0 t) (win0_1.fill (grid0.coords t) d1 (iblk m c 1 t)) (iblk m c 2 t))
  rw [fill_oblk m c t d1]
  iexact H3

/-- The library's body obligation (windows 1 and 3, whose blocks may overhang, stated on the moved part). -/
theorem body_obligation (c : Dev nD) :
    BodyObligationLoose (dats m 0 c) (defs₀ (F := Ideal)) Variants.none () Set.univ := fun t => by
  rw [bigSep_W0, bigSep_W0]
  exact sound_body m c t

end Cert.KernelIdeal.Hand

end
-- ==== Proof.KRun.lean ====
/-
  The run of the idealized program and its frame: @main's host operations before the region (the gathers of the
  weight rows and of the bias at the table of pair positions), the one pipelined region over its 25 points, and the
  two host operations after it (the reshape and the transpose of the result). Every weakly fair execution
  terminates; the pipeline's arrays end at what the write-backs of the proof data's blocks leave, the other buffers
  as the later operations leave them; the three argument arrays end as launched.
-/
import proofs.«104952_g68075231641772_cont_9to1c4b_264_9_alg».proof.Proof.KData
import proofs.«104952_g68075231641772_cont_9to1c4b_264_9_alg».proof.Defs
import proofs.«104952_g68075231641772_cont_9to1c4b_264_9_alg».proof.Proof.Gen.Pre_finite_inputs

set_option maxRecDepth 16384

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation BodyObligationLoose cellOf)

variable (m : (ℓ : Loc nD τ sig) → Buf (Elt Ideal) ℓ) (ρ : Dev nD → PrngReg)

set_option backward.isDefEq.respectTransparency.types false in
/-- At the compiled mesh, from any memory with zero counters: every weakly fair execution of @main terminates, and
    every final state has every array of the pipeline at what the library computes from the proof data and every
    other unscoped buffer as the operations after the region leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim of the idealized program. -/
theorem frame : Cert.frame_KernelIdeal := fun m ρ _ => Gen.frame_of m ρ (dats m) (A_eq m) (run_main m ρ)

end Cert.KernelIdeal.Hand

end
-- ==== Proof.KValue.lean ====
/-
  The value of the kernel's output array after the run, at the exact instance: entry (p, n) of the 1024×50000 array
  is the sum over the 128 contracted coordinates k of gathered-weight entry (p, k) times feature entry (n, k), plus
  gathered-bias entry (p, 0). Column n lies in the block of point n / 2048, at local column n % 2048, which is among
  the columns that point writes back (all 2048, at the last point the 848 inside the array); there the result block
  reads the feature block's row n % 2048, a fetched one, which is the array's row n.
-/
import proofs.«104952_g68075231641772_cont_9to1c4b_264_9_alg».proof.Proof.KData

set_option maxRecDepth 16384

noncomputable section

namespace Cert.KernelIdeal.Hand

open Cert.KernelIdeal Cert.KernelIdeal.Gen

open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

/-- The gathered weight rows, the features and the gathered bias column as the region finds them, as functions of
    their indices into the extended reals. -/
def Wg (c : Dev nD) : S1024x128.Idx → EReal := V m c main_v4
def Xa (c : Dev nD) : S50000x128.Idx → EReal := V m c main_arg0
def Bg (c : Dev nD) : S1024x1.Idx → EReal := V m c main_v10

/-- Entry (p, n) of the product of the gathered weight rows with the transposed features, plus the gathered bias. -/
def outAt (c : Dev nD) (p : Fin 1024) (n : Fin 50000) : EReal :=
  (∑ k : Fin 128, Wg m c (ix2 p k) * Xa m c (ix2 n k)) + Bg m c (ix2 p (0 : Fin 1))

/-- The same as one function of the output array's index. -/
def outArr (c : Dev nD) : S1024x50000.Idx → Elt Ideal .f32 := fun i => outAt m c (i 0) (i 1)

/-- The printed index maps, decided over the grid: the weight rows' and the bias column's one block is the whole
    array; the features' block index is the point, on the row axis; the result's is the point, on the column axis;
    and the result's written-back columns end at the array's end. -/
theorem idx_facts : ∀ t : Fin cfg0.N, win0_0.index t (0 : Fin 2) = 0 ∧ win0_0.index t (1 : Fin 2) = 0
    ∧ win0_2.index t (0 : Fin 2) = 0 ∧ win0_2.index t (1 : Fin 2) = 0
    ∧ win0_1.index t (0 : Fin 2) = t.val ∧ win0_1.index t (1 : Fin 2) = 0
    ∧ win0_3.index t (0 : Fin 2) = 0 ∧ win0_3.index t (1 : Fin 2) = t.val
    ∧ win0_3.xsize (grid0.coords t) (0 : Fin 2) = 1024
    ∧ t.val * 2048 + win0_3.xsize (grid0.coords t) (1 : Fin 2) = min ((t.val + 1) * 2048) 50000 :=
  (by decide +kernel : ∀ t : Fin grid0.N, _)

/-- The weight block's entry is the gathered-weight array's. -/
theorem wblk_apply (c : Dev nD) (t : Fin cfg0.N) (p : Fin 1024) (k : Fin 128) :
    iblk m c 0 t (ix2 p k) = V m c main_v4 (ix2 p k) := by
  obtain ⟨e0, e1, -⟩ := idx_facts t
  show V m c main_v4 (((cfg0.win 0).blk t).view.emb (ix2 p k)) = V m c main_v4 (ix2 p k)
  refine congrArg _ (funext fun a => Fin.ext ?_)
  match a with
  | ⟨0, _⟩ => show win0_0.index t (0 : Fin 2) * 1024 + 1 * p.val = p.val; omega
  | ⟨1, _⟩ => show win0_0.index t (1 : Fin 2) * 128 + 1 * k.val = k.val; omega

/-- The bias block's entry is the gathered-bias column's. -/
theorem bblk_apply (c : Dev nD) (t : Fin cfg0.N) (p : Fin 1024) (z : Fin 1) :
    iblk m c 2 t (ix2 p z) = V m c main_v10 (ix2 p z) := by
  obtain ⟨-, -, e2, e3, -⟩ := idx_facts t
  show V m c main_v10 (((cfg0.win 2).blk t).view.emb (ix2 p z)) = V m c main_v10 (ix2 p z)
  refine congrArg _ (funext fun a => Fin.ext ?_)
  match a with
  | ⟨0, _⟩ => show win0_2.index t (0 : Fin 2) * 1024 + 1 * p.val = p.val; omega
  | ⟨1, _⟩ => show win0_2.index t (1 : Fin 2) * 1 + 1 * z.val = z.val; omega

/-- A fetched row of the filled-out feature block is the features' row at the block's offset. -/
theorem xfill_apply (c : Dev nD) (t : Fin cfg0.N) (j : Fin 2048) (k : Fin 128) (n : Fin 50000)
    (hj : j.val < win0_1.xsize (grid0.coords t) 0) (hn : n.val = t.val * 2048 + j.val) :
    xfill m c t (ix2 j k) = V m c main_arg0 (ix2 n k) := by
  obtain ⟨-, -, -, -, e4, e5, -⟩ := idx_facts t
  have hm : win0_1.moved (grid0.coords t) (ix2 j k) = true := (win0_1.moved_iff _ _).mpr fun a => by
    match a with
    | ⟨0, _⟩ => exact hj
    | ⟨1, _⟩ =>
      show k.val < win0_1.xsize (grid0.coords t) 1
      rw [xs1_1 t]; exact k.isLt
  unfold xfill Window.fill
  rw [dif_pos hm]
  show V m c main_arg0 (((cfg0.win 1).blk t).view.emb _) = V m c main_arg0 (ix2 n k)
  refine congrArg _ (funext fun a => Fin.ext ?_)
  match a with
  | ⟨0, _⟩ => show win0_1.index t (0 : Fin 2) * 2048 + 1 * j.val = n.val; omega
  | ⟨1, _⟩ => show win0_1.index t (1 : Fin 2) * 128 + 1 * k.val = k.val; omega

/-- What point `t` writes back is its block of `outArr`. -/
theorem flushed3_eq (c : Dev nD) (t : Fin cfg0.N) :
    (dats m 0 c).flushed 3 t = ((cfg0.win 3).blk t).view.read (Elt Ideal) (outArr m c) := by
  show (cfg0.win 3).cut (grid0.coords t) ((dats m 0 c).after 3 t) = _
  rw [after0_3]
  obtain ⟨-, -, -, -, -, -, e6, e7, e8, e9⟩ := idx_facts t
  funext y
  have h0 : (y 0).val < 1024 := Nat.lt_of_lt_of_le (y 0).isLt (win0_3.xsize_le (grid0.coords t) 0)
  have h1 : (y 1).val < 2048 := Nat.lt_of_lt_of_le (y 1).isLt (win0_3.xsize_le (grid0.coords t) 1)
  have hy3 : (y 1).val < win0_3.xsize (grid0.coords t) 1 := (y 1).isLt
  have hy : (y 1).val < win0_1.xsize (grid0.coords t) 0 := by rw [← xs3_1 t]; exact hy3
  have hn : t.val * 2048 + (y 1).val < 50000 := by omega
  have e : win0_3.xinj (grid0.coords t) y = ix2 (⟨(y 0).val, h0⟩ : Fin 1024) (⟨(y 1).val, h1⟩ : Fin 2048) :=
    funext fun a => match a with | ⟨0, _⟩ => rfl | ⟨1, _⟩ => rfl
  show oblk m c t (win0_3.xinj (grid0.coords t) y) = outArr m c (((cfg0.win 3).blk t).view.emb y)
  rw [e]
  unfold oblk
  rw [outBlk_apply]
  have er : outArr m c (((cfg0.win 3).blk t).view.emb y)
      = outAt m c (⟨(y 0).val, h0⟩ : Fin 1024) (⟨t.val * 2048 + (y 1).val, hn⟩ : Fin 50000) := by
    unfold outArr
    refine congrArg₂ (outAt m c) (Fin.ext ?_) (Fin.ext ?_)
    · show win0_3.index t (0 : Fin 2) * 1024 + 1 * (y 0).val = (y 0).val; omega
    · show win0_3.index t (1 : Fin 2) * 2048 + 1 * (y 1).val = t.val * 2048 + (y 1).val; omega
  rw [er]
  unfold outAt
  refine congrArg₂ (fun a b : EReal => a + b) (Finset.sum_congr rfl fun k _ => ?_)
    (bblk_apply m c t (⟨(y 0).val, h0⟩ : Fin 1024) (0 : Fin 1))
  exact congrArg₂ (fun a b : EReal => a * b) (wblk_apply m c t (⟨(y 0).val, h0⟩ : Fin 1024) k)
    (xfill_apply m c t (⟨(y 1).val, h1⟩ : Fin 2048) k (⟨t.val * 2048 + (y 1).val, hn⟩ : Fin 50000) hy rfl)

/-- An index of the output array is in point `t`'s written-back block iff each coordinate is in the block's
    range on its axis, cut at the array's end. -/
theorem mem_blk3 (t : Fin cfg0.N) (i : S1024x50000.Idx) :
    i ∈ ((cfg0.win 3).blk t).view.set ↔ ∀ a : Fin 2, win0_3.index t a * S1024x2048.size a ≤ (i a).val
      ∧ (i a).val < win0_3.index t a * S1024x2048.size a + win0_3.xsize (grid0.coords t) a := by
  show i ∈ ((View.whole main_v11).slice (win0_3.rect t)).set ↔ _
  rw [View.set_slice_whole, Rect.mem_set_unit]
  exact Iff.rfl

/-- Every index of the output array is in the written-back block of the point its column falls in. -/
theorem covered3 (i : S1024x50000.Idx) :
    ∃ t : Fin cfg0.N, (cfg0.win 3).flush t = true ∧ i ∈ ((cfg0.win 3).blk t).view.set := by
  have hi0 : (i 0).val < 1024 := (i 0).isLt
  have hi1 : (i 1).val < 50000 := (i 1).isLt
  have ht : (i 1).val / 2048 < 25 := by omega
  refine ⟨⟨(i 1).val / 2048, ht⟩, flush0_3 _, ?_⟩
  obtain ⟨-, -, -, -, -, -, e6, e7, e8, e9⟩ := idx_facts ⟨(i 1).val / 2048, ht⟩
  have e7' : win0_3.index ⟨(i 1).val / 2048, ht⟩ (1 : Fin 2) = (i 1).val / 2048 := e7
  have e9' : (i 1).val / 2048 * 2048 + win0_3.xsize (grid0.coords ⟨(i 1).val / 2048, ht⟩) (1 : Fin 2)
      = min (((i 1).val / 2048 + 1) * 2048) 50000 := e9
  rw [mem_blk3]
  intro a
  match a with
  | ⟨0, _⟩ =>
    show win0_3.index ⟨(i 1).val / 2048, ht⟩ (0 : Fin 2) * 1024 ≤ (i 0).val
      ∧ (i 0).val < win0_3.index ⟨(i 1).val / 2048, ht⟩ (0 : Fin 2) * 1024 + win0_3.xsize (grid0.coords ⟨(i 1).val / 2048, ht⟩) (0 : Fin 2)
    omega
  | ⟨1, _⟩ =>
    show win0_3.index ⟨(i 1).val / 2048, ht⟩ (1 : Fin 2) * 2048 ≤ (i 1).val
      ∧ (i 1).val < win0_3.index ⟨(i 1).val / 2048, ht⟩ (1 : Fin 2) * 2048 + win0_3.xsize (grid0.coords ⟨(i 1).val / 2048, ht⟩) (1 : Fin 2)
    omega

/-- The output array after the run is `outArr`. -/
theorem final3 (c : Dev nD) : (dats m 0 c).arrAt 3 cfg0.N = outArr m c :=
  (dats m 0 c).arrAt_eq_of_cover 3 (outArr m c) (fun t _ => flushed3_eq m c t) (covered3)

/-- THE VALUE of the kernel's output array at an entry. -/
theorem out_apply (c : Dev nD) (p : Fin 1024) (n : Fin 50000) :
    ((dats m 0 c).arrAt 3 cfg0.N) (ix2 p n)
      = (∑ k : Fin 128, Wg m c (ix2 p k) * Xa m c (ix2 n k)) + Bg m c (ix2 p (0 : Fin 1)) := by
  rw [final3]; rfl

end Cert.KernelIdeal.Hand

end
-- ==== Proof.Spec.lean ====
/-
  The function both programs compute.  A node's 128 features are sent through a linear layer to 528 numbers,
  one per unordered pair {i, j} of {0, …, 31}, and laid out as a symmetric 32 × 32 matrix: entry (i, j) of
  node n is  Σ_k W(tri i j, k) · x(n, k) + b(tri i j),  where `tri i j` is the position of the pair
  (min i j, max i j) in the row-major list of the pairs a ≤ b.
-/
import Idealize.ShloMosaic.PureOps.Ideal
import Idealize.ShloMosaic.Lib.ValueIdx

noncomputable section

namespace Cert.SymSpec

open Idealize.ShloMosaic Idealize.ShloMosaic.ValueIdx

/-- Row a of the upper triangle holds the 32 - a pairs (a, a), …, (a, 31); the rows before it hold
    32·a - a(a-1)/2 pairs; so the pair (a, b), a ≤ b, sits at that offset plus b - a. -/
def triNat (a b : Nat) : Nat := 32 * a - a * (a - 1) / 2 + (b - a)

theorem triNat_lt : ∀ i j : Fin 32, triNat (min i.val j.val) (max i.val j.val) < 528 := by decide

/-- The position of the unordered pair {i, j} among the 528 pairs a ≤ b. -/
def tri (i j : Fin 32) : Fin 528 := ⟨triNat (min i.val j.val) (max i.val j.val), triNat_lt i j⟩

theorem tri_comm (i j : Fin 32) : tri i j = tri j i := by
  unfold tri; congr 1; rw [min_comm, max_comm]

/-- Entry (i, j) of node n. -/
def outAt (x : (⟨2, ![50000, 128]⟩ : Shape).Idx → EReal) (W : (⟨2, ![528, 128]⟩ : Shape).Idx → EReal)
    (b : (⟨1, ![528]⟩ : Shape).Idx → EReal) (n : Fin 50000) (i j : Fin 32) : EReal :=
  (∑ k : Fin 128, W (ix2 (tri i j) k) * x (ix2 n k)) + b (ix1 (tri i j))

/-- The whole result array. -/
def out (x : (⟨2, ![50000, 128]⟩ : Shape).Idx → EReal) (W : (⟨2, ![528, 128]⟩ : Shape).Idx → EReal)
    (b : (⟨1, ![528]⟩ : Shape).Idx → EReal) : (⟨3, ![50000, 32, 32]⟩ : Shape).Idx → EReal :=
  fun idx => outAt x W b (idx 0) (idx 1) (idx 2)

theorem out_ix3 (x : (⟨2, ![50000, 128]⟩ : Shape).Idx → EReal) (W : (⟨2, ![528, 128]⟩ : Shape).Idx → EReal)
    (b : (⟨1, ![528]⟩ : Shape).Idx → EReal) (n : Fin 50000) (i j : Fin 32) :
    out x W b (ix3 n i j) = outAt x W b n i j := rfl

end Cert.SymSpec

end
-- ==== Proof.LibRows.lean ====
/-
  Row-indexed gather and accumulating scatter read at an index.

  A table of rows is gathered, or accumulated into, by a column of start indices (one signed word per
  row of the updates): the dimension numbers are those of `x[idx]` and of `segment_sum` along the
  leading axis. The gather reads the row at the start word, read signed and clamped into range; the
  scatter adds to entry `(n, …)` the updates `(e, …)` whose start word, read signed, is `n`.
-/
import Idealize.ShloMosaic.PureOps.Ideal
import Idealize.ShloMosaic.Lib.ValueIdx

noncomputable section

open scoped BigOperators

namespace Cert.Rows

open Idealize.ShloMosaic Idealize.ShloMosaic.ValueIdx

/-! Facts about axis numbers, decided once at the literal ranks. -/
private theorem fin2_one_ne_zero : (1 : Fin 2) ≠ 0 := by decide
private theorem fin3_one_ne_zero : (1 : Fin 3) ≠ 0 := by decide
private theorem fin3_two_ne_zero : (2 : Fin 3) ≠ 0 := by decide

/-- An axis is kept exactly when it is not among the removed ones. -/
private theorem mem_kept {s : Shape} (axes : List (Fin s.rank)) (a : Fin s.rank) : a ∈ s.kept axes ↔ a ∉ axes := by
  simp [Shape.kept, List.mem_filter, List.mem_finRange]

/-- Gather of whole rows of a rank-2 table `[N, C]` at a column `[M, 1]` of start indices. -/
abbrev gather2 (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of rows at `(e, a)`: the table at the row the start word `idx[e, 0]` names, read signed
    and clamped into `[0, N − 1]`, column `a`. -/
theorem gather2_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (a : Fin C) :
    Host.gather (gather2 N C M wf) x idx (ix2 e a)
      = x (ix2 (⟨min (idx (ix2 e (0 : Fin 1))).toInt.toNat (N - 1), by omega⟩ : Fin N) a) := by
  unfold Host.gather
  congr 1
  funext ax
  refine Fin.ext ?_
  match ax with
  | ⟨0, _⟩ =>
    show (gather2 N C M wf).start (ix2 e a) idx 0 + (gather2 N C M wf).batchCoord (ix2 e a) 0
      + (gather2 N C M wf).offCoord (ix2 e a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather2 N C M wf).startIndexMap from List.mem_singleton.mpr rfl)]
    have hsi : (gather2 N C M wf).siIdx (ix2 e a) ⟨List.idxOf (0 : Fin 2) (gather2 N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gather2 N C M wf).start (ix2 e a) idx 1 + (gather2 N C M wf).batchCoord (ix2 e a) 1
      + (gather2 N C M wf).offCoord (ix2 e a) 1 = _
    rw [GatherDims.batchCoord_eq_zero _ _ _ List.not_mem_nil]
    unfold GatherDims.start
    rw [dif_neg (show (1 : Fin 2) ∉ (gather2 N C M wf).startIndexMap from fun h => fin2_one_ne_zero (List.mem_singleton.mp h))]
    unfold GatherDims.offCoord
    rw [dif_pos (show (1 : Fin 2) ∈ (gather2 N C M wf).sKept from (GatherDims.mem_sKept _ _).2 ⟨fun h => fin2_one_ne_zero (List.mem_singleton.mp h), List.not_mem_nil⟩)]
    simp only [Nat.zero_add, Nat.add_zero]
    rfl

/-- Gather of whole slabs of a rank-3 table `[N, B, C]` at a column `[M, 1]` of start indices. -/
abbrev gather3 (N B C M : Nat)
    (wf : GatherDims.WF ⟨3, ![N, B, C]⟩ ⟨2, ![M, 1]⟩ ⟨3, ![M, B, C]⟩ [1, 2] [0] [] [0] [] 1 ![1, B, C]) :
    GatherDims ⟨3, ![N, B, C]⟩ ⟨2, ![M, 1]⟩ ⟨3, ![M, B, C]⟩ where
  offsetDims := [1, 2]
  collapsedSliceDims := [0]
  operandBatchingDims := []
  startIndicesBatchingDims := []
  startIndexMap := [0]
  indexVectorDim := 1
  sliceSizes := ![1, B, C]
  wf := wf

/-- The gather of slabs at `(e, b, a)`. -/
theorem gather3_apply {α : Type} {N B C M w : Nat} (hN : 0 < N)
    (wf : GatherDims.WF ⟨3, ![N, B, C]⟩ ⟨2, ![M, 1]⟩ ⟨3, ![M, B, C]⟩ [1, 2] [0] [] [0] [] 1 ![1, B, C])
    (x : (⟨3, ![N, B, C]⟩ : Shape).Idx → α) (idx : IVec ⟨2, ![M, 1]⟩ w) (e : Fin M) (b : Fin B) (a : Fin C) :
    Host.gather (gather3 N B C M wf) x idx (ix3 e b a)
      = x (ix3 (⟨min (idx (ix2 e (0 : Fin 1))).toInt.toNat (N - 1), by omega⟩ : Fin N) b a) := by
  unfold Host.gather
  congr 1
  funext ax
  refine Fin.ext ?_
  match ax with
  | ⟨0, _⟩ =>
    show (gather3 N B C M wf).start (ix3 e b a) idx 0 + (gather3 N B C M wf).batchCoord (ix3 e b a) 0
      + (gather3 N B C M wf).offCoord (ix3 e b a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (gather3 N B C M wf).startIndexMap from List.mem_singleton.mpr rfl)]
    have hsi : (gather3 N B C M wf).siIdx (ix3 e b a) ⟨List.idxOf (0 : Fin 3) (gather3 N B C M wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨1, _⟩ =>
    show (gather3 N B C M wf).start (ix3 e b a) idx 1 + (gather3 N B C M wf).batchCoord (ix3 e b a) 1
      + (gather3 N B C M wf).offCoord (ix3 e b a) 1 = _
    rw [GatherDims.batchCoord_eq_zero _ _ _ List.not_mem_nil]
    unfold GatherDims.start
    rw [dif_neg (show (1 : Fin 3) ∉ (gather3 N B C M wf).startIndexMap from
      fun h => fin3_one_ne_zero (List.mem_singleton.mp h))]
    unfold GatherDims.offCoord
    rw [dif_pos (show (1 : Fin 3) ∈ (gather3 N B C M wf).sKept from (GatherDims.mem_sKept _ _).2
      ⟨fun h => fin3_one_ne_zero (List.mem_singleton.mp h), List.not_mem_nil⟩)]
    simp only [Nat.zero_add, Nat.add_zero]
    rfl
  | ⟨2, _⟩ =>
    show (gather3 N B C M wf).start (ix3 e b a) idx 2 + (gather3 N B C M wf).batchCoord (ix3 e b a) 2
      + (gather3 N B C M wf).offCoord (ix3 e b a) 2 = _
    rw [GatherDims.batchCoord_eq_zero _ _ _ List.not_mem_nil]
    unfold GatherDims.start
    rw [dif_neg (show (2 : Fin 3) ∉ (gather3 N B C M wf).startIndexMap from
      fun h => fin3_two_ne_zero (List.mem_singleton.mp h))]
    unfold GatherDims.offCoord
    rw [dif_pos (show (2 : Fin 3) ∈ (gather3 N B C M wf).sKept from (GatherDims.mem_sKept _ _).2
      ⟨fun h => fin3_two_ne_zero (List.mem_singleton.mp h), List.not_mem_nil⟩)]
    simp only [Nat.zero_add, Nat.add_zero]
    rfl

/-- Accumulating scatter of rows `[M, C]` into a rank-2 table `[N, C]` at a column `[M, 1]` of start indices. -/
abbrev scatter2 (N C M : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- An update lands on index `i` exactly when, on every axis, its start plus its window coordinate is
    `i`'s coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `(e, c)` lands on `(n, k)` exactly when its start word, read signed, is `n` and `c = k`:
    axis 0 starts at the word and has window coordinate 0 (it is an inserted axis), axis 1 starts at 0 and
    has window coordinate `c`. -/
theorem scatter2_resultIdx {N C M w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (k : Fin C) :
    (scatter2 N C M wf).resultIdx? (ix2 e c) idx = some (ix2 n k)
      ↔ (idx (ix2 e (0 : Fin 1))).toInt = (n.val : ℤ) ∧ c = k := by
  have hs0 : (scatter2 N C M wf).start (ix2 e c) idx (0 : Fin 2) = (idx (ix2 e (0 : Fin 1))).toInt := by
    unfold ScatterDims.start
    rw [dif_pos (show (0 : Fin 2) ∈ (scatter2 N C M wf).scatterDimsToOperandDims from List.mem_singleton.mpr rfl)]
    have hsi : (scatter2 N C M wf).siIdx (ix2 e c) ⟨List.idxOf (0 : Fin 2) (scatter2 N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter2 N C M wf).window (ix2 e c) (0 : Fin 2) = 0 := by
    unfold ScatterDims.window
    rw [dif_neg (fun h => (mem_kept _ _).1 h (List.mem_singleton.mpr rfl))]
  have hs1 : (scatter2 N C M wf).start (ix2 e c) idx (1 : Fin 2) = 0 := by
    unfold ScatterDims.start
    rw [dif_neg (fun h => fin2_one_ne_zero (List.mem_singleton.mp h))]
  have hw1 : (scatter2 N C M wf).window (ix2 e c) (1 : Fin 2) = c.val := by
    unfold ScatterDims.window
    rw [dif_pos (show (1 : Fin 2) ∈ (scatter2 N C M wf).sKept from
      (mem_kept _ _).2 (fun h => fin2_one_ne_zero (List.mem_singleton.mp h)))]
    rfl
  rw [resultIdx?_eq_some_iff]
  constructor
  · intro h
    have h0 := h (0 : Fin 2)
    have h1 := h (1 : Fin 2)
    rw [hs0, hw0] at h0
    rw [hs1, hw1] at h1
    have h0' : (idx (ix2 e (0 : Fin 1))).toInt + ((0 : ℕ) : ℤ) = (n.val : ℤ) := h0
    have h1' : (0 : ℤ) + (c.val : ℤ) = (k.val : ℤ) := h1
    refine ⟨by simpa using h0', Fin.ext ?_⟩
    have : (c.val : ℤ) = (k.val : ℤ) := by simpa using h1'
    exact_mod_cast this
  · rintro ⟨h0, rfl⟩ a
    match a with
    | ⟨0, _⟩ =>
      show (scatter2 N C M wf).start (ix2 e c) idx (0 : Fin 2)
        + ((scatter2 N C M wf).window (ix2 e c) (0 : Fin 2) : ℤ) = (n.val : ℤ)
      rw [hs0, hw0, h0]; simp
    | ⟨1, _⟩ =>
      show (scatter2 N C M wf).start (ix2 e c) idx (1 : Fin 2)
        + ((scatter2 N C M wf).window (ix2 e c) (1 : Fin 2) : ℤ) = (c.val : ℤ)
      rw [hs1, hw1]; simp

/-- The accumulated table at `(n, k)`: the operand there plus the updates `(e, k)` of the rows `e` whose
    start word, read signed, is `n`. -/
theorem scatterAdd2_apply {N C M w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (k : Fin C) :
    Ideal.hostScatterAdd (scatter2 N C M wf) x idx upd (ix2 n k)
      = x (ix2 n k) + ∑ e : Fin M, if (idx (ix2 e (0 : Fin 1))).toInt = (n.val : ℤ) then upd (ix2 e k) else 0 := by
  unfold Ideal.hostScatterAdd
  congr 1
  rw [Finset.sum_filter, sum_idx2]
  refine Finset.sum_congr rfl fun e _ => ?_
  simp only [scatter2_resultIdx]
  by_cases h : (idx (ix2 e (0 : Fin 1))).toInt = (n.val : ℤ)
  · simp [h]
  · simp [h]

/-- Accumulating scatter of slabs `[M, B, C]` into a rank-3 table `[N, B, C]`. -/
abbrev scatter3 (N B C M : Nat)
    (wf : ScatterDims.WF ⟨3, ![N, B, C]⟩ ⟨2, ![M, 1]⟩ ⟨3, ![M, B, C]⟩ [1, 2] [0] [0] 1) :
    ScatterDims ⟨3, ![N, B, C]⟩ ⟨2, ![M, 1]⟩ ⟨3, ![M, B, C]⟩ where
  updateWindowDims := [1, 2]
  insertedWindowDims := [0]
  scatterDimsToOperandDims := [0]
  indexVectorDim := 1
  wf := wf

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
private theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An update `(e, b', c)` lands on `(n, b, k)` exactly when its start word, read signed, is `n`, `c = k`
    and `b' = b`. -/
theorem scatter3_resultIdx {N B C M w : Nat}
    (wf : ScatterDims.WF ⟨3, ![N, B, C]⟩ ⟨2, ![M, 1]⟩ ⟨3, ![M, B, C]⟩ [1, 2] [0] [0] 1)
    (idx : IVec ⟨2, ![M, 1]⟩ w) (e : Fin M) (b' : Fin B) (c : Fin C) (n : Fin N) (b : Fin B) (k : Fin C) :
    (scatter3 N B C M wf).resultIdx? (ix3 e b' c) idx = some (ix3 n b k)
      ↔ (idx (ix2 e (0 : Fin 1))).toInt = (n.val : ℤ) ∧ c = k ∧ b' = b := by
  have hs0 : (scatter3 N B C M wf).start (ix3 e b' c) idx (0 : Fin 3) = (idx (ix2 e (0 : Fin 1))).toInt := by
    unfold ScatterDims.start
    rw [dif_pos (show (0 : Fin 3) ∈ (scatter3 N B C M wf).scatterDimsToOperandDims from List.mem_singleton.mpr rfl)]
    have hsi : (scatter3 N B C M wf).siIdx (ix3 e b' c) ⟨List.idxOf (0 : Fin 3) (scatter3 N B C M wf).scatterDimsToOperandDims,
        List.idxOf_lt_length_iff.2 (List.mem_singleton.mpr rfl)⟩ = ix2 e (0 : Fin 1) := by
      funext d; refine Fin.ext ?_
      match d with
      | ⟨0, _⟩ => rfl
      | ⟨1, _⟩ => rfl
    rw [hsi]
  have hw0 : (scatter3 N B C M wf).window (ix3 e b' c) (0 : Fin 3) = 0 := by
    unfold ScatterDims.window
    rw [dif_neg (fun h => (mem_kept _ _).1 h (List.mem_singleton.mpr rfl))]
  have hs1 : (scatter3 N B C M wf).start (ix3 e b' c) idx (1 : Fin 3) = 0 := by
    unfold ScatterDims.start
    rw [dif_neg (fun h => fin3_one_ne_zero (List.mem_singleton.mp h))]
  have hw1 : (scatter3 N B C M wf).window (ix3 e b' c) (1 : Fin 3) = b'.val := by
    unfold ScatterDims.window
    rw [dif_pos (show (1 : Fin 3) ∈ (scatter3 N B C M wf).sKept from
      (mem_kept _ _).2 (fun h => fin3_one_ne_zero (List.mem_singleton.mp h)))]
    rfl
  have hs2 : (scatter3 N B C M wf).start (ix3 e b' c) idx (2 : Fin 3) = 0 := by
    unfold ScatterDims.start
    rw [dif_neg (fun h => fin3_two_ne_zero (List.mem_singleton.mp h))]
  have hw2 : (scatter3 N B C M wf).window (ix3 e b' c) (2 : Fin 3) = c.val := by
    unfold ScatterDims.window
    rw [dif_pos (show (2 : Fin 3) ∈ (scatter3 N B C M wf).sKept from
      (mem_kept _ _).2 (fun h => fin3_two_ne_zero (List.mem_singleton.mp h)))]
    rfl
  rw [resultIdx?_eq_some_iff]
  constructor
  · intro h
    have h0 := h (0 : Fin 3)
    have h1 := h (1 : Fin 3)
    have h2 := h (2 : Fin 3)
    rw [hs0, hw0] at h0
    rw [hs1, hw1] at h1
    rw [hs2, hw2] at h2
    have h0' : (idx (ix2 e (0 : Fin 1))).toInt + ((0 : ℕ) : ℤ) = (n.val : ℤ) := h0
    have h1' : (0 : ℤ) + (b'.val : ℤ) = (b.val : ℤ) := h1
    have h2' : (0 : ℤ) + (c.val : ℤ) = (k.val : ℤ) := h2
    refine ⟨by simpa using h0', Fin.ext ?_, Fin.ext ?_⟩
    · have : (c.val : ℤ) = (k.val : ℤ) := by simpa using h2'
      exact_mod_cast this
    · have : (b'.val : ℤ) = (b.val : ℤ) := by simpa using h1'
      exact_mod_cast this
  · rintro ⟨h0, rfl, rfl⟩ a
    match a with
    | ⟨0, _⟩ =>
      show (scatter3 N B C M wf).start (ix3 e b' c) idx (0 : Fin 3)
        + ((scatter3 N B C M wf).window (ix3 e b' c) (0 : Fin 3) : ℤ) = (n.val : ℤ)
      rw [hs0, hw0, h0]; simp
    | ⟨1, _⟩ =>
      show (scatter3 N B C M wf).start (ix3 e b' c) idx (1 : Fin 3)
        + ((scatter3 N B C M wf).window (ix3 e b' c) (1 : Fin 3) : ℤ) = (b'.val : ℤ)
      rw [hs1, hw1]; simp
    | ⟨2, _⟩ =>
      show (scatter3 N B C M wf).start (ix3 e b' c) idx (2 : Fin 3)
        + ((scatter3 N B C M wf).window (ix3 e b' c) (2 : Fin 3) : ℤ) = (c.val : ℤ)
      rw [hs2, hw2]; simp

/-- The accumulated table at `(n, b, k)`. -/
theorem scatterAdd3_apply {N B C M w : Nat}
    (wf : ScatterDims.WF ⟨3, ![N, B, C]⟩ ⟨2, ![M, 1]⟩ ⟨3, ![M, B, C]⟩ [1, 2] [0] [0] 1)
    (x : (⟨3, ![N, B, C]⟩ : Shape).Idx → EReal) (idx : IVec ⟨2, ![M, 1]⟩ w)
    (upd : (⟨3, ![M, B, C]⟩ : Shape).Idx → EReal) (n : Fin N) (b : Fin B) (k : Fin C) :
    Ideal.hostScatterAdd (scatter3 N B C M wf) x idx upd (ix3 n b k)
      = x (ix3 n b k) + ∑ e : Fin M, if (idx (ix2 e (0 : Fin 1))).toInt = (n.val : ℤ) then upd (ix3 e b k) else 0 := by
  unfold Ideal.hostScatterAdd
  congr 1
  rw [Finset.sum_filter, sum_idx3]
  refine Finset.sum_congr rfl fun e _ => ?_
  simp only [scatter3_resultIdx]
  by_cases h : (idx (ix2 e (0 : Fin 1))).toInt = (n.val : ℤ)
  · simp [h, ite_and]
  · simp [h]

end Cert.Rows

end
-- ==== Proof.LibRows1.lean ====
/-
  Entry-indexed gather and accumulating scatter of a vector, read at an index.

  A vector of `N` entries is gathered at, or accumulated into by, a column of `M` start indices (one signed
  word per entry of the result, respectively of the updates): the dimension numbers are those of `x[idx]`
  and of `segment_sum` on a vector. The gather reads the entry at the start word, read signed and clamped
  into range; the scatter adds to entry `n` the updates `e` whose start word, read signed, is `n`.
-/
import Idealize.ShloMosaic.PureOps.Ideal
import Idealize.ShloMosaic.Lib.ValueIdx

noncomputable section

open scoped BigOperators

namespace Cert.Rows1

open Idealize.ShloMosaic Idealize.ShloMosaic.ValueIdx

/-- An axis is kept exactly when it is not among the removed ones. -/
private theorem kept_iff {s : Shape} (axes : List (Fin s.rank)) (a : Fin s.rank) : a ∈ s.kept axes ↔ a ∉ axes := by
  simp [Shape.kept, List.mem_filter, List.mem_finRange]

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
private theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- Gather of single entries of a vector `[N]` at a column `[M, 1]` of start indices. -/
abbrev gather1 (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of entries at `e`: the vector at the entry the start word `idx[e, 0]` names, read signed
    and clamped into `[0, N − 1]`. -/
theorem gather1_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gather1 N M wf) x idx (ix1 e)
      = x (ix1 (⟨min (idx (ix2 e (0 : Fin 1))).toInt.toNat (N - 1), by omega⟩ : Fin N)) := by
  unfold Host.gather
  congr 1
  funext ax
  refine Fin.ext ?_
  match ax with
  | ⟨0, _⟩ =>
    show (gather1 N M wf).start (ix1 e) idx 0 + (gather1 N M wf).batchCoord (ix1 e) 0
      + (gather1 N M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (gather1 N M wf).startIndexMap from List.mem_singleton.mpr rfl)]
    have hsi : (gather1 N M wf).siIdx (ix1 e) ⟨List.idxOf (0 : Fin 1) (gather1 N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- Accumulating scatter of entries `[M]` into a vector `[N]` at a column `[M, 1]` of start indices. -/
abbrev scatter1 (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- An update lands on index `i` exactly when, on every axis, its start plus its window coordinate is
    `i`'s coordinate. -/
private theorem resultIdx?_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `e` lands on `n` exactly when its start word, read signed, is `n`: the one axis starts at the
    word and has window coordinate 0 (it is an inserted axis). -/
theorem scatter1_resultIdx {N M w : Nat}
    (wf : ScatterDims.WF ⟨1, ![N]⟩ ⟨2, ![M, 1]⟩ ⟨1, ![M]⟩ [] [0] [0] 1)
    (idx : IVec ⟨2, ![M, 1]⟩ w) (e : Fin M) (n : Fin N) :
    (scatter1 N M wf).resultIdx? (ix1 e) idx = some (ix1 n)
      ↔ (idx (ix2 e (0 : Fin 1))).toInt = (n.val : ℤ) := by
  have hs0 : (scatter1 N M wf).start (ix1 e) idx (0 : Fin 1) = (idx (ix2 e (0 : Fin 1))).toInt := by
    unfold ScatterDims.start
    rw [dif_pos (show (0 : Fin 1) ∈ (scatter1 N M wf).scatterDimsToOperandDims from List.mem_singleton.mpr rfl)]
    have hsi : (scatter1 N M wf).siIdx (ix1 e) ⟨List.idxOf (0 : Fin 1) (scatter1 N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter1 N M wf).window (ix1 e) (0 : Fin 1) = 0 := by
    unfold ScatterDims.window
    rw [dif_neg (fun h => (kept_iff _ _).1 h (List.mem_singleton.mpr rfl))]
  rw [resultIdx?_some_iff]
  constructor
  · intro h
    have h0 := h (0 : Fin 1)
    rw [hs0, hw0] at h0
    have h0' : (idx (ix2 e (0 : Fin 1))).toInt + ((0 : ℕ) : ℤ) = (n.val : ℤ) := h0
    simpa using h0'
  · intro h0 a
    match a with
    | ⟨0, _⟩ =>
      show (scatter1 N M wf).start (ix1 e) idx (0 : Fin 1)
        + ((scatter1 N M wf).window (ix1 e) (0 : Fin 1) : ℤ) = (n.val : ℤ)
      rw [hs0, hw0, h0]; simp

/-- The accumulated vector at `n`: the operand there plus the updates `e` whose start word, read signed,
    is `n`. -/
theorem scatterAdd1_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (scatter1 N M wf) x idx upd (ix1 n)
      = x (ix1 n) + ∑ e : Fin M, if (idx (ix2 e (0 : Fin 1))).toInt = (n.val : ℤ) then upd (ix1 e) else 0 := by
  unfold Ideal.hostScatterAdd
  congr 1
  rw [Finset.sum_filter, sum_idx1]
  refine Finset.sum_congr rfl fun e _ => ?_
  simp only [scatter1_resultIdx]

end Cert.Rows1

end
-- ==== Proof.KHost.lean ====
/-
  The host side of the kernel's program, read at an index.

  Before its one region the program builds, from the weights W [528, 128] and the bias b [528], the two operands
  the region reads: a table W2 [1024, 128] whose row p = 32·i + j is W's row tri(i, j), and a column b2 [1024, 1]
  whose entry p is b's entry tri(i, j).  Both are gathers at one column of start indices, a literal table of 1024
  words whose entry p is the position of the unordered pair {p / 32, p % 32} among the 528 pairs a ≤ b.
  After the region the result array [1024, 50000] is recast as [32, 32, 50000] and its axes are permuted to
  [50000, 32, 32]: entry (n, i, j) of the result is entry (32·i + j, n) of the region's output array.
-/
import proofs.«104952_g68075231641772_cont_9to1c4b_264_9_alg».proof.Proof.Gen.KernelIdeal.Frame
import proofs.«104952_g68075231641772_cont_9to1c4b_264_9_alg».proof.Proof.Spec
import proofs.«104952_g68075231641772_cont_9to1c4b_264_9_alg».proof.Proof.LibRows
import proofs.«104952_g68075231641772_cont_9to1c4b_264_9_alg».proof.Proof.LibRows1
import Idealize.ShloMosaic.Lib.Pipeline.Value

set_option maxRecDepth 16384

noncomputable section

namespace Cert.KernelIdeal.HostSide

open Idealize.ShloMosaic Idealize.ShloMosaic.TcCoe Idealize.ShloMosaic.Tactic
open Idealize.SL.Sem
open Idealize.ShloMosaic.Pipeline (Dat Cfg Window)
open Cert.KernelIdeal Cert.KernelIdeal.Gen Cert.SymSpec Idealize.ShloMosaic.ValueIdx

/-! ## The table of pair positions -/

/-- Position p = 32·i + j of the 32 × 32 layout stands for the unordered pair {i, j}: its place among the 528
    pairs a ≤ b. -/
abbrev pairOf (p : Fin 1024) : Fin 528 :=
  tri ⟨p.val / 32, Nat.div_lt_of_lt_mul p.isLt⟩ ⟨p.val % 32, Nat.mod_lt _ (by decide)⟩

/-- At p = 32·i + j it is tri(i, j). -/
theorem pairOf_mk (i j : Fin 32) (h : 32 * i.val + j.val < 1024) : pairOf ⟨32 * i.val + j.val, h⟩ = tri i j := by
  have hi : (32 * i.val + j.val) / 32 = i.val := by have := j.isLt; omega
  have hj : (32 * i.val + j.val) % 32 = j.val := by have := j.isLt; omega
  show tri ⟨(32 * i.val + j.val) / 32, _⟩ ⟨(32 * i.val + j.val) % 32, _⟩ = tri i j
  congr 1
  · exact Fin.ext hi
  · exact Fin.ext hj

/-- The literal table holds, at every position, that pair's place: checked entry by entry. -/
theorem lit0_tri : ∀ f : Fin 1024, (lit0 f).toNat
    = (tri ⟨f.val / 32, Nat.div_lt_of_lt_mul f.isLt⟩ ⟨f.val % 32, Nat.mod_lt _ (by decide)⟩).val := by
  decide +kernel

/-- A table entry read as a signed word and clamped into [0, 527] is the pair's place: the entry is below 528. -/
theorem start_eq (p : Fin 1024) : min (lit0 p).toInt.toNat (528 - 1) = (pairOf p).val := by
  have h : (lit0 p).toNat = (pairOf p).val := lit0_tri p
  have hlt : (pairOf p).val < 528 := (pairOf p).isLt
  have hi : (lit0 p).toInt = (((lit0 p).toNat : Nat) : Int) :=
    BitVec.toInt_eq_toNat_of_lt (by rw [h]; omega)
  rw [hi, Int.toNat_natCast, h]
  omega

/-! ## The two operands the region finds -/

variable (m : (ℓ : Loc nD τ sig) → Buf (Elt Ideal) ℓ)

/-- The column of start indices both gathers read: the table of pair positions, each entry offset by 528 where
    a mask holds (it holds nowhere), recast as a column. -/
def startCol : IVec S1024x1 32 :=
  broadcastInDim S1024x1 ![0] bcast_S1024_S1024x1_0
    (select (constantI S1024 1 0#1)
      (addi (fun i => lit0 (S1024.rowMajor i)) (broadcastInDim S1024 ![] bcast_S_S1024 (constantI S_ 32 528#32)))
      fun i => lit0 (S1024.rowMajor i))

/-- Entry p of the column is entry p of the table: the mask is false everywhere, so the offset entries are never taken. -/
theorem startCol_apply (p : Fin 1024) : startCol (ix2 p (0 : Fin 1)) = lit0 p := by
  unfold startCol
  rw [broadcastInDim_apply (![0] : Fin 1 → Fin S1024x1.rank) bcast_S1024_S1024x1_0 _ (ix2 p (0 : Fin 1)) (ix1 p)
    (fun a => by
      match a with
      | ⟨0, _⟩ => rfl)]
  rw [select_apply]
  show Scalar.select 0#1 _ (lit0 (S1024.rowMajor (ix1 p))) = lit0 p
  rw [select_zero]
  congr 1
  exact Fin.ext (Shape.rowMajor_val_one _)

/-- The first operand is the gather of W's rows at that column. -/
theorem v4_term (c : Dev nD) : (Gen.V m c main_v4 : S1024x128.Idx → EReal)
    = Host.gather gather_S528x128_S1024x1_S1024x128_1_0_n_n_0_1_1128 (m (c, Proc.tc.devRef main_arg1)) startCol := by
  show StableHlo.after hostOps0 (fun b => m (c, b)) (Proc.devRef .tc main_v4) = _
  after_results
  rfl

/-- Row p of the first operand is W's row at the place of the pair p stands for. -/
theorem V_main_v4 (c : Dev nD) (p : Fin 1024) (k : Fin 128) :
    (Gen.V m c main_v4 : S1024x128.Idx → EReal) (ix2 p k)
      = (m ((c : Thread nD τ).loc main_arg1) : S528x128.Idx → EReal) (ix2 (pairOf p) k) := by
  rw [v4_term]
  show Host.gather (Cert.Rows.gather2 528 128 1024 gather_S528x128_S1024x1_S1024x128_1_0_n_n_0_1_1128_wf)
    (m (c, Proc.tc.devRef main_arg1)) startCol (ix2 p k) = _
  rw [Cert.Rows.gather2_apply (by decide)]
  refine congrArg (m ((c : Thread nD τ).loc main_arg1) : S528x128.Idx → EReal)
    (congrArg (fun r : Fin 528 => ix2 r k) (Fin.ext ?_))
  show min (startCol (ix2 p (0 : Fin 1))).toInt.toNat (528 - 1) = (pairOf p).val
  rw [startCol_apply]
  exact start_eq p

/-- The second operand is the gather of b's entries at the same column, kept as a column. -/
theorem v10_term (c : Dev nD) : (Gen.V m c main_v10 : S1024x1.Idx → EReal)
    = broadcastInDim S1024x1 ![0] bcast_S1024_S1024x1_0
        (Host.gather gather_S528_S1024x1_S1024_n_0_n_n_0_1_1 (m (c, Proc.tc.devRef main_arg2)) startCol) := by
  show StableHlo.after hostOps0 (fun b => m (c, b)) (Proc.devRef .tc main_v10) = _
  after_results
  rfl

/-- Entry p of the second operand is b's entry at the place of the pair p stands for. -/
theorem V_main_v10 (c : Dev nD) (p : Fin 1024) :
    (Gen.V m c main_v10 : S1024x1.Idx → EReal) (ix2 p (0 : Fin 1))
      = (m ((c : Thread nD τ).loc main_arg2) : S528.Idx → EReal) (ix1 (pairOf p)) := by
  rw [v10_term]
  rw [broadcastInDim_apply (![0] : Fin 1 → Fin S1024x1.rank) bcast_S1024_S1024x1_0 _ (ix2 p (0 : Fin 1)) (ix1 p)
    (fun a => by
      match a with
      | ⟨0, _⟩ => rfl)]
  show Host.gather (Cert.Rows1.gather1 528 1024 gather_S528_S1024x1_S1024_n_0_n_n_0_1_1_wf)
    (m (c, Proc.tc.devRef main_arg2)) startCol (ix1 p) = _
  rw [Cert.Rows1.gather1_apply (by decide)]
  refine congrArg (m ((c : Thread nD τ).loc main_arg2) : S528.Idx → EReal)
    (congrArg (fun r : Fin 528 => ix1 r) (Fin.ext ?_))
  show min (startCol (ix2 p (0 : Fin 1))).toInt.toNat (528 - 1) = (pairOf p).val
  rw [startCol_apply]
  exact start_eq p

/-! ## The host operations after the region -/

/-- The result is the region's output array recast and transposed. -/
theorem v13_term (dats : (p : Fin 1) → (c : Dev nD) → Dat τ (Elt Ideal) Unit ℕ (UR sig nD τ) ℕ (cfgs p) c) (c : Dev nD) :
    (Pipeline.afterTail₀ cfgs dats 0 (Gen.V0 m) [Gen.hostOps1] c main_v13 : S50000x32x32.Idx → EReal)
      = transpose S50000x32x32 [2, 0, 1]
          (shapeCast S32x32x50000 ((dats 0 c).arrAt 3 cfg0.N : S1024x50000.Idx → EReal) shapeCasts_S1024x50000_S32x32x50000)
          transposes_S32x32x50000_S50000x32x32_2_0_1 := by
  unfold Pipeline.afterTail₀
  show StableHlo.after hostOps1 _ (Proc.devRef .tc main_v13) = _
  after_results
  exact congrArg (fun z : S1024x50000.Idx → EReal => transpose S50000x32x32 [2, 0, 1]
      (shapeCast S32x32x50000 z shapeCasts_S1024x50000_S32x32x50000) transposes_S32x32x50000_S50000x32x32_2_0_1)
    (Pipeline.withArrays_arr spec0 launch0.win.arr_inj c _ _ 3)

/-- Entry (n, i, j) of the result is entry (32·i + j, n) of the region's output array. -/
theorem W_main_v13 (dats : (p : Fin 1) → (c : Dev nD) → Dat τ (Elt Ideal) Unit ℕ (UR sig nD τ) ℕ (cfgs p) c) (c : Dev nD)
    (n : Fin 50000) (i j : Fin 32) :
    (Pipeline.afterTail₀ cfgs dats 0 (Gen.V0 m) [Gen.hostOps1] c main_v13 : S50000x32x32.Idx → EReal) (ix3 n i j)
      = ((dats 0 c).arrAt 3 cfg0.N : S1024x50000.Idx → EReal)
          (ix2 (⟨32 * i.val + j.val, by have := i.isLt; have := j.isLt; omega⟩ : Fin 1024) n) := by
  rw [v13_term]
  rw [transpose_apply [2, 0, 1] _ transposes_S32x32x50000_S50000x32x32_2_0_1 (ix3 n i j) (ix3 i j n)
    (fun b => by
      match b with
      | ⟨0, _⟩ => rfl
      | ⟨1, _⟩ => rfl
      | ⟨2, _⟩ => rfl)]
  refine shapeCast_apply _ shapeCasts_S1024x50000_S32x32x50000 (ix3 i j n) _ ?_
  rw [Shape.rowMajor_val_two, Shape.rowMajor_val_three]
  show (32 * i.val + j.val) * 50000 + n.val = (i.val * 32 + j.val) * 50000 + n.val
  omega

end Cert.KernelIdeal.HostSide

end
-- ==== Proof.KFinal.lean ====
/-
  The kernel's run with its result named: every weakly fair execution of the idealized program terminates, and
  the result array then holds, at (n, i, j), the linear layer's entry for the pair {i, j} of node n, which is the
  specification's array; the three argument arrays end as launched.  The result array is read through the two host
  operations after the region (entry (n, i, j) is entry (32·i + j, n) of the region's output), the region's output
  through the body's arithmetic (row p of the gathered weights against row n of the features, plus the gathered
  bias at p), and the gathered operands through the table of pair positions (row 32·i + j is W's row tri(i, j)).
-/
import proofs.«104952_g68075231641772_cont_9to1c4b_264_9_alg».proof.Proof.KRun
import proofs.«104952_g68075231641772_cont_9to1c4b_264_9_alg».proof.Proof.KValue
import proofs.«104952_g68075231641772_cont_9to1c4b_264_9_alg».proof.Proof.KHost
import proofs.«104952_g68075231641772_cont_9to1c4b_264_9_alg».proof.Proof.Spec

set_option maxRecDepth 16384

noncomputable section

open scoped BigOperators

namespace Cert.KernelIdeal.Hand

open Cert.KernelIdeal Cert.KernelIdeal.Gen Cert.SymSpec

open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- Row p of A against row n of X, plus the column B at p. -/
def entryOf (A : S1024x128.Idx → EReal) (X : S50000x128.Idx → EReal) (B : S1024x1.Idx → EReal)
    (p : Fin 1024) (n : Fin 50000) : EReal :=
  (∑ k : Fin 128, A (ix2 p k) * X (ix2 n k)) + B (ix2 p (0 : Fin 1))

/-- From the frame run's post to the named result: for any proof data whose arrays are the region-entry contents
    and whose output array holds, at (p, n), row p of the first operand against row n of the features plus the
    second operand at p. -/
theorem post_of (dats : (p : Fin 1) → (c : Dev nD) → Dat τ (Elt Ideal) Unit ℕ (UR sig nD τ) ℕ (cfgs p) c)
    (hA : ∀ c w, (dats 0 c).A w = V m c (Pipeline.arrRef spec0 w))
    (hval : ∀ (c : Dev nD) (p : Fin 1024) (n : Fin 50000),
      ((dats 0 c).arrAt 3 cfg0.N : S1024x50000.Idx → EReal) (ix2 p n)
        = entryOf (V m c main_v4) (V m c main_arg0) (V m c main_v10) p n)
    (r : PUnit × MemSt nD τ sig (Elt Ideal))
    (h : Pipeline.FramePost cfgs dats 0 (Pipeline.afterTail₀ cfgs dats 0 (V0 m) [hostOps1]) r) (c : Dev nD) :
    r.2.mem ((c.tc : Thread nD τ).loc main_v13)
        = SymSpec.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine ⟨?_, ((h c).1 1).trans (((dats 0 c).arrAt_in 1 rfl _).trans ((hA c 1).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c))⟩
  refine ((h c).2 main_v13 (Pipeline.mem_restRefs_of main_v13 (by decide) (by decide))).trans ?_
  funext idx
  obtain ⟨n, i, j, rfl⟩ : ∃ (n : Fin 50000) (i j : Fin 32), idx = ix3 n i j := ⟨idx 0, idx 1, idx 2, eq_ix3 idx⟩
  refine (HostSide.W_main_v13 m dats c n i j).trans ?_
  refine (hval c _ n).trans ?_
  rw [out_ix3]
  unfold SymSpec.outAt entryOf
  rw [HostSide.V_main_v10, HostSide.pairOf_mk i j, Gen.V_main_arg0]
  congr 1
  refine Finset.sum_congr rfl fun k _ => ?_
  rw [HostSide.V_main_v4, HostSide.pairOf_mk i j]

/-- The run with its result named, from the value of the region's output array. -/
theorem kernel_run_of
    (hval : ∀ (c : Dev nD) (p : Fin 1024) (n : Fin 50000),
      ((dats m 0 c).arrAt 3 cfg0.N : S1024x50000.Idx → EReal) (ix2 p n)
        = entryOf (V m c main_v4) (V m c main_arg0) (V m c main_v10) p n) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread nD τ).loc main_v13)
            = SymSpec.out (m ((c.tc : Thread nD τ).loc main_arg0)) (m ((c.tc : Thread nD τ).loc main_arg1)) (m ((c.tc : Thread nD τ).loc main_arg2))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)) :=
  (θ_run defs _ _).mono (fun r h c => post_of m (dats m) (A_eq m) hval r h c) (run_main m ρ)

/-- The kernel's run: it terminates, the result array is the specification's, the arguments end as launched. -/
theorem kernel_run :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread nD τ).loc main_v13)
            = SymSpec.out (m ((c.tc : Thread nD τ).loc main_arg0)) (m ((c.tc : Thread nD τ).loc main_arg1)) (m ((c.tc : Thread nD τ).loc main_arg2))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)) :=
  kernel_run_of m ρ (fun c p n => by unfold entryOf; exact out_apply m c p n)

end Cert.KernelIdeal.Hand

end
-- ==== Proof.RefStages.lean ====
/-
  The reference computes the upper triangle's index pairs at run time: a 32 × 32 mask of the entries on and
  above the diagonal, flattened; its running count; for each count value q < 528 the number of positions whose
  running count is q; the running sum of those numbers, which at p is the number of positions whose running
  count is at most p — the flat position of the p-th entry of the mask, counting from zero —; and that position's
  quotient and remainder by 32, the pair's row and column.  Each stage is named here as the operations' own term,
  one definition per stage over the earlier ones, so that each can be evaluated by itself.
-/
import proofs.«104952_g68075231641772_cont_9to1c4b_264_9_alg».proof.Proof.Gen.ReferenceIdeal
import Idealize.ShloMosaic.PureOps.Ideal

noncomputable section

namespace Cert.ReferenceIdeal.Stages

open Idealize.ShloMosaic Cert.ReferenceIdeal Cert.ReferenceIdeal.Facts₀

/-- A 32 × 32 array of ones. -/
def ones5 : FVec Ideal S32x32 .f32 :=
  broadcastInDim S32x32 ![] bcast_S_S32x32 (constant (F := Ideal) S_ .f32 0x3F800000#32)

/-- A 32 × 32 array of zeros. -/
def zeros7 : FVec Ideal S32x32 .f32 :=
  broadcastInDim S32x32 ![] bcast_S_S32x32 (constant (F := Ideal) S_ .f32 0x00000000#32)

/-- The ones with the entries strictly below the diagonal (row - 1 ≥ column) replaced by zero. -/
def triu6 : FVec Ideal S32x32 .f32 :=
  select (cmpi .sge (addi (iotaInDim S32x32 32 0) (broadcastInDim S32x32 ![] bcast_S_S32x32 (constantI S_ 32 4294967295#32)))
      (iotaInDim S32x32 32 1)) zeros7 ones5

/-- The mask of its nonzero entries. -/
def mask8 : IVec S32x32 1 := cmpf .une triu6 zeros7

/-- The mask flattened to 1024 entries and widened to 32-bit integers. -/
def mask1 : IVec S1024 32 := extui 32 (shapeCast S1024 mask8 shapeCasts_S32x32_S1024) natLt_1_32

/-- The integer zero of rank zero, as the two running sums spell it. -/
def zero0 : IVec S_ 32 := broadcastInDim S_ ![] bcast_S_S_ (constantI S_ 32 0#32)

/-- The running count of the mask: entry f is the number of mask positions up to and including f. -/
def csum9 : IVec S1024 32 :=
  Host.reduceWindow IntOp.addi ![1024] ![1] ![1023] ![0] mask1 zero0 reduceWindows_S1024_S1024_w1024s1p1023_0 h_S_

/-- The running count clamped below at zero. -/
def clip11 : IVec S1024 32 := maxsi (broadcastInDim S1024 ![] bcast_S_S1024 (id (constantI S_ 32 0#32))) csum9

/-- A negative entry wrapped around by 528 (none is negative). -/
def idx16 : IVec S1024 32 :=
  select (cmpi .slt clip11 (broadcastInDim S1024 ![] bcast_S_S1024 (constantI S_ 32 0#32)))
    (addi clip11 (broadcastInDim S1024 ![] bcast_S_S1024 (constantI S_ 32 528#32))) clip11

/-- For each q < 528 the number of positions whose running count is q. -/
def bins19 : IVec S528 32 :=
  Host.scatter scatter_S528_S1024x1_S1024_n_0_0_1 IntOp.addi (broadcastInDim S528 ![] bcast_S_S528 (constantI S_ 32 0#32))
    (broadcastInDim S1024x1 ![0] bcast_S1024_S1024x1_0 idx16) (broadcastInDim S1024 ![] bcast_S_S1024 (constantI S_ 32 1#32))

/-- Their running sum: entry p is the flat position of the p-th mask entry. -/
def flat20 : IVec S528 32 :=
  Host.reduceWindow IntOp.addi ![528] ![1] ![527] ![0] bins19 zero0 reduceWindows_S528_S528_w528s1p527_0 h_S_

/-- The floor quotient of a vector by a scalar d, as the reference spells it: the truncated quotient, less one
    where the signs differ and the remainder is not zero. -/
def floorDiv (a : IVec S528 32) (d : IVec S_ 32) : IVec S528 32 :=
  let q := Host.divsi a (broadcastInDim S528 ![] bcast_S_S528 d)
  select (andi (cmpi .ne (signi a) (broadcastInDim S528 ![] bcast_S_S528 (signi d)))
      (cmpi .ne (Host.remsi a (broadcastInDim S528 ![] bcast_S_S528 d)) (broadcastInDim S528 ![] bcast_S_S528 (constantI S_ 32 0#32))))
    (subi q (broadcastInDim S528 ![] bcast_S_S528 (constantI S_ 32 1#32))) q

/-- The remainder of a vector by a scalar d with the divisor's sign, as the reference spells it. -/
def floorRem (a : IVec S528 32) (d : IVec S_ 32) : IVec S528 32 :=
  let d' : IVec S_ 32 := select (cmpi .eq (id d) (constantI S_ 32 0#32)) (constantI S_ 32 1#32) (id d)
  let r := Host.remsi a (broadcastInDim S528 ![] bcast_S_S528 d')
  select (andi (cmpi .ne (cmpi .slt r (broadcastInDim S528 ![] bcast_S_S528 (constantI S_ 32 0#32)))
        (broadcastInDim S528 ![] bcast_S_S528 (cmpi .slt d' (constantI S_ 32 0#32))))
      (cmpi .ne r (broadcastInDim S528 ![] bcast_S_S528 (constantI S_ 32 0#32))))
    (addi r (broadcastInDim S528 ![] bcast_S_S528 d')) r

/-- The p-th pair's row: the flat position's quotient by 32, reduced modulo 32. -/
def rows22 : IVec S528 32 := floorRem (floorDiv flat20 (constantI S_ 32 32#32)) (constantI S_ 32 32#32)

/-- The p-th pair's column: the flat position's quotient by 1, reduced modulo 32. -/
def cols24 : IVec S528 32 := floorRem (floorDiv flat20 (constantI S_ 32 1#32)) (constantI S_ 32 32#32)

/-- A negative index wrapped around by 32 (none is negative). -/
def wrap32 (a : IVec S528 32) : IVec S528 32 :=
  select (cmpi .slt a (broadcastInDim S528 ![] bcast_S_S528 (constantI S_ 32 0#32)))
    (addi a (broadcastInDim S528 ![] bcast_S_S528 (constantI S_ 32 32#32))) a

/-- Two index vectors side by side: a 528 × 2 array of (first, second) pairs. -/
def pairs (a b : IVec S528 32) : IVec S528x2 32 :=
  concatenate S528x2 1 [⟨S528x1, broadcastInDim S528x1 ![0] bcast_S528_S528x1_0 a⟩, ⟨S528x1, broadcastInDim S528x1 ![0] bcast_S528_S528x1_0 b⟩]
    concatenates_S528x1_S528x1_S528x2_d1

/-- The (row, column) pairs of the upper triangle, and the (column, row) pairs of the lower. -/
def idxUp : IVec S528x2 32 := pairs (wrap32 rows22) (wrap32 cols24)
def idxLo : IVec S528x2 32 := pairs (wrap32 cols24) (wrap32 rows22)

end Cert.ReferenceIdeal.Stages

end
-- ==== Proof.RefA.lean ====
/- The linear layer: operations 1–5 of the reference's host program. The operations as a list — once as the program spells them (an outlined function's operation over
   its typed references) and once each at its buffers, the two equal —, the facts the run asks of a list (every operation
   touches TensorCore buffers only and determines its results), and what the list leaves at the buffers read later. -/
import proofs.«104952_g68075231641772_cont_9to1c4b_264_9_alg».proof.Proof.RefStages
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Operations 1 … 5 of @main as the program spells them, the outlined functions' operations in place of their calls. -/
abbrev opsTA : List (HloOp τ sig (Elt F)) :=
  [ StableHlo.unary main_arg1 main_v0 ((transpose S128x528 [1, 0] · transposes_S528x128_S128x528_1_0) : (⟨S528x128, .f32⟩ : BufTy).Contents (Elt F) → (⟨S128x528, .f32⟩ : BufTy).Contents (Elt F)),
    StableHlo.binary main_arg0 main_v0 main_v1 ((fun l r => Host.dotGeneral dot_S50000x128_S128x528_S50000x528_1_0_0_1_n_n none l r) : (⟨S50000x128, .f32⟩ : BufTy).Contents (Elt F) → (⟨S128x528, .f32⟩ : BufTy).Contents (Elt F) → (⟨S50000x528, .f32⟩ : BufTy).Contents (Elt F)),
    StableHlo.unary main_arg2 main_v2 (broadcastInDim S1x528 ![1] bcast_S528_S1x528_1 : (⟨S528, .f32⟩ : BufTy).Contents (Elt F) → (⟨S1x528, .f32⟩ : BufTy).Contents (Elt F)),
    StableHlo.unary main_v2 main_v3 (broadcastInDim S50000x528 ![0, 1] bcast_S1x528_S50000x528_0_1 : (⟨S1x528, .f32⟩ : BufTy).Contents (Elt F) → (⟨S50000x528, .f32⟩ : BufTy).Contents (Elt F)),
    StableHlo.binary main_v1 main_v3 main_v4 (addf : (⟨S50000x528, .f32⟩ : BufTy).Contents (Elt F) → (⟨S50000x528, .f32⟩ : BufTy).Contents (Elt F) → (⟨S50000x528, .f32⟩ : BufTy).Contents (Elt F)) ]

/-- The same operations, each at its buffers. -/
abbrev opsA : List (HloOp τ sig (Elt F)) :=
  [ StableHlo.unary main_arg1 main_v0 ((transpose S128x528 [1, 0] · transposes_S528x128_S128x528_1_0) : (⟨S528x128, .f32⟩ : BufTy).Contents (Elt F) → (⟨S128x528, .f32⟩ : BufTy).Contents (Elt F)),
    StableHlo.binary main_arg0 main_v0 main_v1 ((fun l r => Host.dotGeneral dot_S50000x128_S128x528_S50000x528_1_0_0_1_n_n none l r) : (⟨S50000x128, .f32⟩ : BufTy).Contents (Elt F) → (⟨S128x528, .f32⟩ : BufTy).Contents (Elt F) → (⟨S50000x528, .f32⟩ : BufTy).Contents (Elt F)),
    StableHlo.unary main_arg2 main_v2 (broadcastInDim S1x528 ![1] bcast_S528_S1x528_1 : (⟨S528, .f32⟩ : BufTy).Contents (Elt F) → (⟨S1x528, .f32⟩ : BufTy).Contents (Elt F)),
    StableHlo.unary main_v2 main_v3 (broadcastInDim S50000x528 ![0, 1] bcast_S1x528_S50000x528_0_1 : (⟨S1x528, .f32⟩ : BufTy).Contents (Elt F) → (⟨S50000x528, .f32⟩ : BufTy).Contents (Elt F)),
    StableHlo.binary main_v1 main_v3 main_v4 (addf : (⟨S50000x528, .f32⟩ : BufTy).Contents (Elt F) → (⟨S50000x528, .f32⟩ : BufTy).Contents (Elt F) → (⟨S50000x528, .f32⟩ : BufTy).Contents (Elt F)) ]

set_option maxHeartbeats 0 in
set_option maxRecDepth 100000 in
/-- An operation over typed references is the operation at their buffers: the references are literal, so moving a value
    between a buffer's type and the tensor's type is the identity. -/
theorem opsTA_eq : (opsTA : List (HloOp τ sig (Elt F))) = opsA := rfl

theorem opsA_sub : (opsA : List (HloOp τ sig (Elt F))).Forall fun op => op.bufs ⊆ tcRefs τ sig :=
  ⟨unary_bufs_sub .., binary_bufs_sub .., unary_bufs_sub .., unary_bufs_sub .., binary_bufs_sub ..⟩

theorem opsA_fresh : ∀ op ∈ (opsA : List (HloOp τ sig (Elt F))), op.fresh = ∅ := by
  intro _ h; (repeat (cases h with | head => rfl | tail _ h => ?_)); exact nomatch h

/-- The first five operations leave x · Wᵀ + b at `%4`. -/
theorem A_v4 (V : Valuation τ sig (Elt Ideal)) :
    after (opsA (F := Ideal)) V (main_v4 : DevRef τ sig)
      = addf (F := Ideal) (φ := .f32)
        (Host.dotGeneral (F := Ideal) (φ₁ := .f32) (φ₂ := .f32) dot_S50000x128_S128x528_S50000x528_1_0_0_1_n_n none (V (main_arg0 : DevRef τ sig))
          (transpose S128x528 [1, 0] (V (main_arg1 : DevRef τ sig)) transposes_S528x128_S128x528_1_0))
        (broadcastInDim S50000x528 ![0, 1] bcast_S1x528_S50000x528_0_1 (broadcastInDim S1x528 ![1] bcast_S528_S1x528_1 (V (main_arg2 : DevRef τ sig)))) := by
  after_results_simp
  try (with_reducible rfl)

theorem A_keep_arg0 (V : Valuation τ sig (Elt F)) : after opsA V (main_arg0 : DevRef τ sig) = V (main_arg0 : DevRef τ sig) := by
  after_results_simp

theorem A_keep_arg1 (V : Valuation τ sig (Elt F)) : after opsA V (main_arg1 : DevRef τ sig) = V (main_arg1 : DevRef τ sig) := by
  after_results_simp

theorem A_keep_arg2 (V : Valuation τ sig (Elt F)) : after opsA V (main_arg2 : DevRef τ sig) = V (main_arg2 : DevRef τ sig) := by
  after_results_simp

end Cert.ReferenceIdeal.Hand

end
-- ==== Proof.RefB1.lean ====
/- The upper-triangular mask: operations 6–19. The operations as a list — once as the program spells them (an outlined function's operation over
   its typed references) and once each at its buffers, the two equal —, the facts the run asks of a list (every operation
   touches TensorCore buffers only and determines its results), and what the list leaves at the buffers read later. -/
import proofs.«104952_g68075231641772_cont_9to1c4b_264_9_alg».proof.Proof.RefStages
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Operations 6 … 19 of @main as the program spells them, the outlined functions' operations in place of their calls. -/
abbrev opsTB1 : List (HloOp τ sig (Elt F)) :=
  [ StableHlo.nullary main_cst (constant S_ .f32 0x3F800000#32),
    StableHlo.unary main_cst main_v5 (broadcastInDim S32x32 ![] bcast_S_S32x32 : (⟨S_, .f32⟩ : BufTy).Contents (Elt F) → (⟨S32x32, .f32⟩ : BufTy).Contents (Elt F)),
    StableHlo.TRef.nullary main_call0.v0 (iotaInDim S32x32 32 0),
    StableHlo.TRef.nullary main_call0.c (constantI S_ 32 4294967295#32),
    StableHlo.TRef.unary main_call0.c main_call0.v1 (broadcastInDim S32x32 ![] bcast_S_S32x32),
    StableHlo.TRef.binary main_call0.v0 main_call0.v1 main_call0.v2 addi,
    StableHlo.TRef.nullary main_call0.v3 (iotaInDim S32x32 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S32x32 ![] bcast_S_S32x32),
    StableHlo.TRef.ternary main_call0.v4 main_call0.v5 (.of main_v5 : StableHlo.TRef sig ⟨S32x32, .f32⟩) main_call0.v6 select,
    StableHlo.nullary main_cst_0 (constant S_ .f32 0x00000000#32),
    StableHlo.unary main_cst_0 main_v7 (broadcastInDim S32x32 ![] bcast_S_S32x32 : (⟨S_, .f32⟩ : BufTy).Contents (Elt F) → (⟨S32x32, .f32⟩ : BufTy).Contents (Elt F)),
    StableHlo.binary main_v6 main_v7 main_v8 (cmpf .une : (⟨S32x32, .f32⟩ : BufTy).Contents (Elt F) → (⟨S32x32, .f32⟩ : BufTy).Contents (Elt F) → (⟨S32x32, .i1⟩ : BufTy).Contents (Elt F)) ]

/-- The same operations, each at its buffers. -/
abbrev opsB1 : List (HloOp τ sig (Elt F)) :=
  [ StableHlo.nullary main_cst (constant S_ .f32 0x3F800000#32),
    StableHlo.unary main_cst main_v5 (broadcastInDim S32x32 ![] bcast_S_S32x32 : (⟨S_, .f32⟩ : BufTy).Contents (Elt F) → (⟨S32x32, .f32⟩ : BufTy).Contents (Elt F)),
    StableHlo.nullary main_call0_v0 ((iotaInDim S32x32 32 0) : (⟨S32x32, .i32⟩ : BufTy).Contents (Elt F)),
    StableHlo.nullary main_call0_c ((constantI S_ 32 4294967295#32) : (⟨S_, .i32⟩ : BufTy).Contents (Elt F)),
    StableHlo.unary main_call0_c main_call0_v1 ((broadcastInDim S32x32 ![] bcast_S_S32x32) : (⟨S_, .i32⟩ : BufTy).Contents (Elt F) → (⟨S32x32, .i32⟩ : BufTy).Contents (Elt F)),
    StableHlo.binary main_call0_v0 main_call0_v1 main_call0_v2 (addi : (⟨S32x32, .i32⟩ : BufTy).Contents (Elt F) → (⟨S32x32, .i32⟩ : BufTy).Contents (Elt F) → (⟨S32x32, .i32⟩ : BufTy).Contents (Elt F)),
    StableHlo.nullary main_call0_v3 ((iotaInDim S32x32 32 1) : (⟨S32x32, .i32⟩ : BufTy).Contents (Elt F)),
    StableHlo.binary main_call0_v2 main_call0_v3 main_call0_v4 ((cmpi .sge) : (⟨S32x32, .i32⟩ : BufTy).Contents (Elt F) → (⟨S32x32, .i32⟩ : BufTy).Contents (Elt F) → (⟨S32x32, .i1⟩ : BufTy).Contents (Elt F)),
    StableHlo.nullary main_call0_cst ((constant S_ .f32 0x00000000#32) : (⟨S_, .f32⟩ : BufTy).Contents (Elt F)),
    StableHlo.unary main_call0_cst main_call0_v5 ((broadcastInDim S32x32 ![] bcast_S_S32x32) : (⟨S_, .f32⟩ : BufTy).Contents (Elt F) → (⟨S32x32, .f32⟩ : BufTy).Contents (Elt F)),
    StableHlo.ternary main_call0_v4 main_call0_v5 main_v5 main_v6 (select : (⟨S32x32, .i1⟩ : BufTy).Contents (Elt F) → (⟨S32x32, .f32⟩ : BufTy).Contents (Elt F) → (⟨S32x32, .f32⟩ : BufTy).Contents (Elt F) → (⟨S32x32, .f32⟩ : BufTy).Contents (Elt F)),
    StableHlo.nullary main_cst_0 (constant S_ .f32 0x00000000#32),
    StableHlo.unary main_cst_0 main_v7 (broadcastInDim S32x32 ![] bcast_S_S32x32 : (⟨S_, .f32⟩ : BufTy).Contents (Elt F) → (⟨S32x32, .f32⟩ : BufTy).Contents (Elt F)),
    StableHlo.binary main_v6 main_v7 main_v8 (cmpf .une : (⟨S32x32, .f32⟩ : BufTy).Contents (Elt F) → (⟨S32x32, .f32⟩ : BufTy).Contents (Elt F) → (⟨S32x32, .i1⟩ : BufTy).Contents (Elt F)) ]

set_option maxHeartbeats 0 in
set_option maxRecDepth 100000 in
/-- An operation over typed references is the operation at their buffers: the references are literal, so moving a value
    between a buffer's type and the tensor's type is the identity. -/
theorem opsTB1_eq : (opsTB1 : List (HloOp τ sig (Elt F))) = opsB1 := rfl

theorem opsB1_sub : (opsB1 : List (HloOp τ sig (Elt F))).Forall fun op => op.bufs ⊆ tcRefs τ sig :=
  ⟨nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub ..⟩

theorem opsB1_fresh : ∀ op ∈ (opsB1 : List (HloOp τ sig (Elt F))), op.fresh = ∅ := by
  intro _ h; (repeat (cases h with | head => rfl | tail _ h => ?_)); exact nomatch h

/-- The mask at `%8`. -/
theorem B1_v8 (V : Valuation τ sig (Elt Ideal)) : after (opsB1 (F := Ideal)) V (main_v8 : DevRef τ sig) = Stages.mask8 := by
  after_results_simp
  simp only [Stages.mask8, Stages.triu6, Stages.zeros7, Stages.ones5]
  try (with_reducible rfl)

theorem B1_keep_arg0 (V : Valuation τ sig (Elt F)) : after opsB1 V (main_arg0 : DevRef τ sig) = V (main_arg0 : DevRef τ sig) := by
  after_results_simp

theorem B1_keep_arg1 (V : Valuation τ sig (Elt F)) : after opsB1 V (main_arg1 : DevRef τ sig) = V (main_arg1 : DevRef τ sig) := by
  after_results_simp

theorem B1_keep_arg2 (V : Valuation τ sig (Elt F)) : after opsB1 V (main_arg2 : DevRef τ sig) = V (main_arg2 : DevRef τ sig) := by
  after_results_simp

theorem B1_keep_v4 (V : Valuation τ sig (Elt F)) : after opsB1 V (main_v4 : DevRef τ sig) = V (main_v4 : DevRef τ sig) := by
  after_results_simp

end Cert.ReferenceIdeal.Hand

end
-- ==== Proof.RefB2.lean ====
/- From the mask to the flat positions of its set entries: operations 20–44. The operations as a list — once as the program spells them (an outlined function's operation over
   its typed references) and once each at its buffers, the two equal —, the facts the run asks of a list (every operation
   touches TensorCore buffers only and determines its results), and what the list leaves at the buffers read later. -/
import proofs.«104952_g68075231641772_cont_9to1c4b_264_9_alg».proof.Proof.RefStages
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Operations 20 … 44 of @main as the program spells them, the outlined functions' operations in place of their calls. -/
abbrev opsTB2 : List (HloOp τ sig (Elt F)) :=
  [ StableHlo.TRef.reshape (.of main_v8 : StableHlo.TRef sig ⟨S32x32, .i1⟩) main_call1.v0 rfl shapeCasts_S32x32_S1024,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![1024] ![1] ![1023] ![0] x v reduceWindows_S1024_S1024_w1024s1p1023_0 h_S_),
    StableHlo.nullary main_c (constantI S_ 32 0#32),
    StableHlo.unary main_c main_v10 (broadcastInDim S528 ![] bcast_S_S528 : (⟨S_, .i32⟩ : BufTy).Contents (Elt F) → (⟨S528, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S1024 ![] bcast_S_S1024),
    StableHlo.TRef.binary main_call2.v1 (.of main_v9 : StableHlo.TRef sig ⟨S1024, .i32⟩) main_call2.v2 maxsi,
    StableHlo.nullary main_c_2 (constantI S_ 32 0#32),
    StableHlo.unary main_c_2 main_v12 (broadcastInDim S1024 ![] bcast_S_S1024 : (⟨S_, .i32⟩ : BufTy).Contents (Elt F) → (⟨S1024, .i32⟩ : BufTy).Contents (Elt F)),
    StableHlo.binary main_v11 main_v12 main_v13 (cmpi .slt : (⟨S1024, .i32⟩ : BufTy).Contents (Elt F) → (⟨S1024, .i32⟩ : BufTy).Contents (Elt F) → (⟨S1024, .i1⟩ : BufTy).Contents (Elt F)),
    StableHlo.nullary main_c_3 (constantI S_ 32 528#32),
    StableHlo.unary main_c_3 main_v14 (broadcastInDim S1024 ![] bcast_S_S1024 : (⟨S_, .i32⟩ : BufTy).Contents (Elt F) → (⟨S1024, .i32⟩ : BufTy).Contents (Elt F)),
    StableHlo.binary main_v11 main_v14 main_v15 (addi : (⟨S1024, .i32⟩ : BufTy).Contents (Elt F) → (⟨S1024, .i32⟩ : BufTy).Contents (Elt F) → (⟨S1024, .i32⟩ : BufTy).Contents (Elt F)),
    StableHlo.ternary main_v13 main_v15 main_v11 main_v16 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v16 main_v17 (broadcastInDim S1024x1 ![0] bcast_S1024_S1024x1_0 : (⟨S1024, .i32⟩ : BufTy).Contents (Elt F) → (⟨S1024x1, .i32⟩ : BufTy).Contents (Elt F)),
    StableHlo.nullary main_c_4 (constantI S_ 32 1#32),
    StableHlo.unary main_c_4 main_v18 (broadcastInDim S1024 ![] bcast_S_S1024 : (⟨S_, .i32⟩ : BufTy).Contents (Elt F) → (⟨S1024, .i32⟩ : BufTy).Contents (Elt F)),
    StableHlo.ternary main_v10 main_v17 main_v18 main_v19 ((fun x i u => Host.scatter scatter_S528_S1024x1_S1024_n_0_0_1 IntOp.addi x i u) : (⟨S528, .i32⟩ : BufTy).Contents (Elt F) → (⟨S1024x1, .i32⟩ : BufTy).Contents (Elt F) → (⟨S1024, .i32⟩ : BufTy).Contents (Elt F) → (⟨S528, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v19 : StableHlo.TRef sig ⟨S528, .i32⟩) main_call3.call0.v0 main_call3.call0.v1 (fun x v => Host.reduceWindow IntOp.addi ![528] ![1] ![527] ![0] x v reduceWindows_S528_S528_w528s1p527_0 h_S_) ]

/-- The same operations, each at its buffers. -/
abbrev opsB2 : List (HloOp τ sig (Elt F)) :=
  [ StableHlo.reshape main_v8 main_call1_v0 rfl shapeCasts_S32x32_S1024,
    StableHlo.unary main_call1_v0 main_call1_v1 ((extui 32 · natLt_1_32) : (⟨S1024, .i1⟩ : BufTy).Contents (Elt F) → (⟨S1024, .i32⟩ : BufTy).Contents (Elt F)),
    StableHlo.nullary main_call1_call0_c ((constantI S_ 32 0#32) : (⟨S_, .i32⟩ : BufTy).Contents (Elt F)),
    StableHlo.unary main_call1_call0_c main_call1_call0_v0 ((broadcastInDim S_ ![] bcast_S_S_) : (⟨S_, .i32⟩ : BufTy).Contents (Elt F) → (⟨S_, .i32⟩ : BufTy).Contents (Elt F)),
    StableHlo.binary main_call1_v1 main_call1_call0_v0 main_v9 ((fun x v => Host.reduceWindow IntOp.addi ![1024] ![1] ![1023] ![0] x v reduceWindows_S1024_S1024_w1024s1p1023_0 h_S_) : (⟨S1024, .i32⟩ : BufTy).Contents (Elt F) → (⟨S_, .i32⟩ : BufTy).Contents (Elt F) → (⟨S1024, .i32⟩ : BufTy).Contents (Elt F)),
    StableHlo.nullary main_c (constantI S_ 32 0#32),
    StableHlo.unary main_c main_v10 (broadcastInDim S528 ![] bcast_S_S528 : (⟨S_, .i32⟩ : BufTy).Contents (Elt F) → (⟨S528, .i32⟩ : BufTy).Contents (Elt F)),
    StableHlo.nullary main_c_1 (constantI S_ 32 0#32),
    StableHlo.unary main_c_1 main_call2_v0 (id : (⟨S_, .i32⟩ : BufTy).Contents (Elt F) → (⟨S_, .i32⟩ : BufTy).Contents (Elt F)),
    StableHlo.unary main_call2_v0 main_call2_v1 ((broadcastInDim S1024 ![] bcast_S_S1024) : (⟨S_, .i32⟩ : BufTy).Contents (Elt F) → (⟨S1024, .i32⟩ : BufTy).Contents (Elt F)),
    StableHlo.binary main_call2_v1 main_v9 main_v11 (maxsi : (⟨S1024, .i32⟩ : BufTy).Contents (Elt F) → (⟨S1024, .i32⟩ : BufTy).Contents (Elt F) → (⟨S1024, .i32⟩ : BufTy).Contents (Elt F)),
    StableHlo.nullary main_c_2 (constantI S_ 32 0#32),
    StableHlo.unary main_c_2 main_v12 (broadcastInDim S1024 ![] bcast_S_S1024 : (⟨S_, .i32⟩ : BufTy).Contents (Elt F) → (⟨S1024, .i32⟩ : BufTy).Contents (Elt F)),
    StableHlo.binary main_v11 main_v12 main_v13 (cmpi .slt : (⟨S1024, .i32⟩ : BufTy).Contents (Elt F) → (⟨S1024, .i32⟩ : BufTy).Contents (Elt F) → (⟨S1024, .i1⟩ : BufTy).Contents (Elt F)),
    StableHlo.nullary main_c_3 (constantI S_ 32 528#32),
    StableHlo.unary main_c_3 main_v14 (broadcastInDim S1024 ![] bcast_S_S1024 : (⟨S_, .i32⟩ : BufTy).Contents (Elt F) → (⟨S1024, .i32⟩ : BufTy).Contents (Elt F)),
    StableHlo.binary main_v11 main_v14 main_v15 (addi : (⟨S1024, .i32⟩ : BufTy).Contents (Elt F) → (⟨S1024, .i32⟩ : BufTy).Contents (Elt F) → (⟨S1024, .i32⟩ : BufTy).Contents (Elt F)),
    StableHlo.ternary main_v13 main_v15 main_v11 main_v16 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v16 main_v17 (broadcastInDim S1024x1 ![0] bcast_S1024_S1024x1_0 : (⟨S1024, .i32⟩ : BufTy).Contents (Elt F) → (⟨S1024x1, .i32⟩ : BufTy).Contents (Elt F)),
    StableHlo.nullary main_c_4 (constantI S_ 32 1#32),
    StableHlo.unary main_c_4 main_v18 (broadcastInDim S1024 ![] bcast_S_S1024 : (⟨S_, .i32⟩ : BufTy).Contents (Elt F) → (⟨S1024, .i32⟩ : BufTy).Contents (Elt F)),
    StableHlo.ternary main_v10 main_v17 main_v18 main_v19 ((fun x i u => Host.scatter scatter_S528_S1024x1_S1024_n_0_0_1 IntOp.addi x i u) : (⟨S528, .i32⟩ : BufTy).Contents (Elt F) → (⟨S1024x1, .i32⟩ : BufTy).Contents (Elt F) → (⟨S1024, .i32⟩ : BufTy).Contents (Elt F) → (⟨S528, .i32⟩ : BufTy).Contents (Elt F)),
    StableHlo.nullary main_call3_call0_c ((constantI S_ 32 0#32) : (⟨S_, .i32⟩ : BufTy).Contents (Elt F)),
    StableHlo.unary main_call3_call0_c main_call3_call0_v0 ((broadcastInDim S_ ![] bcast_S_S_) : (⟨S_, .i32⟩ : BufTy).Contents (Elt F) → (⟨S_, .i32⟩ : BufTy).Contents (Elt F)),
    StableHlo.binary main_v19 main_call3_call0_v0 main_v20 ((fun x v => Host.reduceWindow IntOp.addi ![528] ![1] ![527] ![0] x v reduceWindows_S528_S528_w528s1p527_0 h_S_) : (⟨S528, .i32⟩ : BufTy).Contents (Elt F) → (⟨S_, .i32⟩ : BufTy).Contents (Elt F) → (⟨S528, .i32⟩ : BufTy).Contents (Elt F)) ]

/-- The running sum over typed references is the running sum at their buffers, whatever the function. -/
theorem op24_eq (f : (⟨S1024, .i32⟩ : BufTy).Contents (Elt F) → (⟨S_, .i32⟩ : BufTy).Contents (Elt F) → (⟨S1024, .i32⟩ : BufTy).Contents (Elt F)) :
    (StableHlo.TRef.binary main_call1.v1 main_call1.call0.v0 main_call1.call0.v1 f : HloOp τ sig (Elt F))
      = StableHlo.binary main_call1_v1 main_call1_call0_v0 main_v9 f := rfl
theorem op44_eq (f : (⟨S528, .i32⟩ : BufTy).Contents (Elt F) → (⟨S_, .i32⟩ : BufTy).Contents (Elt F) → (⟨S528, .i32⟩ : BufTy).Contents (Elt F)) :
    (StableHlo.TRef.binary (.of main_v19 : StableHlo.TRef sig ⟨S528, .i32⟩) main_call3.call0.v0 main_call3.call0.v1 f : HloOp τ sig (Elt F))
      = StableHlo.binary main_v19 main_call3_call0_v0 main_v20 f := rfl

set_option maxHeartbeats 0 in
set_option maxRecDepth 100000 in
/-- An operation over typed references is the operation at their buffers: the references are literal, so moving a value
    between a buffer's type and the tensor's type is the identity. -/
theorem opsTB2_eq : (opsTB2 : List (HloOp τ sig (Elt F))) = opsB2 := by
  unfold opsTB2
  rw [op24_eq, op44_eq]
  rfl

theorem opsB2_sub : (opsB2 : List (HloOp τ sig (Elt F))).Forall fun op => op.bufs ⊆ tcRefs τ sig :=
  ⟨reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub ..⟩

theorem opsB2_fresh : ∀ op ∈ (opsB2 : List (HloOp τ sig (Elt F))), op.fresh = ∅ := by
  intro _ h; (repeat (cases h with | head => rfl | tail _ h => ?_)); exact nomatch h

/-- The flattening of the mask at the flattened buffer's own shape is the flattening at 1024 entries. -/
theorem mask1_reshape (v : (⟨S32x32, .i1⟩ : BufTy).Contents (Elt Ideal))
    (h : S32x32.ShapeCasts (main_call1_v0 : Ref sig .tc).ty.shape) (p : 1 < 32) :
    extui 32 (fun i => shapeCast (main_call1_v0 : Ref sig .tc).ty.shape v h i) p
      = extui 32 (shapeCast S1024 v shapeCasts_S32x32_S1024) natLt_1_32 := rfl

/-- From the mask at `%8`, the flat positions at `%20`. -/
theorem B2_v20 (V : Valuation τ sig (Elt Ideal)) (h8 : V (main_v8 : DevRef τ sig) = Stages.mask8) : after (opsB2 (F := Ideal)) V (main_v20 : DevRef τ sig) = Stages.flat20 := by
  after_results_simp
  rw [h8, mask1_reshape]
  simp only [Stages.flat20, Stages.bins19, Stages.idx16, Stages.clip11, Stages.csum9, Stages.zero0, Stages.mask1]
  try (with_reducible rfl)

theorem B2_keep_arg0 (V : Valuation τ sig (Elt F)) : after opsB2 V (main_arg0 : DevRef τ sig) = V (main_arg0 : DevRef τ sig) := by
  after_results_simp

theorem B2_keep_arg1 (V : Valuation τ sig (Elt F)) : after opsB2 V (main_arg1 : DevRef τ sig) = V (main_arg1 : DevRef τ sig) := by
  after_results_simp

theorem B2_keep_arg2 (V : Valuation τ sig (Elt F)) : after opsB2 V (main_arg2 : DevRef τ sig) = V (main_arg2 : DevRef τ sig) := by
  after_results_simp

theorem B2_keep_v4 (V : Valuation τ sig (Elt F)) : after opsB2 V (main_v4 : DevRef τ sig) = V (main_v4 : DevRef τ sig) := by
  after_results_simp

end Cert.ReferenceIdeal.Hand

end
-- ==== Proof.RefB3.lean ====
/- The rows: the flat positions floor-divided by 32, modulo 32 (operations 45–83). The operations as a list — once as the program spells them (an outlined function's operation over
   its typed references) and once each at its buffers, the two equal —, the facts the run asks of a list (every operation
   touches TensorCore buffers only and determines its results), and what the list leaves at the buffers read later. -/
import proofs.«104952_g68075231641772_cont_9to1c4b_264_9_alg».proof.Proof.RefStages
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Operations 45 … 83 of @main as the program spells them, the outlined functions' operations in place of their calls. -/
abbrev opsTB3 : List (HloOp τ sig (Elt F)) :=
  [ StableHlo.nullary main_c_5 (constantI S_ 32 32#32),
    StableHlo.TRef.unary (.of main_c_5 : StableHlo.TRef sig ⟨S_, .i32⟩) main_call4.v0 (broadcastInDim S528 ![] bcast_S_S528),
    StableHlo.TRef.binary (.of main_v20 : StableHlo.TRef sig ⟨S528, .i32⟩) main_call4.v0 main_call4.v1 Host.divsi,
    StableHlo.TRef.unary (.of main_v20 : StableHlo.TRef sig ⟨S528, .i32⟩) main_call4.v2 signi,
    StableHlo.TRef.unary (.of main_c_5 : StableHlo.TRef sig ⟨S_, .i32⟩) main_call4.v3 signi,
    StableHlo.TRef.unary main_call4.v3 main_call4.v4 (broadcastInDim S528 ![] bcast_S_S528),
    StableHlo.TRef.binary main_call4.v2 main_call4.v4 main_call4.v5 (cmpi .ne),
    StableHlo.TRef.unary (.of main_c_5 : StableHlo.TRef sig ⟨S_, .i32⟩) main_call4.v6 (broadcastInDim S528 ![] bcast_S_S528),
    StableHlo.TRef.binary (.of main_v20 : StableHlo.TRef sig ⟨S528, .i32⟩) main_call4.v6 main_call4.v7 Host.remsi,
    StableHlo.TRef.nullary main_call4.c (constantI S_ 32 0#32),
    StableHlo.TRef.unary main_call4.c main_call4.v8 (broadcastInDim S528 ![] bcast_S_S528),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S528 ![] bcast_S_S528),
    StableHlo.TRef.binary main_call4.v1 main_call4.v11 main_call4.v12 subi,
    StableHlo.TRef.ternary main_call4.v10 main_call4.v12 main_call4.v1 main_call4.call0.v0 select,
    StableHlo.nullary main_c_6 (constantI S_ 32 32#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S528 ![] bcast_S_S528),
    StableHlo.TRef.binary (.of main_v21 : StableHlo.TRef sig ⟨S528, .i32⟩) main_call5.v3 main_call5.v4 Host.remsi,
    StableHlo.TRef.nullary main_call5.c_1 (constantI S_ 32 0#32),
    StableHlo.TRef.unary main_call5.c_1 main_call5.v5 (broadcastInDim S528 ![] bcast_S_S528),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S528 ![] bcast_S_S528),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S528 ![] bcast_S_S528),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S528 ![] bcast_S_S528),
    StableHlo.TRef.binary main_call5.v4 main_call5.v13 main_call5.v14 addi,
    StableHlo.TRef.ternary main_call5.v12 main_call5.v14 main_call5.v4 main_call5.v15 select ]

/-- The same operations, each at its buffers. -/
abbrev opsB3 : List (HloOp τ sig (Elt F)) :=
  [ StableHlo.nullary main_c_5 (constantI S_ 32 32#32),
    StableHlo.unary main_c_5 main_call4_v0 ((broadcastInDim S528 ![] bcast_S_S528) : (⟨S_, .i32⟩ : BufTy).Contents (Elt F) → (⟨S528, .i32⟩ : BufTy).Contents (Elt F)),
    StableHlo.binary main_v20 main_call4_v0 main_call4_v1 (Host.divsi : (⟨S528, .i32⟩ : BufTy).Contents (Elt F) → (⟨S528, .i32⟩ : BufTy).Contents (Elt F) → (⟨S528, .i32⟩ : BufTy).Contents (Elt F)),
    StableHlo.unary main_v20 main_call4_v2 (signi : (⟨S528, .i32⟩ : BufTy).Contents (Elt F) → (⟨S528, .i32⟩ : BufTy).Contents (Elt F)),
    StableHlo.unary main_c_5 main_call4_v3 (signi : (⟨S_, .i32⟩ : BufTy).Contents (Elt F) → (⟨S_, .i32⟩ : BufTy).Contents (Elt F)),
    StableHlo.unary main_call4_v3 main_call4_v4 ((broadcastInDim S528 ![] bcast_S_S528) : (⟨S_, .i32⟩ : BufTy).Contents (Elt F) → (⟨S528, .i32⟩ : BufTy).Contents (Elt F)),
    StableHlo.binary main_call4_v2 main_call4_v4 main_call4_v5 ((cmpi .ne) : (⟨S528, .i32⟩ : BufTy).Contents (Elt F) → (⟨S528, .i32⟩ : BufTy).Contents (Elt F) → (⟨S528, .i1⟩ : BufTy).Contents (Elt F)),
    StableHlo.unary main_c_5 main_call4_v6 ((broadcastInDim S528 ![] bcast_S_S528) : (⟨S_, .i32⟩ : BufTy).Contents (Elt F) → (⟨S528, .i32⟩ : BufTy).Contents (Elt F)),
    StableHlo.binary main_v20 main_call4_v6 main_call4_v7 (Host.remsi : (⟨S528, .i32⟩ : BufTy).Contents (Elt F) → (⟨S528, .i32⟩ : BufTy).Contents (Elt F) → (⟨S528, .i32⟩ : BufTy).Contents (Elt F)),
    StableHlo.nullary main_call4_c ((constantI S_ 32 0#32) : (⟨S_, .i32⟩ : BufTy).Contents (Elt F)),
    StableHlo.unary main_call4_c main_call4_v8 ((broadcastInDim S528 ![] bcast_S_S528) : (⟨S_, .i32⟩ : BufTy).Contents (Elt F) → (⟨S528, .i32⟩ : BufTy).Contents (Elt F)),
    StableHlo.binary main_call4_v7 main_call4_v8 main_call4_v9 ((cmpi .ne) : (⟨S528, .i32⟩ : BufTy).Contents (Elt F) → (⟨S528, .i32⟩ : BufTy).Contents (Elt F) → (⟨S528, .i1⟩ : BufTy).Contents (Elt F)),
    StableHlo.binary main_call4_v5 main_call4_v9 main_call4_v10 (andi : (⟨S528, .i1⟩ : BufTy).Contents (Elt F) → (⟨S528, .i1⟩ : BufTy).Contents (Elt F) → (⟨S528, .i1⟩ : BufTy).Contents (Elt F)),
    StableHlo.nullary main_call4_c_0 ((constantI S_ 32 1#32) : (⟨S_, .i32⟩ : BufTy).Contents (Elt F)),
    StableHlo.unary main_call4_c_0 main_call4_v11 ((broadcastInDim S528 ![] bcast_S_S528) : (⟨S_, .i32⟩ : BufTy).Contents (Elt F) → (⟨S528, .i32⟩ : BufTy).Contents (Elt F)),
    StableHlo.binary main_call4_v1 main_call4_v11 main_call4_v12 (subi : (⟨S528, .i32⟩ : BufTy).Contents (Elt F) → (⟨S528, .i32⟩ : BufTy).Contents (Elt F) → (⟨S528, .i32⟩ : BufTy).Contents (Elt F)),
    StableHlo.ternary main_call4_v10 main_call4_v12 main_call4_v1 main_v21 (select : (⟨S528, .i1⟩ : BufTy).Contents (Elt F) → (⟨S528, .i32⟩ : BufTy).Contents (Elt F) → (⟨S528, .i32⟩ : BufTy).Contents (Elt F) → (⟨S528, .i32⟩ : BufTy).Contents (Elt F)),
    StableHlo.nullary main_c_6 (constantI S_ 32 32#32),
    StableHlo.unary main_c_6 main_call5_v0 (id : (⟨S_, .i32⟩ : BufTy).Contents (Elt F) → (⟨S_, .i32⟩ : BufTy).Contents (Elt F)),
    StableHlo.nullary main_call5_c ((constantI S_ 32 0#32) : (⟨S_, .i32⟩ : BufTy).Contents (Elt F)),
    StableHlo.binary main_call5_v0 main_call5_c main_call5_v1 ((cmpi .eq) : (⟨S_, .i32⟩ : BufTy).Contents (Elt F) → (⟨S_, .i32⟩ : BufTy).Contents (Elt F) → (⟨S_, .i1⟩ : BufTy).Contents (Elt F)),
    StableHlo.nullary main_call5_c_0 ((constantI S_ 32 1#32) : (⟨S_, .i32⟩ : BufTy).Contents (Elt F)),
    StableHlo.ternary main_call5_v1 main_call5_c_0 main_call5_v0 main_call5_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call5_v2 main_call5_v3 ((broadcastInDim S528 ![] bcast_S_S528) : (⟨S_, .i32⟩ : BufTy).Contents (Elt F) → (⟨S528, .i32⟩ : BufTy).Contents (Elt F)),
    StableHlo.binary main_v21 main_call5_v3 main_call5_v4 (Host.remsi : (⟨S528, .i32⟩ : BufTy).Contents (Elt F) → (⟨S528, .i32⟩ : BufTy).Contents (Elt F) → (⟨S528, .i32⟩ : BufTy).Contents (Elt F)),
    StableHlo.nullary main_call5_c_1 ((constantI S_ 32 0#32) : (⟨S_, .i32⟩ : BufTy).Contents (Elt F)),
    StableHlo.unary main_call5_c_1 main_call5_v5 ((broadcastInDim S528 ![] bcast_S_S528) : (⟨S_, .i32⟩ : BufTy).Contents (Elt F) → (⟨S528, .i32⟩ : BufTy).Contents (Elt F)),
    StableHlo.binary main_call5_v4 main_call5_v5 main_call5_v6 ((cmpi .ne) : (⟨S528, .i32⟩ : BufTy).Contents (Elt F) → (⟨S528, .i32⟩ : BufTy).Contents (Elt F) → (⟨S528, .i1⟩ : BufTy).Contents (Elt F)),
    StableHlo.nullary main_call5_c_2 ((constantI S_ 32 0#32) : (⟨S_, .i32⟩ : BufTy).Contents (Elt F)),
    StableHlo.unary main_call5_c_2 main_call5_v7 ((broadcastInDim S528 ![] bcast_S_S528) : (⟨S_, .i32⟩ : BufTy).Contents (Elt F) → (⟨S528, .i32⟩ : BufTy).Contents (Elt F)),
    StableHlo.binary main_call5_v4 main_call5_v7 main_call5_v8 ((cmpi .slt) : (⟨S528, .i32⟩ : BufTy).Contents (Elt F) → (⟨S528, .i32⟩ : BufTy).Contents (Elt F) → (⟨S528, .i1⟩ : BufTy).Contents (Elt F)),
    StableHlo.nullary main_call5_c_3 ((constantI S_ 32 0#32) : (⟨S_, .i32⟩ : BufTy).Contents (Elt F)),
    StableHlo.binary main_call5_v2 main_call5_c_3 main_call5_v9 ((cmpi .slt) : (⟨S_, .i32⟩ : BufTy).Contents (Elt F) → (⟨S_, .i32⟩ : BufTy).Contents (Elt F) → (⟨S_, .i1⟩ : BufTy).Contents (Elt F)),
    StableHlo.unary main_call5_v9 main_call5_v10 ((broadcastInDim S528 ![] bcast_S_S528) : (⟨S_, .i1⟩ : BufTy).Contents (Elt F) → (⟨S528, .i1⟩ : BufTy).Contents (Elt F)),
    StableHlo.binary main_call5_v8 main_call5_v10 main_call5_v11 ((cmpi .ne) : (⟨S528, .i1⟩ : BufTy).Contents (Elt F) → (⟨S528, .i1⟩ : BufTy).Contents (Elt F) → (⟨S528, .i1⟩ : BufTy).Contents (Elt F)),
    StableHlo.binary main_call5_v11 main_call5_v6 main_call5_v12 (andi : (⟨S528, .i1⟩ : BufTy).Contents (Elt F) → (⟨S528, .i1⟩ : BufTy).Contents (Elt F) → (⟨S528, .i1⟩ : BufTy).Contents (Elt F)),
    StableHlo.unary main_call5_v2 main_call5_v13 ((broadcastInDim S528 ![] bcast_S_S528) : (⟨S_, .i32⟩ : BufTy).Contents (Elt F) → (⟨S528, .i32⟩ : BufTy).Contents (Elt F)),
    StableHlo.binary main_call5_v4 main_call5_v13 main_call5_v14 (addi : (⟨S528, .i32⟩ : BufTy).Contents (Elt F) → (⟨S528, .i32⟩ : BufTy).Contents (Elt F) → (⟨S528, .i32⟩ : BufTy).Contents (Elt F)),
    StableHlo.ternary main_call5_v12 main_call5_v14 main_call5_v4 main_v22 (select : (⟨S528, .i1⟩ : BufTy).Contents (Elt F) → (⟨S528, .i32⟩ : BufTy).Contents (Elt F) → (⟨S528, .i32⟩ : BufTy).Contents (Elt F) → (⟨S528, .i32⟩ : BufTy).Contents (Elt F)) ]

set_option maxHeartbeats 0 in
set_option maxRecDepth 100000 in
/-- An operation over typed references is the operation at their buffers: the references are literal, so moving a value
    between a buffer's type and the tensor's type is the identity. -/
theorem opsTB3_eq : (opsTB3 : List (HloOp τ sig (Elt F))) = opsB3 := rfl

theorem opsB3_sub : (opsB3 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem opsB3_fresh : ∀ op ∈ (opsB3 : List (HloOp τ sig (Elt F))), op.fresh = ∅ := by
  intro _ h; (repeat (cases h with | head => rfl | tail _ h => ?_)); exact nomatch h

/-- From the flat positions at `%20`, the rows at `%22`. -/
theorem B3_v22 (V : Valuation τ sig (Elt Ideal)) (h20 : V (main_v20 : DevRef τ sig) = Stages.flat20) : after (opsB3 (F := Ideal)) V (main_v22 : DevRef τ sig) = Stages.rows22 := by
  after_results_simp
  rw [h20]
  simp only [Stages.rows22, Stages.floorRem, Stages.floorDiv]
  try (with_reducible rfl)

theorem B3_keep_arg0 (V : Valuation τ sig (Elt F)) : after opsB3 V (main_arg0 : DevRef τ sig) = V (main_arg0 : DevRef τ sig) := by
  after_results_simp

theorem B3_keep_arg1 (V : Valuation τ sig (Elt F)) : after opsB3 V (main_arg1 : DevRef τ sig) = V (main_arg1 : DevRef τ sig) := by
  after_results_simp

theorem B3_keep_arg2 (V : Valuation τ sig (Elt F)) : after opsB3 V (main_arg2 : DevRef τ sig) = V (main_arg2 : DevRef τ sig) := by
  after_results_simp

theorem B3_keep_v4 (V : Valuation τ sig (Elt F)) : after opsB3 V (main_v4 : DevRef τ sig) = V (main_v4 : DevRef τ sig) := by
  after_results_simp

theorem B3_keep_v20 (V : Valuation τ sig (Elt F)) : after opsB3 V (main_v20 : DevRef τ sig) = V (main_v20 : DevRef τ sig) := by
  after_results_simp

end Cert.ReferenceIdeal.Hand

end
-- ==== Proof.RefB4.lean ====
/- The columns: the flat positions floor-divided by 1, modulo 32 (operations 84–122). The operations as a list — once as the program spells them (an outlined function's operation over
   its typed references) and once each at its buffers, the two equal —, the facts the run asks of a list (every operation
   touches TensorCore buffers only and determines its results), and what the list leaves at the buffers read later. -/
import proofs.«104952_g68075231641772_cont_9to1c4b_264_9_alg».proof.Proof.RefStages
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Operations 84 … 122 of @main as the program spells them, the outlined functions' operations in place of their calls. -/
abbrev opsTB4 : List (HloOp τ sig (Elt F)) :=
  [ StableHlo.nullary main_c_7 (constantI S_ 32 1#32),
    StableHlo.TRef.unary (.of main_c_7 : StableHlo.TRef sig ⟨S_, .i32⟩) main_call6.v0 (broadcastInDim S528 ![] bcast_S_S528),
    StableHlo.TRef.binary (.of main_v20 : StableHlo.TRef sig ⟨S528, .i32⟩) main_call6.v0 main_call6.v1 Host.divsi,
    StableHlo.TRef.unary (.of main_v20 : StableHlo.TRef sig ⟨S528, .i32⟩) main_call6.v2 signi,
    StableHlo.TRef.unary (.of main_c_7 : StableHlo.TRef sig ⟨S_, .i32⟩) main_call6.v3 signi,
    StableHlo.TRef.unary main_call6.v3 main_call6.v4 (broadcastInDim S528 ![] bcast_S_S528),
    StableHlo.TRef.binary main_call6.v2 main_call6.v4 main_call6.v5 (cmpi .ne),
    StableHlo.TRef.unary (.of main_c_7 : StableHlo.TRef sig ⟨S_, .i32⟩) main_call6.v6 (broadcastInDim S528 ![] bcast_S_S528),
    StableHlo.TRef.binary (.of main_v20 : StableHlo.TRef sig ⟨S528, .i32⟩) main_call6.v6 main_call6.v7 Host.remsi,
    StableHlo.TRef.nullary main_call6.c (constantI S_ 32 0#32),
    StableHlo.TRef.unary main_call6.c main_call6.v8 (broadcastInDim S528 ![] bcast_S_S528),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S528 ![] bcast_S_S528),
    StableHlo.TRef.binary main_call6.v1 main_call6.v11 main_call6.v12 subi,
    StableHlo.TRef.ternary main_call6.v10 main_call6.v12 main_call6.v1 main_call6.call0.v0 select,
    StableHlo.nullary main_c_8 (constantI S_ 32 32#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S528 ![] bcast_S_S528),
    StableHlo.TRef.binary (.of main_v23 : StableHlo.TRef sig ⟨S528, .i32⟩) main_call7.v3 main_call7.v4 Host.remsi,
    StableHlo.TRef.nullary main_call7.c_1 (constantI S_ 32 0#32),
    StableHlo.TRef.unary main_call7.c_1 main_call7.v5 (broadcastInDim S528 ![] bcast_S_S528),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S528 ![] bcast_S_S528),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S528 ![] bcast_S_S528),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S528 ![] bcast_S_S528),
    StableHlo.TRef.binary main_call7.v4 main_call7.v13 main_call7.v14 addi,
    StableHlo.TRef.ternary main_call7.v12 main_call7.v14 main_call7.v4 main_call7.v15 select ]

/-- The same operations, each at its buffers. -/
abbrev opsB4 : List (HloOp τ sig (Elt F)) :=
  [ StableHlo.nullary main_c_7 (constantI S_ 32 1#32),
    StableHlo.unary main_c_7 main_call6_v0 ((broadcastInDim S528 ![] bcast_S_S528) : (⟨S_, .i32⟩ : BufTy).Contents (Elt F) → (⟨S528, .i32⟩ : BufTy).Contents (Elt F)),
    StableHlo.binary main_v20 main_call6_v0 main_call6_v1 (Host.divsi : (⟨S528, .i32⟩ : BufTy).Contents (Elt F) → (⟨S528, .i32⟩ : BufTy).Contents (Elt F) → (⟨S528, .i32⟩ : BufTy).Contents (Elt F)),
    StableHlo.unary main_v20 main_call6_v2 (signi : (⟨S528, .i32⟩ : BufTy).Contents (Elt F) → (⟨S528, .i32⟩ : BufTy).Contents (Elt F)),
    StableHlo.unary main_c_7 main_call6_v3 (signi : (⟨S_, .i32⟩ : BufTy).Contents (Elt F) → (⟨S_, .i32⟩ : BufTy).Contents (Elt F)),
    StableHlo.unary main_call6_v3 main_call6_v4 ((broadcastInDim S528 ![] bcast_S_S528) : (⟨S_, .i32⟩ : BufTy).Contents (Elt F) → (⟨S528, .i32⟩ : BufTy).Contents (Elt F)),
    StableHlo.binary main_call6_v2 main_call6_v4 main_call6_v5 ((cmpi .ne) : (⟨S528, .i32⟩ : BufTy).Contents (Elt F) → (⟨S528, .i32⟩ : BufTy).Contents (Elt F) → (⟨S528, .i1⟩ : BufTy).Contents (Elt F)),
    StableHlo.unary main_c_7 main_call6_v6 ((broadcastInDim S528 ![] bcast_S_S528) : (⟨S_, .i32⟩ : BufTy).Contents (Elt F) → (⟨S528, .i32⟩ : BufTy).Contents (Elt F)),
    StableHlo.binary main_v20 main_call6_v6 main_call6_v7 (Host.remsi : (⟨S528, .i32⟩ : BufTy).Contents (Elt F) → (⟨S528, .i32⟩ : BufTy).Contents (Elt F) → (⟨S528, .i32⟩ : BufTy).Contents (Elt F)),
    StableHlo.nullary main_call6_c ((constantI S_ 32 0#32) : (⟨S_, .i32⟩ : BufTy).Contents (Elt F)),
    StableHlo.unary main_call6_c main_call6_v8 ((broadcastInDim S528 ![] bcast_S_S528) : (⟨S_, .i32⟩ : BufTy).Contents (Elt F) → (⟨S528, .i32⟩ : BufTy).Contents (Elt F)),
    StableHlo.binary main_call6_v7 main_call6_v8 main_call6_v9 ((cmpi .ne) : (⟨S528, .i32⟩ : BufTy).Contents (Elt F) → (⟨S528, .i32⟩ : BufTy).Contents (Elt F) → (⟨S528, .i1⟩ : BufTy).Contents (Elt F)),
    StableHlo.binary main_call6_v5 main_call6_v9 main_call6_v10 (andi : (⟨S528, .i1⟩ : BufTy).Contents (Elt F) → (⟨S528, .i1⟩ : BufTy).Contents (Elt F) → (⟨S528, .i1⟩ : BufTy).Contents (Elt F)),
    StableHlo.nullary main_call6_c_0 ((constantI S_ 32 1#32) : (⟨S_, .i32⟩ : BufTy).Contents (Elt F)),
    StableHlo.unary main_call6_c_0 main_call6_v11 ((broadcastInDim S528 ![] bcast_S_S528) : (⟨S_, .i32⟩ : BufTy).Contents (Elt F) → (⟨S528, .i32⟩ : BufTy).Contents (Elt F)),
    StableHlo.binary main_call6_v1 main_call6_v11 main_call6_v12 (subi : (⟨S528, .i32⟩ : BufTy).Contents (Elt F) → (⟨S528, .i32⟩ : BufTy).Contents (Elt F) → (⟨S528, .i32⟩ : BufTy).Contents (Elt F)),
    StableHlo.ternary main_call6_v10 main_call6_v12 main_call6_v1 main_v23 (select : (⟨S528, .i1⟩ : BufTy).Contents (Elt F) → (⟨S528, .i32⟩ : BufTy).Contents (Elt F) → (⟨S528, .i32⟩ : BufTy).Contents (Elt F) → (⟨S528, .i32⟩ : BufTy).Contents (Elt F)),
    StableHlo.nullary main_c_8 (constantI S_ 32 32#32),
    StableHlo.unary main_c_8 main_call7_v0 (id : (⟨S_, .i32⟩ : BufTy).Contents (Elt F) → (⟨S_, .i32⟩ : BufTy).Contents (Elt F)),
    StableHlo.nullary main_call7_c ((constantI S_ 32 0#32) : (⟨S_, .i32⟩ : BufTy).Contents (Elt F)),
    StableHlo.binary main_call7_v0 main_call7_c main_call7_v1 ((cmpi .eq) : (⟨S_, .i32⟩ : BufTy).Contents (Elt F) → (⟨S_, .i32⟩ : BufTy).Contents (Elt F) → (⟨S_, .i1⟩ : BufTy).Contents (Elt F)),
    StableHlo.nullary main_call7_c_0 ((constantI S_ 32 1#32) : (⟨S_, .i32⟩ : BufTy).Contents (Elt F)),
    StableHlo.ternary main_call7_v1 main_call7_c_0 main_call7_v0 main_call7_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call7_v2 main_call7_v3 ((broadcastInDim S528 ![] bcast_S_S528) : (⟨S_, .i32⟩ : BufTy).Contents (Elt F) → (⟨S528, .i32⟩ : BufTy).Contents (Elt F)),
    StableHlo.binary main_v23 main_call7_v3 main_call7_v4 (Host.remsi : (⟨S528, .i32⟩ : BufTy).Contents (Elt F) → (⟨S528, .i32⟩ : BufTy).Contents (Elt F) → (⟨S528, .i32⟩ : BufTy).Contents (Elt F)),
    StableHlo.nullary main_call7_c_1 ((constantI S_ 32 0#32) : (⟨S_, .i32⟩ : BufTy).Contents (Elt F)),
    StableHlo.unary main_call7_c_1 main_call7_v5 ((broadcastInDim S528 ![] bcast_S_S528) : (⟨S_, .i32⟩ : BufTy).Contents (Elt F) → (⟨S528, .i32⟩ : BufTy).Contents (Elt F)),
    StableHlo.binary main_call7_v4 main_call7_v5 main_call7_v6 ((cmpi .ne) : (⟨S528, .i32⟩ : BufTy).Contents (Elt F) → (⟨S528, .i32⟩ : BufTy).Contents (Elt F) → (⟨S528, .i1⟩ : BufTy).Contents (Elt F)),
    StableHlo.nullary main_call7_c_2 ((constantI S_ 32 0#32) : (⟨S_, .i32⟩ : BufTy).Contents (Elt F)),
    StableHlo.unary main_call7_c_2 main_call7_v7 ((broadcastInDim S528 ![] bcast_S_S528) : (⟨S_, .i32⟩ : BufTy).Contents (Elt F) → (⟨S528, .i32⟩ : BufTy).Contents (Elt F)),
    StableHlo.binary main_call7_v4 main_call7_v7 main_call7_v8 ((cmpi .slt) : (⟨S528, .i32⟩ : BufTy).Contents (Elt F) → (⟨S528, .i32⟩ : BufTy).Contents (Elt F) → (⟨S528, .i1⟩ : BufTy).Contents (Elt F)),
    StableHlo.nullary main_call7_c_3 ((constantI S_ 32 0#32) : (⟨S_, .i32⟩ : BufTy).Contents (Elt F)),
    StableHlo.binary main_call7_v2 main_call7_c_3 main_call7_v9 ((cmpi .slt) : (⟨S_, .i32⟩ : BufTy).Contents (Elt F) → (⟨S_, .i32⟩ : BufTy).Contents (Elt F) → (⟨S_, .i1⟩ : BufTy).Contents (Elt F)),
    StableHlo.unary main_call7_v9 main_call7_v10 ((broadcastInDim S528 ![] bcast_S_S528) : (⟨S_, .i1⟩ : BufTy).Contents (Elt F) → (⟨S528, .i1⟩ : BufTy).Contents (Elt F)),
    StableHlo.binary main_call7_v8 main_call7_v10 main_call7_v11 ((cmpi .ne) : (⟨S528, .i1⟩ : BufTy).Contents (Elt F) → (⟨S528, .i1⟩ : BufTy).Contents (Elt F) → (⟨S528, .i1⟩ : BufTy).Contents (Elt F)),
    StableHlo.binary main_call7_v11 main_call7_v6 main_call7_v12 (andi : (⟨S528, .i1⟩ : BufTy).Contents (Elt F) → (⟨S528, .i1⟩ : BufTy).Contents (Elt F) → (⟨S528, .i1⟩ : BufTy).Contents (Elt F)),
    StableHlo.unary main_call7_v2 main_call7_v13 ((broadcastInDim S528 ![] bcast_S_S528) : (⟨S_, .i32⟩ : BufTy).Contents (Elt F) → (⟨S528, .i32⟩ : BufTy).Contents (Elt F)),
    StableHlo.binary main_call7_v4 main_call7_v13 main_call7_v14 (addi : (⟨S528, .i32⟩ : BufTy).Contents (Elt F) → (⟨S528, .i32⟩ : BufTy).Contents (Elt F) → (⟨S528, .i32⟩ : BufTy).Contents (Elt F)),
    StableHlo.ternary main_call7_v12 main_call7_v14 main_call7_v4 main_v24 (select : (⟨S528, .i1⟩ : BufTy).Contents (Elt F) → (⟨S528, .i32⟩ : BufTy).Contents (Elt F) → (⟨S528, .i32⟩ : BufTy).Contents (Elt F) → (⟨S528, .i32⟩ : BufTy).Contents (Elt F)) ]

set_option maxHeartbeats 0 in
set_option maxRecDepth 100000 in
/-- An operation over typed references is the operation at their buffers: the references are literal, so moving a value
    between a buffer's type and the tensor's type is the identity. -/
theorem opsTB4_eq : (opsTB4 : List (HloOp τ sig (Elt F))) = opsB4 := rfl

theorem opsB4_sub : (opsB4 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem opsB4_fresh : ∀ op ∈ (opsB4 : List (HloOp τ sig (Elt F))), op.fresh = ∅ := by
  intro _ h; (repeat (cases h with | head => rfl | tail _ h => ?_)); exact nomatch h

/-- From the flat positions at `%20`, the columns at `%24`. -/
theorem B4_v24 (V : Valuation τ sig (Elt Ideal)) (h20 : V (main_v20 : DevRef τ sig) = Stages.flat20) : after (opsB4 (F := Ideal)) V (main_v24 : DevRef τ sig) = Stages.cols24 := by
  after_results_simp
  rw [h20]
  simp only [Stages.cols24, Stages.floorRem, Stages.floorDiv]
  try (with_reducible rfl)

theorem B4_keep_arg0 (V : Valuation τ sig (Elt F)) : after opsB4 V (main_arg0 : DevRef τ sig) = V (main_arg0 : DevRef τ sig) := by
  after_results_simp

theorem B4_keep_arg1 (V : Valuation τ sig (Elt F)) : after opsB4 V (main_arg1 : DevRef τ sig) = V (main_arg1 : DevRef τ sig) := by
  after_results_simp

theorem B4_keep_arg2 (V : Valuation τ sig (Elt F)) : after opsB4 V (main_arg2 : DevRef τ sig) = V (main_arg2 : DevRef τ sig) := by
  after_results_simp

theorem B4_keep_v4 (V : Valuation τ sig (Elt F)) : after opsB4 V (main_v4 : DevRef τ sig) = V (main_v4 : DevRef τ sig) := by
  after_results_simp

theorem B4_keep_v22 (V : Valuation τ sig (Elt F)) : after opsB4 V (main_v22 : DevRef τ sig) = V (main_v22 : DevRef τ sig) := by
  after_results_simp

end Cert.ReferenceIdeal.Hand

end
-- ==== Proof.RefC1.lean ====
/- The zero array and the first scatter's index columns: operations 123–140. The operations as a list — once as the program spells them (an outlined function's operation over
   its typed references) and once each at its buffers, the two equal —, the facts the run asks of a list (every operation
   touches TensorCore buffers only and determines its results), and what the list leaves at the buffers read later. -/
import proofs.«104952_g68075231641772_cont_9to1c4b_264_9_alg».proof.Proof.RefStages
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Operations 123 … 140 of @main as the program spells them, the outlined functions' operations in place of their calls. -/
abbrev opsTC1 : List (HloOp τ sig (Elt F)) :=
  [ StableHlo.nullary main_cst_9 (constant S_ .f32 0x00000000#32),
    StableHlo.unary main_cst_9 main_v25 (broadcastInDim S50000x32x32 ![] bcast_S_S50000x32x32 : (⟨S_, .f32⟩ : BufTy).Contents (Elt F) → (⟨S50000x32x32, .f32⟩ : BufTy).Contents (Elt F)),
    StableHlo.nullary main_c_10 (constantI S_ 32 0#32),
    StableHlo.unary main_c_10 main_v26 (broadcastInDim S528 ![] bcast_S_S528 : (⟨S_, .i32⟩ : BufTy).Contents (Elt F) → (⟨S528, .i32⟩ : BufTy).Contents (Elt F)),
    StableHlo.binary main_v22 main_v26 main_v27 (cmpi .slt : (⟨S528, .i32⟩ : BufTy).Contents (Elt F) → (⟨S528, .i32⟩ : BufTy).Contents (Elt F) → (⟨S528, .i1⟩ : BufTy).Contents (Elt F)),
    StableHlo.nullary main_c_11 (constantI S_ 32 32#32),
    StableHlo.unary main_c_11 main_v28 (broadcastInDim S528 ![] bcast_S_S528 : (⟨S_, .i32⟩ : BufTy).Contents (Elt F) → (⟨S528, .i32⟩ : BufTy).Contents (Elt F)),
    StableHlo.binary main_v22 main_v28 main_v29 (addi : (⟨S528, .i32⟩ : BufTy).Contents (Elt F) → (⟨S528, .i32⟩ : BufTy).Contents (Elt F) → (⟨S528, .i32⟩ : BufTy).Contents (Elt F)),
    StableHlo.ternary main_v27 main_v29 main_v22 main_v30 (select : (⟨S528, .i1⟩ : BufTy).Contents (Elt F) → (⟨S528, .i32⟩ : BufTy).Contents (Elt F) → (⟨S528, .i32⟩ : BufTy).Contents (Elt F) → (⟨S528, .i32⟩ : BufTy).Contents (Elt F)),
    StableHlo.nullary main_c_12 (constantI S_ 32 0#32),
    StableHlo.unary main_c_12 main_v31 (broadcastInDim S528 ![] bcast_S_S528 : (⟨S_, .i32⟩ : BufTy).Contents (Elt F) → (⟨S528, .i32⟩ : BufTy).Contents (Elt F)),
    StableHlo.binary main_v24 main_v31 main_v32 (cmpi .slt : (⟨S528, .i32⟩ : BufTy).Contents (Elt F) → (⟨S528, .i32⟩ : BufTy).Contents (Elt F) → (⟨S528, .i1⟩ : BufTy).Contents (Elt F)),
    StableHlo.nullary main_c_13 (constantI S_ 32 32#32),
    StableHlo.unary main_c_13 main_v33 (broadcastInDim S528 ![] bcast_S_S528 : (⟨S_, .i32⟩ : BufTy).Contents (Elt F) → (⟨S528, .i32⟩ : BufTy).Contents (Elt F)),
    StableHlo.binary main_v24 main_v33 main_v34 (addi : (⟨S528, .i32⟩ : BufTy).Contents (Elt F) → (⟨S528, .i32⟩ : BufTy).Contents (Elt F) → (⟨S528, .i32⟩ : BufTy).Contents (Elt F)),
    StableHlo.ternary main_v32 main_v34 main_v24 main_v35 (select : (⟨S528, .i1⟩ : BufTy).Contents (Elt F) → (⟨S528, .i32⟩ : BufTy).Contents (Elt F) → (⟨S528, .i32⟩ : BufTy).Contents (Elt F) → (⟨S528, .i32⟩ : BufTy).Contents (Elt F)),
    StableHlo.unary main_v30 main_v36 (broadcastInDim S528x1 ![0] bcast_S528_S528x1_0 : (⟨S528, .i32⟩ : BufTy).Contents (Elt F) → (⟨S528x1, .i32⟩ : BufTy).Contents (Elt F)),
    StableHlo.unary main_v35 main_v37 (broadcastInDim S528x1 ![0] bcast_S528_S528x1_0 : (⟨S528, .i32⟩ : BufTy).Contents (Elt F) → (⟨S528x1, .i32⟩ : BufTy).Contents (Elt F)) ]

/-- The same operations, each at its buffers. -/
abbrev opsC1 : List (HloOp τ sig (Elt F)) :=
  [ StableHlo.nullary main_cst_9 (constant S_ .f32 0x00000000#32),
    StableHlo.unary main_cst_9 main_v25 (broadcastInDim S50000x32x32 ![] bcast_S_S50000x32x32 : (⟨S_, .f32⟩ : BufTy).Contents (Elt F) → (⟨S50000x32x32, .f32⟩ : BufTy).Contents (Elt F)),
    StableHlo.nullary main_c_10 (constantI S_ 32 0#32),
    StableHlo.unary main_c_10 main_v26 (broadcastInDim S528 ![] bcast_S_S528 : (⟨S_, .i32⟩ : BufTy).Contents (Elt F) → (⟨S528, .i32⟩ : BufTy).Contents (Elt F)),
    StableHlo.binary main_v22 main_v26 main_v27 (cmpi .slt : (⟨S528, .i32⟩ : BufTy).Contents (Elt F) → (⟨S528, .i32⟩ : BufTy).Contents (Elt F) → (⟨S528, .i1⟩ : BufTy).Contents (Elt F)),
    StableHlo.nullary main_c_11 (constantI S_ 32 32#32),
    StableHlo.unary main_c_11 main_v28 (broadcastInDim S528 ![] bcast_S_S528 : (⟨S_, .i32⟩ : BufTy).Contents (Elt F) → (⟨S528, .i32⟩ : BufTy).Contents (Elt F)),
    StableHlo.binary main_v22 main_v28 main_v29 (addi : (⟨S528, .i32⟩ : BufTy).Contents (Elt F) → (⟨S528, .i32⟩ : BufTy).Contents (Elt F) → (⟨S528, .i32⟩ : BufTy).Contents (Elt F)),
    StableHlo.ternary main_v27 main_v29 main_v22 main_v30 (select : (⟨S528, .i1⟩ : BufTy).Contents (Elt F) → (⟨S528, .i32⟩ : BufTy).Contents (Elt F) → (⟨S528, .i32⟩ : BufTy).Contents (Elt F) → (⟨S528, .i32⟩ : BufTy).Contents (Elt F)),
    StableHlo.nullary main_c_12 (constantI S_ 32 0#32),
    StableHlo.unary main_c_12 main_v31 (broadcastInDim S528 ![] bcast_S_S528 : (⟨S_, .i32⟩ : BufTy).Contents (Elt F) → (⟨S528, .i32⟩ : BufTy).Contents (Elt F)),
    StableHlo.binary main_v24 main_v31 main_v32 (cmpi .slt : (⟨S528, .i32⟩ : BufTy).Contents (Elt F) → (⟨S528, .i32⟩ : BufTy).Contents (Elt F) → (⟨S528, .i1⟩ : BufTy).Contents (Elt F)),
    StableHlo.nullary main_c_13 (constantI S_ 32 32#32),
    StableHlo.unary main_c_13 main_v33 (broadcastInDim S528 ![] bcast_S_S528 : (⟨S_, .i32⟩ : BufTy).Contents (Elt F) → (⟨S528, .i32⟩ : BufTy).Contents (Elt F)),
    StableHlo.binary main_v24 main_v33 main_v34 (addi : (⟨S528, .i32⟩ : BufTy).Contents (Elt F) → (⟨S528, .i32⟩ : BufTy).Contents (Elt F) → (⟨S528, .i32⟩ : BufTy).Contents (Elt F)),
    StableHlo.ternary main_v32 main_v34 main_v24 main_v35 (select : (⟨S528, .i1⟩ : BufTy).Contents (Elt F) → (⟨S528, .i32⟩ : BufTy).Contents (Elt F) → (⟨S528, .i32⟩ : BufTy).Contents (Elt F) → (⟨S528, .i32⟩ : BufTy).Contents (Elt F)),
    StableHlo.unary main_v30 main_v36 (broadcastInDim S528x1 ![0] bcast_S528_S528x1_0 : (⟨S528, .i32⟩ : BufTy).Contents (Elt F) → (⟨S528x1, .i32⟩ : BufTy).Contents (Elt F)),
    StableHlo.unary main_v35 main_v37 (broadcastInDim S528x1 ![0] bcast_S528_S528x1_0 : (⟨S528, .i32⟩ : BufTy).Contents (Elt F) → (⟨S528x1, .i32⟩ : BufTy).Contents (Elt F)) ]

set_option maxHeartbeats 0 in
set_option maxRecDepth 100000 in
/-- An operation over typed references is the operation at their buffers: the references are literal, so moving a value
    between a buffer's type and the tensor's type is the identity. -/
theorem opsTC1_eq : (opsTC1 : List (HloOp τ sig (Elt F))) = opsC1 := rfl

theorem opsC1_sub : (opsC1 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

theorem opsC1_fresh : ∀ op ∈ (opsC1 : List (HloOp τ sig (Elt F))), op.fresh = ∅ := by
  intro _ h; (repeat (cases h with | head => rfl | tail _ h => ?_)); exact nomatch h

/-- `%25`: the zero array the two scatters write into. -/
def zeros : Vec Ideal S50000x32x32 .f32 :=
  broadcastInDim S50000x32x32 ![] bcast_S_S50000x32x32 (constant (F := Ideal) S_ .f32 0x00000000#32)

theorem C1_v25 (V : Valuation τ sig (Elt Ideal)) : after (opsC1 (F := Ideal)) V (main_v25 : DevRef τ sig) = zeros := by
  after_results_simp
  simp only [zeros]
  try (with_reducible rfl)

/-- `%36`, `%37`: the rows and the columns, each as a column of indices. -/
theorem C1_v36 (V : Valuation τ sig (Elt Ideal)) (h22 : V (main_v22 : DevRef τ sig) = Stages.rows22) :
    after (opsC1 (F := Ideal)) V (main_v36 : DevRef τ sig) = broadcastInDim S528x1 ![0] bcast_S528_S528x1_0 (Stages.wrap32 Stages.rows22) := by
  after_results_simp
  rw [h22]
  simp only [Stages.wrap32]
  try (with_reducible rfl)

theorem C1_v37 (V : Valuation τ sig (Elt Ideal)) (h24 : V (main_v24 : DevRef τ sig) = Stages.cols24) :
    after (opsC1 (F := Ideal)) V (main_v37 : DevRef τ sig) = broadcastInDim S528x1 ![0] bcast_S528_S528x1_0 (Stages.wrap32 Stages.cols24) := by
  after_results_simp
  rw [h24]
  simp only [Stages.wrap32]
  try (with_reducible rfl)

theorem C1_keep_arg0 (V : Valuation τ sig (Elt F)) : after opsC1 V (main_arg0 : DevRef τ sig) = V (main_arg0 : DevRef τ sig) := by
  after_results_simp

theorem C1_keep_arg1 (V : Valuation τ sig (Elt F)) : after opsC1 V (main_arg1 : DevRef τ sig) = V (main_arg1 : DevRef τ sig) := by
  after_results_simp

theorem C1_keep_arg2 (V : Valuation τ sig (Elt F)) : after opsC1 V (main_arg2 : DevRef τ sig) = V (main_arg2 : DevRef τ sig) := by
  after_results_simp

theorem C1_keep_v4 (V : Valuation τ sig (Elt F)) : after opsC1 V (main_v4 : DevRef τ sig) = V (main_v4 : DevRef τ sig) := by
  after_results_simp

theorem C1_keep_v22 (V : Valuation τ sig (Elt F)) : after opsC1 V (main_v22 : DevRef τ sig) = V (main_v22 : DevRef τ sig) := by
  after_results_simp

theorem C1_keep_v24 (V : Valuation τ sig (Elt F)) : after opsC1 V (main_v24 : DevRef τ sig) = V (main_v24 : DevRef τ sig) := by
  after_results_simp

end Cert.ReferenceIdeal.Hand

end
-- ==== Proof.RefC2.lean ====
/- The (row, column) pairs side by side and the first scatter: operations 141–142. The operations as a list — once as the program spells them (an outlined function's operation over
   its typed references) and once each at its buffers, the two equal —, the facts the run asks of a list (every operation
   touches TensorCore buffers only and determines its results), and what the list leaves at the buffers read later. -/
import proofs.«104952_g68075231641772_cont_9to1c4b_264_9_alg».proof.Proof.RefStages
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Operations 141 … 142 of @main as the program spells them, the outlined functions' operations in place of their calls. -/
abbrev opsTC2 : List (HloOp τ sig (Elt F)) :=
  [ StableHlo.binary main_v36 main_v37 main_v38 ((fun a b => concatenate S528x2 1 [⟨S528x1, a⟩, ⟨S528x1, b⟩] concatenates_S528x1_S528x1_S528x2_d1) : (⟨S528x1, .i32⟩ : BufTy).Contents (Elt F) → (⟨S528x1, .i32⟩ : BufTy).Contents (Elt F) → (⟨S528x2, .i32⟩ : BufTy).Contents (Elt F)),
    StableHlo.ternary main_v25 main_v38 main_v4 main_v39 ((fun x i u => Host.scatter scatter_S50000x32x32_S528x2_S50000x528_0_12_12_1 (fun _ b => b) x i u) : (⟨S50000x32x32, .f32⟩ : BufTy).Contents (Elt F) → (⟨S528x2, .i32⟩ : BufTy).Contents (Elt F) → (⟨S50000x528, .f32⟩ : BufTy).Contents (Elt F) → (⟨S50000x32x32, .f32⟩ : BufTy).Contents (Elt F)) ]

/-- The same operations, each at its buffers. -/
abbrev opsC2 : List (HloOp τ sig (Elt F)) :=
  [ StableHlo.binary main_v36 main_v37 main_v38 ((fun a b => concatenate S528x2 1 [⟨S528x1, a⟩, ⟨S528x1, b⟩] concatenates_S528x1_S528x1_S528x2_d1) : (⟨S528x1, .i32⟩ : BufTy).Contents (Elt F) → (⟨S528x1, .i32⟩ : BufTy).Contents (Elt F) → (⟨S528x2, .i32⟩ : BufTy).Contents (Elt F)),
    StableHlo.ternary main_v25 main_v38 main_v4 main_v39 ((fun x i u => Host.scatter scatter_S50000x32x32_S528x2_S50000x528_0_12_12_1 (fun _ b => b) x i u) : (⟨S50000x32x32, .f32⟩ : BufTy).Contents (Elt F) → (⟨S528x2, .i32⟩ : BufTy).Contents (Elt F) → (⟨S50000x528, .f32⟩ : BufTy).Contents (Elt F) → (⟨S50000x32x32, .f32⟩ : BufTy).Contents (Elt F)) ]

set_option maxHeartbeats 0 in
set_option maxRecDepth 100000 in
/-- An operation over typed references is the operation at their buffers: the references are literal, so moving a value
    between a buffer's type and the tensor's type is the identity. -/
theorem opsTC2_eq : (opsTC2 : List (HloOp τ sig (Elt F))) = opsC2 := rfl

theorem opsC2_sub : (opsC2 : List (HloOp τ sig (Elt F))).Forall fun op => op.bufs ⊆ tcRefs τ sig :=
  ⟨binary_bufs_sub .., ternary_bufs_sub ..⟩

theorem opsC2_fresh : ∀ op ∈ (opsC2 : List (HloOp τ sig (Elt F))), op.fresh = ∅ := by
  intro _ h; (repeat (cases h with | head => rfl | tail _ h => ?_)); exact nomatch h

/-- `%39`: the first scatter, of the value at `%4` into the array at `%25` at the pairs whose columns are at `%36`, `%37`. -/
theorem C2_v39 (V : Valuation τ sig (Elt Ideal)) (Z : Vec Ideal S50000x32x32 .f32) (A B : IVec S528x1 32) (P : Vec Ideal S50000x528 .f32)
    (hz : V (main_v25 : DevRef τ sig) = Z) (ha : V (main_v36 : DevRef τ sig) = A) (hb : V (main_v37 : DevRef τ sig) = B) (h4 : V (main_v4 : DevRef τ sig) = P) :
    after (opsC2 (F := Ideal)) V (main_v39 : DevRef τ sig)
      = Host.scatter scatter_S50000x32x32_S528x2_S50000x528_0_12_12_1 (fun _ u => u) Z
          (concatenate S528x2 1 [⟨S528x1, A⟩, ⟨S528x1, B⟩] concatenates_S528x1_S528x1_S528x2_d1) P := by
  after_results
  rw [hz, ha, hb, h4]

theorem C2_keep_arg0 (V : Valuation τ sig (Elt F)) : after opsC2 V (main_arg0 : DevRef τ sig) = V (main_arg0 : DevRef τ sig) := by
  after_results_simp

theorem C2_keep_arg1 (V : Valuation τ sig (Elt F)) : after opsC2 V (main_arg1 : DevRef τ sig) = V (main_arg1 : DevRef τ sig) := by
  after_results_simp

theorem C2_keep_arg2 (V : Valuation τ sig (Elt F)) : after opsC2 V (main_arg2 : DevRef τ sig) = V (main_arg2 : DevRef τ sig) := by
  after_results_simp

theorem C2_keep_v4 (V : Valuation τ sig (Elt F)) : after opsC2 V (main_v4 : DevRef τ sig) = V (main_v4 : DevRef τ sig) := by
  after_results_simp

theorem C2_keep_v22 (V : Valuation τ sig (Elt F)) : after opsC2 V (main_v22 : DevRef τ sig) = V (main_v22 : DevRef τ sig) := by
  after_results_simp

theorem C2_keep_v24 (V : Valuation τ sig (Elt F)) : after opsC2 V (main_v24 : DevRef τ sig) = V (main_v24 : DevRef τ sig) := by
  after_results_simp

end Cert.ReferenceIdeal.Hand

end
-- ==== Proof.RefC3.lean ====
/- The second scatter's index columns: operations 143–158. The operations as a list — once as the program spells them (an outlined function's operation over
   its typed references) and once each at its buffers, the two equal —, the facts the run asks of a list (every operation
   touches TensorCore buffers only and determines its results), and what the list leaves at the buffers read later. -/
import proofs.«104952_g68075231641772_cont_9to1c4b_264_9_alg».proof.Proof.RefStages
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Operations 143 … 158 of @main as the program spells them, the outlined functions' operations in place of their calls. -/
abbrev opsTC3 : List (HloOp τ sig (Elt F)) :=
  [ StableHlo.nullary main_c_14 (constantI S_ 32 0#32),
    StableHlo.unary main_c_14 main_v40 (broadcastInDim S528 ![] bcast_S_S528 : (⟨S_, .i32⟩ : BufTy).Contents (Elt F) → (⟨S528, .i32⟩ : BufTy).Contents (Elt F)),
    StableHlo.binary main_v24 main_v40 main_v41 (cmpi .slt : (⟨S528, .i32⟩ : BufTy).Contents (Elt F) → (⟨S528, .i32⟩ : BufTy).Contents (Elt F) → (⟨S528, .i1⟩ : BufTy).Contents (Elt F)),
    StableHlo.nullary main_c_15 (constantI S_ 32 32#32),
    StableHlo.unary main_c_15 main_v42 (broadcastInDim S528 ![] bcast_S_S528 : (⟨S_, .i32⟩ : BufTy).Contents (Elt F) → (⟨S528, .i32⟩ : BufTy).Contents (Elt F)),
    StableHlo.binary main_v24 main_v42 main_v43 (addi : (⟨S528, .i32⟩ : BufTy).Contents (Elt F) → (⟨S528, .i32⟩ : BufTy).Contents (Elt F) → (⟨S528, .i32⟩ : BufTy).Contents (Elt F)),
    StableHlo.ternary main_v41 main_v43 main_v24 main_v44 (select : (⟨S528, .i1⟩ : BufTy).Contents (Elt F) → (⟨S528, .i32⟩ : BufTy).Contents (Elt F) → (⟨S528, .i32⟩ : BufTy).Contents (Elt F) → (⟨S528, .i32⟩ : BufTy).Contents (Elt F)),
    StableHlo.nullary main_c_16 (constantI S_ 32 0#32),
    StableHlo.unary main_c_16 main_v45 (broadcastInDim S528 ![] bcast_S_S528 : (⟨S_, .i32⟩ : BufTy).Contents (Elt F) → (⟨S528, .i32⟩ : BufTy).Contents (Elt F)),
    StableHlo.binary main_v22 main_v45 main_v46 (cmpi .slt : (⟨S528, .i32⟩ : BufTy).Contents (Elt F) → (⟨S528, .i32⟩ : BufTy).Contents (Elt F) → (⟨S528, .i1⟩ : BufTy).Contents (Elt F)),
    StableHlo.nullary main_c_17 (constantI S_ 32 32#32),
    StableHlo.unary main_c_17 main_v47 (broadcastInDim S528 ![] bcast_S_S528 : (⟨S_, .i32⟩ : BufTy).Contents (Elt F) → (⟨S528, .i32⟩ : BufTy).Contents (Elt F)),
    StableHlo.binary main_v22 main_v47 main_v48 (addi : (⟨S528, .i32⟩ : BufTy).Contents (Elt F) → (⟨S528, .i32⟩ : BufTy).Contents (Elt F) → (⟨S528, .i32⟩ : BufTy).Contents (Elt F)),
    StableHlo.ternary main_v46 main_v48 main_v22 main_v49 (select : (⟨S528, .i1⟩ : BufTy).Contents (Elt F) → (⟨S528, .i32⟩ : BufTy).Contents (Elt F) → (⟨S528, .i32⟩ : BufTy).Contents (Elt F) → (⟨S528, .i32⟩ : BufTy).Contents (Elt F)),
    StableHlo.unary main_v44 main_v50 (broadcastInDim S528x1 ![0] bcast_S528_S528x1_0 : (⟨S528, .i32⟩ : BufTy).Contents (Elt F) → (⟨S528x1, .i32⟩ : BufTy).Contents (Elt F)),
    StableHlo.unary main_v49 main_v51 (broadcastInDim S528x1 ![0] bcast_S528_S528x1_0 : (⟨S528, .i32⟩ : BufTy).Contents (Elt F) → (⟨S528x1, .i32⟩ : BufTy).Contents (Elt F)) ]

/-- The same operations, each at its buffers. -/
abbrev opsC3 : List (HloOp τ sig (Elt F)) :=
  [ StableHlo.nullary main_c_14 (constantI S_ 32 0#32),
    StableHlo.unary main_c_14 main_v40 (broadcastInDim S528 ![] bcast_S_S528 : (⟨S_, .i32⟩ : BufTy).Contents (Elt F) → (⟨S528, .i32⟩ : BufTy).Contents (Elt F)),
    StableHlo.binary main_v24 main_v40 main_v41 (cmpi .slt : (⟨S528, .i32⟩ : BufTy).Contents (Elt F) → (⟨S528, .i32⟩ : BufTy).Contents (Elt F) → (⟨S528, .i1⟩ : BufTy).Contents (Elt F)),
    StableHlo.nullary main_c_15 (constantI S_ 32 32#32),
    StableHlo.unary main_c_15 main_v42 (broadcastInDim S528 ![] bcast_S_S528 : (⟨S_, .i32⟩ : BufTy).Contents (Elt F) → (⟨S528, .i32⟩ : BufTy).Contents (Elt F)),
    StableHlo.binary main_v24 main_v42 main_v43 (addi : (⟨S528, .i32⟩ : BufTy).Contents (Elt F) → (⟨S528, .i32⟩ : BufTy).Contents (Elt F) → (⟨S528, .i32⟩ : BufTy).Contents (Elt F)),
    StableHlo.ternary main_v41 main_v43 main_v24 main_v44 (select : (⟨S528, .i1⟩ : BufTy).Contents (Elt F) → (⟨S528, .i32⟩ : BufTy).Contents (Elt F) → (⟨S528, .i32⟩ : BufTy).Contents (Elt F) → (⟨S528, .i32⟩ : BufTy).Contents (Elt F)),
    StableHlo.nullary main_c_16 (constantI S_ 32 0#32),
    StableHlo.unary main_c_16 main_v45 (broadcastInDim S528 ![] bcast_S_S528 : (⟨S_, .i32⟩ : BufTy).Contents (Elt F) → (⟨S528, .i32⟩ : BufTy).Contents (Elt F)),
    StableHlo.binary main_v22 main_v45 main_v46 (cmpi .slt : (⟨S528, .i32⟩ : BufTy).Contents (Elt F) → (⟨S528, .i32⟩ : BufTy).Contents (Elt F) → (⟨S528, .i1⟩ : BufTy).Contents (Elt F)),
    StableHlo.nullary main_c_17 (constantI S_ 32 32#32),
    StableHlo.unary main_c_17 main_v47 (broadcastInDim S528 ![] bcast_S_S528 : (⟨S_, .i32⟩ : BufTy).Contents (Elt F) → (⟨S528, .i32⟩ : BufTy).Contents (Elt F)),
    StableHlo.binary main_v22 main_v47 main_v48 (addi : (⟨S528, .i32⟩ : BufTy).Contents (Elt F) → (⟨S528, .i32⟩ : BufTy).Contents (Elt F) → (⟨S528, .i32⟩ : BufTy).Contents (Elt F)),
    StableHlo.ternary main_v46 main_v48 main_v22 main_v49 (select : (⟨S528, .i1⟩ : BufTy).Contents (Elt F) → (⟨S528, .i32⟩ : BufTy).Contents (Elt F) → (⟨S528, .i32⟩ : BufTy).Contents (Elt F) → (⟨S528, .i32⟩ : BufTy).Contents (Elt F)),
    StableHlo.unary main_v44 main_v50 (broadcastInDim S528x1 ![0] bcast_S528_S528x1_0 : (⟨S528, .i32⟩ : BufTy).Contents (Elt F) → (⟨S528x1, .i32⟩ : BufTy).Contents (Elt F)),
    StableHlo.unary main_v49 main_v51 (broadcastInDim S528x1 ![0] bcast_S528_S528x1_0 : (⟨S528, .i32⟩ : BufTy).Contents (Elt F) → (⟨S528x1, .i32⟩ : BufTy).Contents (Elt F)) ]

set_option maxHeartbeats 0 in
set_option maxRecDepth 100000 in
/-- An operation over typed references is the operation at their buffers: the references are literal, so moving a value
    between a buffer's type and the tensor's type is the identity. -/
theorem opsTC3_eq : (opsTC3 : List (HloOp τ sig (Elt F))) = opsC3 := rfl

theorem opsC3_sub : (opsC3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

theorem opsC3_fresh : ∀ op ∈ (opsC3 : List (HloOp τ sig (Elt F))), op.fresh = ∅ := by
  intro _ h; (repeat (cases h with | head => rfl | tail _ h => ?_)); exact nomatch h

/-- `%50`, `%51`: the columns and the rows, each as a column of indices. -/
theorem C3_v50 (V : Valuation τ sig (Elt Ideal)) (h24 : V (main_v24 : DevRef τ sig) = Stages.cols24) :
    after (opsC3 (F := Ideal)) V (main_v50 : DevRef τ sig) = broadcastInDim S528x1 ![0] bcast_S528_S528x1_0 (Stages.wrap32 Stages.cols24) := by
  after_results_simp
  rw [h24]
  simp only [Stages.wrap32]
  try (with_reducible rfl)

theorem C3_v51 (V : Valuation τ sig (Elt Ideal)) (h22 : V (main_v22 : DevRef τ sig) = Stages.rows22) :
    after (opsC3 (F := Ideal)) V (main_v51 : DevRef τ sig) = broadcastInDim S528x1 ![0] bcast_S528_S528x1_0 (Stages.wrap32 Stages.rows22) := by
  after_results_simp
  rw [h22]
  simp only [Stages.wrap32]
  try (with_reducible rfl)

theorem C3_keep_arg0 (V : Valuation τ sig (Elt F)) : after opsC3 V (main_arg0 : DevRef τ sig) = V (main_arg0 : DevRef τ sig) := by
  after_results_simp

theorem C3_keep_arg1 (V : Valuation τ sig (Elt F)) : after opsC3 V (main_arg1 : DevRef τ sig) = V (main_arg1 : DevRef τ sig) := by
  after_results_simp

theorem C3_keep_arg2 (V : Valuation τ sig (Elt F)) : after opsC3 V (main_arg2 : DevRef τ sig) = V (main_arg2 : DevRef τ sig) := by
  after_results_simp

theorem C3_keep_v4 (V : Valuation τ sig (Elt F)) : after opsC3 V (main_v4 : DevRef τ sig) = V (main_v4 : DevRef τ sig) := by
  after_results_simp

theorem C3_keep_v39 (V : Valuation τ sig (Elt F)) : after opsC3 V (main_v39 : DevRef τ sig) = V (main_v39 : DevRef τ sig) := by
  after_results_simp

end Cert.ReferenceIdeal.Hand

end
-- ==== Proof.RefC4.lean ====
/- The (column, row) pairs side by side and the second scatter: operations 159–160. The operations as a list — once as the program spells them (an outlined function's operation over
   its typed references) and once each at its buffers, the two equal —, the facts the run asks of a list (every operation
   touches TensorCore buffers only and determines its results), and what the list leaves at the buffers read later. -/
import proofs.«104952_g68075231641772_cont_9to1c4b_264_9_alg».proof.Proof.RefStages
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Operations 159 … 160 of @main as the program spells them, the outlined functions' operations in place of their calls. -/
abbrev opsTC4 : List (HloOp τ sig (Elt F)) :=
  [ StableHlo.binary main_v50 main_v51 main_v52 ((fun a b => concatenate S528x2 1 [⟨S528x1, a⟩, ⟨S528x1, b⟩] concatenates_S528x1_S528x1_S528x2_d1) : (⟨S528x1, .i32⟩ : BufTy).Contents (Elt F) → (⟨S528x1, .i32⟩ : BufTy).Contents (Elt F) → (⟨S528x2, .i32⟩ : BufTy).Contents (Elt F)),
    StableHlo.ternary main_v39 main_v52 main_v4 main_v53 ((fun x i u => Host.scatter scatter_S50000x32x32_S528x2_S50000x528_0_12_12_1 (fun _ b => b) x i u) : (⟨S50000x32x32, .f32⟩ : BufTy).Contents (Elt F) → (⟨S528x2, .i32⟩ : BufTy).Contents (Elt F) → (⟨S50000x528, .f32⟩ : BufTy).Contents (Elt F) → (⟨S50000x32x32, .f32⟩ : BufTy).Contents (Elt F)) ]

/-- The same operations, each at its buffers. -/
abbrev opsC4 : List (HloOp τ sig (Elt F)) :=
  [ StableHlo.binary main_v50 main_v51 main_v52 ((fun a b => concatenate S528x2 1 [⟨S528x1, a⟩, ⟨S528x1, b⟩] concatenates_S528x1_S528x1_S528x2_d1) : (⟨S528x1, .i32⟩ : BufTy).Contents (Elt F) → (⟨S528x1, .i32⟩ : BufTy).Contents (Elt F) → (⟨S528x2, .i32⟩ : BufTy).Contents (Elt F)),
    StableHlo.ternary main_v39 main_v52 main_v4 main_v53 ((fun x i u => Host.scatter scatter_S50000x32x32_S528x2_S50000x528_0_12_12_1 (fun _ b => b) x i u) : (⟨S50000x32x32, .f32⟩ : BufTy).Contents (Elt F) → (⟨S528x2, .i32⟩ : BufTy).Contents (Elt F) → (⟨S50000x528, .f32⟩ : BufTy).Contents (Elt F) → (⟨S50000x32x32, .f32⟩ : BufTy).Contents (Elt F)) ]

set_option maxHeartbeats 0 in
set_option maxRecDepth 100000 in
/-- An operation over typed references is the operation at their buffers: the references are literal, so moving a value
    between a buffer's type and the tensor's type is the identity. -/
theorem opsTC4_eq : (opsTC4 : List (HloOp τ sig (Elt F))) = opsC4 := rfl

theorem opsC4_sub : (opsC4 : List (HloOp τ sig (Elt F))).Forall fun op => op.bufs ⊆ tcRefs τ sig :=
  ⟨binary_bufs_sub .., ternary_bufs_sub ..⟩

theorem opsC4_fresh : ∀ op ∈ (opsC4 : List (HloOp τ sig (Elt F))), op.fresh = ∅ := by
  intro _ h; (repeat (cases h with | head => rfl | tail _ h => ?_)); exact nomatch h

/-- `%53`: the second scatter, into the first one's result at `%39`, at the pairs whose columns are at `%50`, `%51`. -/
theorem C4_v53 (V : Valuation τ sig (Elt Ideal)) (Z : Vec Ideal S50000x32x32 .f32) (A B : IVec S528x1 32) (P : Vec Ideal S50000x528 .f32)
    (hz : V (main_v39 : DevRef τ sig) = Z) (ha : V (main_v50 : DevRef τ sig) = A) (hb : V (main_v51 : DevRef τ sig) = B) (h4 : V (main_v4 : DevRef τ sig) = P) :
    after (opsC4 (F := Ideal)) V (main_v53 : DevRef τ sig)
      = Host.scatter scatter_S50000x32x32_S528x2_S50000x528_0_12_12_1 (fun _ u => u) Z
          (concatenate S528x2 1 [⟨S528x1, A⟩, ⟨S528x1, B⟩] concatenates_S528x1_S528x1_S528x2_d1) P := by
  after_results
  rw [hz, ha, hb, h4]

theorem C4_keep_arg0 (V : Valuation τ sig (Elt F)) : after opsC4 V (main_arg0 : DevRef τ sig) = V (main_arg0 : DevRef τ sig) := by
  after_results_simp

theorem C4_keep_arg1 (V : Valuation τ sig (Elt F)) : after opsC4 V (main_arg1 : DevRef τ sig) = V (main_arg1 : DevRef τ sig) := by
  after_results_simp

theorem C4_keep_arg2 (V : Valuation τ sig (Elt F)) : after opsC4 V (main_arg2 : DevRef τ sig) = V (main_arg2 : DevRef τ sig) := by
  after_results_simp

end Cert.ReferenceIdeal.Hand

end
-- ==== Proof.LibScatterSet.lean ====
/-
  Reading a "set" scatter at one index.

  `Host.scatter d (fun _ b => b) x idx upd` is a left fold over all update positions in row-major
  order; each step overwrites the element at the position's result index (when it has one) by the
  update's element. Two facts about the value it leaves at a given result index `i`:
  it is the update's element at `k` when `k` is the ONLY update position landing at `i`,
  and it is the operand's element when no update position lands at `i`.
-/
import Idealize.ShloMosaic.PureOps.ShapeOps

namespace Cert.ScatterSet

open Idealize.ShloMosaic

variable {s si u : Shape} {α : Type} {w : Nat}

/-- One step of the fold behind `Host.scatter` with the body that returns the update: at update
    position `n` (in row-major numbering) the element at that position's result index, if it has
    one, is replaced by the update's element; every other element is kept. -/
def step (d : ScatterDims s si u) (idx : IVec si w) (upd : u.Idx → α) (r : s.Idx → α) (n : Fin u.numel) :
    s.Idx → α :=
  match d.resultIdx? (u.rowMajor.symm n) idx with
  | some i => fun i' => if i' = i then (fun (_ b : α) => b) (r i) (upd (u.rowMajor.symm n)) else r i'
  | none => r

/-- `Host.scatter` with the body that returns the update is the left fold of `step` over all
    update positions. -/
theorem scatter_eq_foldl (d : ScatterDims s si u) (x : s.Idx → α) (idx : IVec si w) (upd : u.Idx → α) :
    Host.scatter d (fun _ b => b) x idx upd = (List.finRange u.numel).foldl (step d idx upd) x := rfl

/-- A step at a position whose result index is not `i` leaves the element at `i` unchanged. -/
theorem step_of_ne (d : ScatterDims s si u) (idx : IVec si w) (upd : u.Idx → α) (r : s.Idx → α)
    (n : Fin u.numel) (i : s.Idx) (h : d.resultIdx? (u.rowMajor.symm n) idx ≠ some i) :
    step d idx upd r n i = r i := by
  unfold step
  generalize d.resultIdx? (u.rowMajor.symm n) idx = o at h
  cases o with
  | none => rfl
  | some i0 =>
    have hne : i ≠ i0 := fun e => h (by rw [e])
    simp [hne]

/-- A step at a position whose result index is `i` leaves the update's element at `i`. -/
theorem step_of_eq (d : ScatterDims s si u) (idx : IVec si w) (upd : u.Idx → α) (r : s.Idx → α)
    (n : Fin u.numel) (i : s.Idx) (h : d.resultIdx? (u.rowMajor.symm n) idx = some i) :
    step d idx upd r n i = upd (u.rowMajor.symm n) := by
  unfold step
  rw [h]
  simp

/-- When no update position lands at `i`, folding the steps over any list of positions leaves the
    element at `i` as it was. -/
theorem foldl_miss (d : ScatterDims s si u) (idx : IVec si w) (upd : u.Idx → α) (i : s.Idx)
    (hno : ∀ k, d.resultIdx? k idx ≠ some i) (l : List (Fin u.numel)) (r : s.Idx → α) :
    l.foldl (step d idx upd) r i = r i := by
  induction l generalizing r with
  | nil => rfl
  | cons n l ih =>
    rw [List.foldl_cons, ih, step_of_ne d idx upd r n i (hno _)]

/-- When `k` is the only update position landing at `i`, folding the steps over a list of
    positions leaves at `i` the update's element at `k` if `k`'s row-major number is in the list,
    and the starting element otherwise. -/
theorem foldl_hit (d : ScatterDims s si u) (idx : IVec si w) (upd : u.Idx → α) (i : s.Idx) (k : u.Idx)
    (hk : d.resultIdx? k idx = some i) (huniq : ∀ k', d.resultIdx? k' idx = some i → k' = k)
    (l : List (Fin u.numel)) (r : s.Idx → α) :
    l.foldl (step d idx upd) r i = if u.rowMajor k ∈ l then upd k else r i := by
  induction l generalizing r with
  | nil => simp
  | cons n l ih =>
    rw [List.foldl_cons, ih]
    by_cases hn : n = u.rowMajor k
    · have hs : u.rowMajor.symm n = k := by rw [hn]; exact Equiv.symm_apply_apply _ _
      have h1 : step d idx upd r n i = upd k := by
        rw [step_of_eq d idx upd r n i (by rw [hs]; exact hk), hs]
      rw [h1]
      have hmem : u.rowMajor k ∈ n :: l := by rw [hn]; exact List.mem_cons_self ..
      rw [if_pos hmem]
      split <;> rfl
    · have hne : d.resultIdx? (u.rowMajor.symm n) idx ≠ some i := by
        intro e
        apply hn
        have := huniq _ e
        rw [← this]; exact (Equiv.apply_symm_apply _ _).symm
      rw [step_of_ne d idx upd r n i hne]
      have hiff : u.rowMajor k ∈ n :: l ↔ u.rowMajor k ∈ l := by
        rw [List.mem_cons]
        constructor
        · rintro (e | e)
          · exact absurd e.symm hn
          · exact e
        · exact Or.inr
      by_cases hm : u.rowMajor k ∈ l
      · rw [if_pos hm, if_pos (hiff.2 hm)]
      · rw [if_neg hm, if_neg (fun e => hm (hiff.1 e))]

/-- A "set" scatter read at a result index `i` that exactly one update position `k` lands at:
    the value is the update's element at `k`. -/
theorem scatter_set_hit (d : ScatterDims s si u) (x : s.Idx → α) (idx : IVec si w) (upd : u.Idx → α)
    (i : s.Idx) (k : u.Idx) (hk : d.resultIdx? k idx = some i)
    (huniq : ∀ k', d.resultIdx? k' idx = some i → k' = k) :
    Host.scatter d (fun _ b => b) x idx upd i = upd k := by
  rw [scatter_eq_foldl, foldl_hit d idx upd i k hk huniq, if_pos (List.mem_finRange _)]

/-- A "set" scatter read at a result index `i` that no update position lands at: the value is the
    operand's element at `i`. -/
theorem scatter_set_miss (d : ScatterDims s si u) (x : s.Idx → α) (idx : IVec si w) (upd : u.Idx → α)
    (i : s.Idx) (hno : ∀ k, d.resultIdx? k idx ≠ some i) :
    Host.scatter d (fun _ b => b) x idx upd i = x i := by
  rw [scatter_eq_foldl, foldl_miss d idx upd i hno]

end Cert.ScatterSet
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibRowBias.lean ====
/-
  Adding one row to every row of a matrix, and clamping the sum below, read one entry at a time at the exact
  (extended-real) values.

  For an M×N array A and a length-N vector b the entry (p, q) of "A plus b on every row" is A(p, q) + b(q).  Two
  spellings of it occur: the vector unit's, which keeps b as a 1×N row and spreads that row over the M rows, and the
  host's, which first recasts b as a 1×N row by a broadcast along a new leading axis and then spreads it.  Both are the
  one function `addRow A (asRow b)`, where `asRow b` is b recast as a 1×N row (a reshape: the row-major order of
  [N] and [1, N] is the same).  Clamping below at a constant z is max(·, z) entry by entry; a splat of z and a
  rank-0 constant spread over the array are the same constant array.
-/
import Idealize.ShloMosaic.Lib.ValueIdx
import Idealize.ShloMosaic.Lib.Pipeline.Value
import Idealize.ShloMosaic.PureOps.Ideal

noncomputable section

namespace Cert.RowBias

open Idealize.ShloMosaic Idealize.ShloMosaic.ValueIdx

variable {M N : Nat}

/-- Entry (p, q) of A plus the row b on every row:  A(p, q) + b(0, q). -/
def addRow (A : (⟨2, ![M, N]⟩ : Shape).Idx → EReal) (b : (⟨2, ![1, N]⟩ : Shape).Idx → EReal) :
    (⟨2, ![M, N]⟩ : Shape).Idx → EReal := fun i => A i + b (ix2 0 (i 1))

/-- Entry by entry, max(Y, z). -/
def clampBelow {S : Shape} (z : EReal) (Y : S.Idx → EReal) : S.Idx → EReal := fun i => max (Y i) z

/-- A 1×N row spread over M rows reads, at (p, q), the row at (0, q). -/
theorem spreadRow_apply {α : Type} (b : (⟨2, ![1, N]⟩ : Shape).Idx → α)
    (h : (⟨2, ![1, N]⟩ : Shape).Broadcasts ⟨2, ![M, N]⟩) (j : (⟨2, ![M, N]⟩ : Shape).Idx) :
    broadcastTo ⟨2, ![M, N]⟩ b h j = b (ix2 0 (j 1)) :=
  broadcastTo_apply b h j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- The host's spread of a 1×N row over M rows (both axes kept) reads the row at (0, q). -/
theorem spreadRowInDim_apply {α : Type} (b : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h b j = b (ix2 0 (j 1)) :=
  broadcastInDim_apply ![0, 1] h b j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- A length-N vector placed along the second axis of a 1×N row reads, at (0, q), the vector at q. -/
theorem rowInDim_apply {α : Type} (x : (⟨1, ![N]⟩ : Shape).Idx → α)
    (h : (⟨1, ![N]⟩ : Shape).BroadcastsInDim ⟨2, ![1, N]⟩ ![1]) (q : Fin N) :
    broadcastInDim ⟨2, ![1, N]⟩ ![1] h x (ix2 0 q) = x (ix1 q) :=
  broadcastInDim_apply ![1] h x (ix2 0 q) (ix1 q) (fun a => match a with
    | ⟨0, _⟩ => by
        show q.val = if N = 1 then 0 else q.val
        split
        · have := q.isLt; omega
        · rfl)

/-- A length-N vector recast as a 1×N row reads, at (0, q), the vector at q. -/
theorem asRow_apply {α : Type} (x : (⟨1, ![N]⟩ : Shape).Idx → α)
    (h : (⟨1, ![N]⟩ : Shape).ShapeCasts ⟨2, ![1, N]⟩) (q : Fin N) :
    shapeCast ⟨2, ![1, N]⟩ x h (ix2 0 q) = x (ix1 q) := by
  rw [shapeCast_addUnit_apply ![N] x h (ix2 0 q)]
  exact congrArg x (funext fun a => match a with | ⟨0, _⟩ => rfl)

/-- The vector unit's "A plus the row b": the operands recast to their own shapes, the row spread, the sum. -/
theorem addf_spread_eq (A : FVec Ideal (⟨2, ![M, N]⟩ : Shape) .f32) (b : FVec Ideal (⟨2, ![1, N]⟩ : Shape) .f32)
    (hA : (⟨2, ![M, N]⟩ : Shape).ShapeCasts ⟨2, ![M, N]⟩) (hb : (⟨2, ![1, N]⟩ : Shape).ShapeCasts ⟨2, ![1, N]⟩)
    (hB : (⟨2, ![1, N]⟩ : Shape).Broadcasts ⟨2, ![M, N]⟩) :
    addf (shapeCast ⟨2, ![M, N]⟩ A hA) (broadcastTo ⟨2, ![M, N]⟩ (shapeCast ⟨2, ![1, N]⟩ b hb) hB) = addRow A b := by
  rw [shapeCast_self, shapeCast_self]
  funext j
  show FloatOps.addf (A j) (broadcastTo ⟨2, ![M, N]⟩ b hB j) = A j + b (ix2 0 (j 1))
  rw [spreadRow_apply]
  rfl

/-- The host's "A plus the vector x on every row" is "A plus the row" of x recast as a 1×N row. -/
theorem addf_hostSpread_eq (A : FVec Ideal (⟨2, ![M, N]⟩ : Shape) .f32) (x : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf A (broadcastInDim ⟨2, ![M, N]⟩ ![0, 1] h2 (broadcastInDim ⟨2, ![1, N]⟩ ![1] h1 x))
      = addRow A (shapeCast ⟨2, ![1, N]⟩ x hc) := by
  funext j
  obtain ⟨p, q, rfl⟩ : ∃ (p : Fin M) (q : Fin N), j = ix2 p q := ⟨j 0, j 1, eq_ix2 j⟩
  show FloatOps.addf (A (ix2 p q))
      (broadcastInDim ⟨2, ![M, N]⟩ ![0, 1] h2 (broadcastInDim ⟨2, ![1, N]⟩ ![1] h1 x) (ix2 p q))
    = A (ix2 p q) + shapeCast ⟨2, ![1, N]⟩ x hc (ix2 0 q)
  rw [spreadRowInDim_apply]
  show FloatOps.addf (A (ix2 p q)) (broadcastInDim ⟨2, ![1, N]⟩ ![1] h1 x (ix2 0 q))
    = A (ix2 p q) + shapeCast ⟨2, ![1, N]⟩ x hc (ix2 0 q)
  rw [rowInDim_apply, asRow_apply]
  rfl

/-- The vector unit's clamp: the maximum with a splat of the constant. -/
theorem maximumf_splat_eq {S : Shape} (Y : FVec Ideal S .f32) (bits : BitVec 32) :
    maximumf Y (broadcast S (Scalar.ofBits (F := Ideal) .f32 bits)) = clampBelow (Ideal.ofBits .f32 bits) Y := rfl

/-- The host's clamp: the maximum with the rank-0 constant spread over the array. -/
theorem maximumf_hostSplat_eq {S : Shape} (Y : FVec Ideal S .f32) (bits : BitVec 32)
    (h : (⟨0, ![]⟩ : Shape).BroadcastsInDim S ![]) :
    maximumf Y (broadcastInDim S ![] h (constant (F := Ideal) ⟨0, ![]⟩ .f32 bits)) = clampBelow (Ideal.ofBits .f32 bits) Y := rfl

end Cert.RowBias

end
-- ==== Proof.RefVal.lean ====
/-
  The reference's value, read at an index.

  The reference sends each node's 128 features through the linear layer, giving a 50000 × 528 array proj with
  proj(n, p) = Σ_k W(p, k) · x(n, k) + b(p), and then writes it twice into a zero 50000 × 32 × 32 array: first
  proj(n, p) at (n, rows(p), cols(p)) for every p, then proj(n, p) at (n, cols(p), rows(p)).  Here p ↦ (rows(p),
  cols(p)) lists the pairs i ≤ j of {0, …, 31} without repetition, and tri is its inverse.  So at (n, i, j) with
  j ≤ i the second writing puts proj(n, tri(j, i)) and nothing else lands there after it; at (n, i, j) with i < j
  nothing of the second writing lands, and the first puts proj(n, tri(i, j)).  As tri is symmetric, the entry is
  proj(n, tri(i, j)) in both cases.
-/
import proofs.«104952_g68075231641772_cont_9to1c4b_264_9_alg».proof.Proof.RefStages
import proofs.«104952_g68075231641772_cont_9to1c4b_264_9_alg».proof.Proof.Spec
import proofs.«104952_g68075231641772_cont_9to1c4b_264_9_alg».proof.Proof.Gen.ReferenceIdeal
import proofs.«104952_g68075231641772_cont_9to1c4b_264_9_alg».proof.Proof.LibScatterSet
import proofs.«104952_g68075231641772_cont_9to1c4b_264_9_alg».proof.Proof.LibRowDot
import proofs.«104952_g68075231641772_cont_9to1c4b_264_9_alg».proof.Proof.LibRowBias
import Idealize.ShloMosaic.Lib.Pipeline.Value
import Idealize.ShloMosaic.Lib.ValueLayout

noncomputable section

open scoped BigOperators

namespace Cert.ReferenceIdeal.RefValue

open Idealize.ShloMosaic Idealize.ShloMosaic.ValueIdx
open Cert.ReferenceIdeal Cert.ReferenceIdeal.Facts₀ Cert.SymSpec

/-! ## The linear layer -/

/-- x times W transposed, plus b on every row, in the operations' own spelling. -/
def proj (x : S50000x128.Idx → EReal) (W : S528x128.Idx → EReal) (b : S528.Idx → EReal) : S50000x528.Idx → EReal :=
  addf (F := Ideal) (φ := .f32)
    (Host.dotGeneral (F := Ideal) (φ₁ := .f32) (φ₂ := .f32) dot_S50000x128_S128x528_S50000x528_1_0_0_1_n_n none x
      (transpose S128x528 [1, 0] W transposes_S528x128_S128x528_1_0))
    (broadcastInDim S50000x528 ![0, 1] bcast_S1x528_S50000x528_0_1 (broadcastInDim S1x528 ![1] bcast_S528_S1x528_1 b))

/-- Entry (n, p): row p of W against row n of x, plus b(p). -/
theorem proj_apply (x : S50000x128.Idx → EReal) (W : S528x128.Idx → EReal) (b : S528.Idx → EReal)
    (n : Fin 50000) (p : Fin 528) :
    proj x W b (ix2 n p) = (∑ k : Fin 128, W (ix2 p k) * x (ix2 n k)) + b (ix1 p) := by
  unfold proj
  show FloatOps.dotGeneral (F := Ideal) (φ₁ := .f32) (φ₂ := .f32) (DotDims.plain 50000 128 528) none .single x
      (transpose S128x528 [1, 0] W transposes_S528x128_S128x528_1_0) (ix2 n p)
    + broadcastInDim S50000x528 ![0, 1] bcast_S1x528_S50000x528_0_1 (broadcastInDim S1x528 ![1] bcast_S528_S1x528_1 b) (ix2 n p) = _
  rw [Cert.RowDot.dotGeneral_plain_apply, Cert.RowBias.spreadRowInDim_apply]
  show Cert.RowDot.rowDot (Cert.RowDot.rowOf x n) _ p + broadcastInDim S1x528 ![1] bcast_S528_S1x528_1 b (ix2 0 p) = _
  rw [Cert.RowBias.rowInDim_apply]
  congr 1
  unfold Cert.RowDot.rowDot Cert.RowDot.rowOf
  refine Finset.sum_congr rfl fun k _ => ?_
  rw [transpose_ix2_apply, mul_comm]

/-! ## Two index vectors side by side -/

/-- The first column of the pairs is the first vector. -/
theorem pairs_fst (a b : IVec S528 32) (p : Fin 528) : Stages.pairs a b (ix2 p (0 : Fin 2)) = a (ix1 p) := by
  unfold Stages.pairs
  rw [concatenate_pair_apply_left (1 : Fin S528x2.rank) _ _ concatenates_S528x1_S528x1_S528x2_d1 (ix2 p (0 : Fin 2)) rfl
    (ix2 p (0 : Fin 1)) (fun e => by
      match e with
      | ⟨0, _⟩ => rfl
      | ⟨1, _⟩ => rfl)]
  exact broadcastInDim_apply (![0] : Fin 1 → Fin S528x1.rank) bcast_S528_S528x1_0 a (ix2 p (0 : Fin 1)) (ix1 p)
    (fun e => by
      match e with
      | ⟨0, _⟩ => rfl)

/-- The second column of the pairs is the second vector. -/
theorem pairs_snd (a b : IVec S528 32) (p : Fin 528) : Stages.pairs a b (ix2 p (1 : Fin 2)) = b (ix1 p) := by
  unfold Stages.pairs
  rw [concatenate_pair_apply_right (1 : Fin S528x2.rank) _ _ concatenates_S528x1_S528x1_S528x2_d1 (ix2 p (1 : Fin 2)) rfl rfl
    (ix2 p (0 : Fin 1)) (fun e he => by
      match e with
      | ⟨0, _⟩ => rfl
      | ⟨1, _⟩ => exact absurd rfl he) rfl]
  exact broadcastInDim_apply (![0] : Fin 1 → Fin S528x1.rank) bcast_S528_S528x1_0 b (ix2 p (0 : Fin 1)) (ix1 p)
    (fun e => by
      match e with
      | ⟨0, _⟩ => rfl)

/-! ## Where an update of the pair scatter lands -/

/-- An axis is kept exactly when it is not among the removed ones. -/
private theorem mem_kept {s : Shape} (axes : List (Fin s.rank)) (a : Fin s.rank) : a ∈ s.kept axes ↔ a ∉ axes := by
  simp [Shape.kept, List.mem_filter, List.mem_finRange]

/-- An update lands on index i exactly when, on every axis, its start plus its window coordinate is i's
    coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- Scatter of the rows [N, M] of updates into an array [N, A, B]: update (n, p) goes to (n, idx[p, 0], idx[p, 1]). -/
abbrev scatterPairs (N A B M : Nat)
    (wf : ScatterDims.WF ⟨3, ![N, A, B]⟩ ⟨2, ![M, 2]⟩ ⟨2, ![N, M]⟩ [0] [1, 2] [1, 2] 1) :
    ScatterDims ⟨3, ![N, A, B]⟩ ⟨2, ![M, 2]⟩ ⟨2, ![N, M]⟩ where
  updateWindowDims := [0]
  insertedWindowDims := [1, 2]
  scatterDimsToOperandDims := [1, 2]
  indexVectorDim := 1
  wf := wf

/-- Update (n', p) lands on (n, i, j) exactly when n' = n and the two start words of p, read signed, are i and j. -/
theorem scatterPairs_resultIdx {N A B M w : Nat}
    (wf : ScatterDims.WF ⟨3, ![N, A, B]⟩ ⟨2, ![M, 2]⟩ ⟨2, ![N, M]⟩ [0] [1, 2] [1, 2] 1)
    (idx : IVec ⟨2, ![M, 2]⟩ w) (n' : Fin N) (p : Fin M) (n : Fin N) (i : Fin A) (j : Fin B) :
    (scatterPairs N A B M wf).resultIdx? (ix2 n' p) idx = some (ix3 n i j)
      ↔ n' = n ∧ (idx (ix2 p (0 : Fin 2))).toInt = (i.val : ℤ) ∧ (idx (ix2 p (1 : Fin 2))).toInt = (j.val : ℤ) := by
  have hs0 : (scatterPairs N A B M wf).start (ix2 n' p) idx (0 : Fin 3) = 0 := by
    unfold ScatterDims.start
    rw [dif_neg (show (0 : Fin 3) ∉ ([1, 2] : List (Fin 3)) by decide)]
  have hw0 : (scatterPairs N A B M wf).window (ix2 n' p) (0 : Fin 3) = n'.val := by
    unfold ScatterDims.window
    rw [dif_pos (show (0 : Fin 3) ∈ (scatterPairs N A B M wf).sKept from
      (mem_kept _ _).2 (show (0 : Fin 3) ∉ ([1, 2] : List (Fin 3)) by decide))]
    rfl
  have hs1 : (scatterPairs N A B M wf).start (ix2 n' p) idx (1 : Fin 3) = (idx (ix2 p (0 : Fin 2))).toInt := by
    unfold ScatterDims.start
    rw [dif_pos (show (1 : Fin 3) ∈ ([1, 2] : List (Fin 3)) by decide)]
    have hsi : (scatterPairs N A B M wf).siIdx (ix2 n' p) ⟨List.idxOf (1 : Fin 3) (scatterPairs N A B M wf).scatterDimsToOperandDims,
        List.idxOf_lt_length_iff.2 (show (1 : Fin 3) ∈ ([1, 2] : List (Fin 3)) by decide)⟩ = ix2 p (0 : Fin 2) := by
      funext e; refine Fin.ext ?_
      match e with
      | ⟨0, _⟩ => rfl
      | ⟨1, _⟩ => rfl
    rw [hsi]
  have hw1 : (scatterPairs N A B M wf).window (ix2 n' p) (1 : Fin 3) = 0 := by
    unfold ScatterDims.window
    rw [dif_neg (fun h => (mem_kept _ _).1 h (show (1 : Fin 3) ∈ ([1, 2] : List (Fin 3)) by decide))]
  have hs2 : (scatterPairs N A B M wf).start (ix2 n' p) idx (2 : Fin 3) = (idx (ix2 p (1 : Fin 2))).toInt := by
    unfold ScatterDims.start
    rw [dif_pos (show (2 : Fin 3) ∈ ([1, 2] : List (Fin 3)) by decide)]
    have hsi : (scatterPairs N A B M wf).siIdx (ix2 n' p) ⟨List.idxOf (2 : Fin 3) (scatterPairs N A B M wf).scatterDimsToOperandDims,
        List.idxOf_lt_length_iff.2 (show (2 : Fin 3) ∈ ([1, 2] : List (Fin 3)) by decide)⟩ = ix2 p (1 : Fin 2) := by
      funext e; refine Fin.ext ?_
      match e with
      | ⟨0, _⟩ => rfl
      | ⟨1, _⟩ => rfl
    rw [hsi]
  have hw2 : (scatterPairs N A B M wf).window (ix2 n' p) (2 : Fin 3) = 0 := by
    unfold ScatterDims.window
    rw [dif_neg (fun h => (mem_kept _ _).1 h (show (2 : Fin 3) ∈ ([1, 2] : List (Fin 3)) by decide))]
  rw [resultIdx?_eq_some_iff]
  constructor
  · intro h
    have h0 := h (0 : Fin 3)
    have h1 := h (1 : Fin 3)
    have h2 := h (2 : Fin 3)
    rw [hs0, hw0] at h0
    rw [hs1, hw1] at h1
    rw [hs2, hw2] at h2
    have h0' : (0 : ℤ) + (n'.val : ℤ) = (n.val : ℤ) := h0
    have h1' : (idx (ix2 p (0 : Fin 2))).toInt + ((0 : ℕ) : ℤ) = (i.val : ℤ) := h1
    have h2' : (idx (ix2 p (1 : Fin 2))).toInt + ((0 : ℕ) : ℤ) = (j.val : ℤ) := h2
    refine ⟨Fin.ext ?_, by simpa using h1', by simpa using h2'⟩
    have : (n'.val : ℤ) = (n.val : ℤ) := by simpa using h0'
    exact_mod_cast this
  · rintro ⟨rfl, h1, h2⟩ a
    match a with
    | ⟨0, _⟩ =>
      show (scatterPairs N A B M wf).start (ix2 n' p) idx (0 : Fin 3)
        + ((scatterPairs N A B M wf).window (ix2 n' p) (0 : Fin 3) : ℤ) = (n'.val : ℤ)
      rw [hs0, hw0]; simp
    | ⟨1, _⟩ =>
      show (scatterPairs N A B M wf).start (ix2 n' p) idx (1 : Fin 3)
        + ((scatterPairs N A B M wf).window (ix2 n' p) (1 : Fin 3) : ℤ) = (i.val : ℤ)
      rw [hs1, hw1, h1]; simp
    | ⟨2, _⟩ =>
      show (scatterPairs N A B M wf).start (ix2 n' p) idx (2 : Fin 3)
        + ((scatterPairs N A B M wf).window (ix2 n' p) (2 : Fin 3) : ℤ) = (j.val : ℤ)
      rw [hs2, hw2, h2]; simp

/-! ## The two writings -/

/-- A 32-bit word holding a number below 32, read signed, is that number. -/
private theorem toInt_ofNat32 (v : Nat) (hv : v < 32) : (BitVec.ofNat 32 v).toInt = (v : ℤ) := by
  have h : (BitVec.ofNat 32 v).toNat = v := by rw [BitVec.toNat_ofNat]; exact Nat.mod_eq_of_lt (by omega)
  rw [BitVec.toInt_eq_toNat_of_lt (by rw [h]; omega), h]

/-- With the start words of a and b holding the numbers av and bv: update k lands on (n, i, j) exactly when its
    node is n and av, bv at its pair are i, j. -/
private theorem lands_iff (a b : IVec S528 32) (av bv : Fin 528 → Fin 32)
    (ha : ∀ p : Fin 528, a (ix1 p) = BitVec.ofNat 32 (av p).val) (hb : ∀ p : Fin 528, b (ix1 p) = BitVec.ofNat 32 (bv p).val)
    (k : S50000x528.Idx) (n : Fin 50000) (i j : Fin 32) :
    scatter_S50000x32x32_S528x2_S50000x528_0_12_12_1.resultIdx? k (Stages.pairs a b) = some (ix3 n i j)
      ↔ k 0 = n ∧ av (k 1) = i ∧ bv (k 1) = j := by
  obtain ⟨n', p, rfl⟩ : ∃ (n' : Fin 50000) (p : Fin 528), k = ix2 n' p := ⟨k 0, k 1, eq_ix2 k⟩
  show (scatterPairs 50000 32 32 528 scatter_S50000x32x32_S528x2_S50000x528_0_12_12_1_wf).resultIdx? (ix2 n' p) (Stages.pairs a b)
      = some (ix3 n i j) ↔ n' = n ∧ av p = i ∧ bv p = j
  rw [scatterPairs_resultIdx, pairs_fst, pairs_snd, ha, hb, toInt_ofNat32 _ (av p).isLt, toInt_ofNat32 _ (bv p).isLt]
  constructor
  · rintro ⟨h0, h1, h2⟩
    exact ⟨h0, Fin.ext (by exact_mod_cast h1), Fin.ext (by exact_mod_cast h2)⟩
  · rintro ⟨rfl, rfl, rfl⟩
    exact ⟨rfl, rfl, rfl⟩

/-- The array written twice, at (n, i, j): the linear layer's entry for the pair {i, j}. -/
theorem scatter2_apply (proj : S50000x528.Idx → EReal) (zeros : S50000x32x32.Idx → EReal) (r c : IVec S528 32)
    (rowsV colsV : Fin 528 → Fin 32)
    (hr : ∀ p : Fin 528, r (ix1 p) = BitVec.ofNat 32 (rowsV p).val) (hc : ∀ p : Fin 528, c (ix1 p) = BitVec.ofNat 32 (colsV p).val)
    (hle : ∀ p, rowsV p ≤ colsV p) (htri : ∀ p, tri (rowsV p) (colsV p) = p)
    (hinv : ∀ i j : Fin 32, i ≤ j → rowsV (tri i j) = i ∧ colsV (tri i j) = j) (n : Fin 50000) (i j : Fin 32) :
    Host.scatter scatter_S50000x32x32_S528x2_S50000x528_0_12_12_1 (fun _ u => u)
      (Host.scatter scatter_S50000x32x32_S528x2_S50000x528_0_12_12_1 (fun _ u => u) zeros (Stages.pairs r c) proj)
      (Stages.pairs c r) proj (ix3 n i j) = proj (ix2 n (tri i j)) := by
  -- an update that lands at (n, i', j') through start words av, bv is the one of node n and pair tri(av, bv)
  have uniq : ∀ (a b : IVec S528 32) (av bv : Fin 528 → Fin 32)
      (ha : ∀ p : Fin 528, a (ix1 p) = BitVec.ofNat 32 (av p).val) (hb : ∀ p : Fin 528, b (ix1 p) = BitVec.ofNat 32 (bv p).val)
      (q : Fin 528) (hq : ∀ p, av p = i → bv p = j → p = q) (k' : S50000x528.Idx),
      scatter_S50000x32x32_S528x2_S50000x528_0_12_12_1.resultIdx? k' (Stages.pairs a b) = some (ix3 n i j) → k' = ix2 n q := by
    intro a b av bv ha hb q hq k' hk'
    obtain ⟨n', p, rfl⟩ : ∃ (n' : Fin 50000) (p : Fin 528), k' = ix2 n' p := ⟨k' 0, k' 1, eq_ix2 k'⟩
    obtain ⟨h0, h1, h2⟩ := (lands_iff a b av bv ha hb _ n i j).1 hk'
    have h0' : n' = n := h0
    have e : p = q := hq p h1 h2
    rw [h0', e]
  by_cases hji : j ≤ i
  · -- the second writing puts the pair (j, i)'s entry at (n, i, j), and nothing else lands there
    have hv := hinv j i hji
    rw [Cert.ScatterSet.scatter_set_hit _ _ _ _ (ix3 n i j) (ix2 n (tri j i))
      ((lands_iff c r colsV rowsV hc hr _ n i j).2 ⟨rfl, hv.2, hv.1⟩)
      (uniq c r colsV rowsV hc hr (tri j i) (fun p h1 h2 => by
        have := htri p; rw [h1, h2] at this; exact this.symm)),
      tri_comm]
  · -- nothing of the second writing lands at (n, i, j): it would need j ≤ i
    have hij : i ≤ j := le_of_lt (lt_of_not_ge hji)
    have hv := hinv i j hij
    rw [Cert.ScatterSet.scatter_set_miss _ _ _ _ (ix3 n i j) (fun k hk => by
        obtain ⟨h0, h1, h2⟩ := (lands_iff c r colsV rowsV hc hr k n i j).1 hk
        have := hle (k 1); rw [h1, h2] at this; exact hji this),
      Cert.ScatterSet.scatter_set_hit _ _ _ _ (ix3 n i j) (ix2 n (tri i j))
      ((lands_iff r c rowsV colsV hr hc _ n i j).2 ⟨rfl, hv.1, hv.2⟩)
      (uniq r c rowsV colsV hr hc (tri i j) (fun p h1 h2 => by
        have := htri p; rw [h1, h2] at this; exact this.symm))]

/-! ## The whole result -/

/-- The reference's result is the specification's array. -/
theorem ref_value (x : S50000x128.Idx → EReal) (W : S528x128.Idx → EReal) (b : S528.Idx → EReal)
    (zeros : S50000x32x32.Idx → EReal) (r c : IVec S528 32) (rowsV colsV : Fin 528 → Fin 32)
    (hr : ∀ p : Fin 528, r (ix1 p) = BitVec.ofNat 32 (rowsV p).val) (hc : ∀ p : Fin 528, c (ix1 p) = BitVec.ofNat 32 (colsV p).val)
    (hle : ∀ p, rowsV p ≤ colsV p) (htri : ∀ p, tri (rowsV p) (colsV p) = p)
    (hinv : ∀ i j : Fin 32, i ≤ j → rowsV (tri i j) = i ∧ colsV (tri i j) = j) :
    Host.scatter scatter_S50000x32x32_S528x2_S50000x528_0_12_12_1 (fun _ u => u)
      (Host.scatter scatter_S50000x32x32_S528x2_S50000x528_0_12_12_1 (fun _ u => u) zeros (Stages.pairs r c) (proj x W b))
      (Stages.pairs c r) (proj x W b) = SymSpec.out x W b := by
  funext idx
  obtain ⟨n, i, j, rfl⟩ : ∃ (n : Fin 50000) (i j : Fin 32), idx = ix3 n i j := ⟨idx 0, idx 1, idx 2, eq_ix3 idx⟩
  rw [scatter2_apply (proj x W b) zeros r c rowsV colsV hr hc hle htri hinv, proj_apply, out_ix3]
  rfl

end Cert.ReferenceIdeal.RefValue

end
-- ==== Proof.RefRun.lean ====
/- The reference's run: @main is the straight line of its 160 host operations (the outlined functions' operations in
   place of their calls), so every weakly fair execution terminates with the result buffer at the composed value
   of the three argument arrays — x · Wᵀ + b written into a zero array at the (row, column) index pairs and then
   at the (column, row) pairs — and the argument arrays unchanged. The list is the concatenation of nine stretches;
   what each leaves at the buffers read later is proved beside it, and composed here. -/
import proofs.«104952_g68075231641772_cont_9to1c4b_264_9_alg».proof.Proof.RefA
import proofs.«104952_g68075231641772_cont_9to1c4b_264_9_alg».proof.Proof.RefB1
import proofs.«104952_g68075231641772_cont_9to1c4b_264_9_alg».proof.Proof.RefB2
import proofs.«104952_g68075231641772_cont_9to1c4b_264_9_alg».proof.Proof.RefB3
import proofs.«104952_g68075231641772_cont_9to1c4b_264_9_alg».proof.Proof.RefB4
import proofs.«104952_g68075231641772_cont_9to1c4b_264_9_alg».proof.Proof.RefC1
import proofs.«104952_g68075231641772_cont_9to1c4b_264_9_alg».proof.Proof.RefC2
import proofs.«104952_g68075231641772_cont_9to1c4b_264_9_alg».proof.Proof.RefC3
import proofs.«104952_g68075231641772_cont_9to1c4b_264_9_alg».proof.Proof.RefC4
import proofs.«104952_g68075231641772_cont_9to1c4b_264_9_alg».proof.Proof.RefVal
import proofs.«104952_g68075231641772_cont_9to1c4b_264_9_alg».proof.Defs
import proofs.«104952_g68075231641772_cont_9to1c4b_264_9_alg».proof.Proof.Gen.Pre_finite_inputs

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- @main's 160 operations, in order. -/
abbrev ops : List (HloOp τ sig (Elt F)) := opsA ++ opsB1 ++ opsB2 ++ opsB3 ++ opsB4 ++ opsC1 ++ opsC2 ++ opsC3 ++ opsC4

/-- Running two lists one after the other is running their concatenation. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- @main's 160 operations as the program spells them. -/
abbrev opsT : List (HloOp τ sig (Elt F)) := opsTA ++ opsTB1 ++ opsTB2 ++ opsTB3 ++ opsTB4 ++ opsTC1 ++ opsTC2 ++ opsTC3 ++ opsTC4

set_option maxHeartbeats 0 in
set_option maxRecDepth 100000 in
/-- @main is that straight line: the functions' definitions unfolded at their calls, both sides are one chain of
    operation steps. -/
theorem main_eqT (c : Dev nD) : main (F := F) c = seq opsT := rfl

theorem opsT_eq : (opsT : List (HloOp τ sig (Elt F))) = ops := by
  show opsTA ++ opsTB1 ++ opsTB2 ++ opsTB3 ++ opsTB4 ++ opsTC1 ++ opsTC2 ++ opsTC3 ++ opsTC4 = opsA ++ opsB1 ++ opsB2 ++ opsB3 ++ opsB4 ++ opsC1 ++ opsC2 ++ opsC3 ++ opsC4
  rw [opsTA_eq, opsTB1_eq, opsTB2_eq, opsTB3_eq, opsTB4_eq, opsTC1_eq, opsTC2_eq, opsTC3_eq, opsTC4_eq]

theorem main_eq (c : Dev nD) : main (F := F) c = seq ops := (main_eqT c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide

theorem mem_ops {op : HloOp τ sig (Elt F)} (h : op ∈ (ops : List (HloOp τ sig (Elt F)))) :
    op ∈ (opsA : List (HloOp τ sig (Elt F)))
      ∨ op ∈ (opsB1 : List (HloOp τ sig (Elt F)))
      ∨ op ∈ (opsB2 : List (HloOp τ sig (Elt F)))
      ∨ op ∈ (opsB3 : List (HloOp τ sig (Elt F)))
      ∨ op ∈ (opsB4 : List (HloOp τ sig (Elt F)))
      ∨ op ∈ (opsC1 : List (HloOp τ sig (Elt F)))
      ∨ op ∈ (opsC2 : List (HloOp τ sig (Elt F)))
      ∨ op ∈ (opsC3 : List (HloOp τ sig (Elt F)))
      ∨ op ∈ (opsC4 : List (HloOp τ sig (Elt F))) := by
  simpa only [ops, List.mem_append, or_assoc] using h

theorem ops_sub : (ops : List (HloOp τ sig (Elt F))).Forall fun op => op.bufs ⊆ tcRefs τ sig :=
  List.forall_iff_forall_mem.mpr fun op h => by
    rcases mem_ops h with h | h | h | h | h | h | h | h | h
    · exact List.forall_iff_forall_mem.mp opsA_sub op h
    · exact List.forall_iff_forall_mem.mp opsB1_sub op h
    · exact List.forall_iff_forall_mem.mp opsB2_sub op h
    · exact List.forall_iff_forall_mem.mp opsB3_sub op h
    · exact List.forall_iff_forall_mem.mp opsB4_sub op h
    · exact List.forall_iff_forall_mem.mp opsC1_sub op h
    · exact List.forall_iff_forall_mem.mp opsC2_sub op h
    · exact List.forall_iff_forall_mem.mp opsC3_sub op h
    · exact List.forall_iff_forall_mem.mp opsC4_sub op h

theorem ops_fresh : ∀ op ∈ (ops : List (HloOp τ sig (Elt F))), op.fresh = ∅ := fun op h => by
  rcases mem_ops h with h | h | h | h | h | h | h | h | h
  · exact opsA_fresh op h
  · exact opsB1_fresh op h
  · exact opsB2_fresh op h
  · exact opsB3_fresh op h
  · exact opsB4_fresh op h
  · exact opsC1_fresh op h
  · exact opsC2_fresh op h
  · exact opsC3_fresh op h
  · exact opsC4_fresh op h

theorem arg0_eq (V : Valuation τ sig (Elt F)) : after ops V (main_arg0 : DevRef τ sig) = V (main_arg0 : DevRef τ sig) := by
  show after (opsA ++ opsB1 ++ opsB2 ++ opsB3 ++ opsB4 ++ opsC1 ++ opsC2 ++ opsC3 ++ opsC4) V _ = _
  rw [after_append', after_append', after_append', after_append', after_append', after_append', after_append', after_append',
    C4_keep_arg0, C3_keep_arg0, C2_keep_arg0, C1_keep_arg0, B4_keep_arg0, B3_keep_arg0, B2_keep_arg0, B1_keep_arg0, A_keep_arg0]

theorem arg1_eq (V : Valuation τ sig (Elt F)) : after ops V (main_arg1 : DevRef τ sig) = V (main_arg1 : DevRef τ sig) := by
  show after (opsA ++ opsB1 ++ opsB2 ++ opsB3 ++ opsB4 ++ opsC1 ++ opsC2 ++ opsC3 ++ opsC4) V _ = _
  rw [after_append', after_append', after_append', after_append', after_append', after_append', after_append', after_append',
    C4_keep_arg1, C3_keep_arg1, C2_keep_arg1, C1_keep_arg1, B4_keep_arg1, B3_keep_arg1, B2_keep_arg1, B1_keep_arg1, A_keep_arg1]

theorem arg2_eq (V : Valuation τ sig (Elt F)) : after ops V (main_arg2 : DevRef τ sig) = V (main_arg2 : DevRef τ sig) := by
  show after (opsA ++ opsB1 ++ opsB2 ++ opsB3 ++ opsB4 ++ opsC1 ++ opsC2 ++ opsC3 ++ opsC4) V _ = _
  rw [after_append', after_append', after_append', after_append', after_append', after_append', after_append', after_append',
    C4_keep_arg2, C3_keep_arg2, C2_keep_arg2, C1_keep_arg2, B4_keep_arg2, B3_keep_arg2, B2_keep_arg2, B1_keep_arg2, A_keep_arg2]

/-- The linear layer's value in the operations' own spelling is `RefValue.proj`. -/
theorem proj_eq (x : Vec Ideal S50000x128 .f32) (W : Vec Ideal S528x128 .f32) (b : Vec Ideal S528 .f32) :
    addf (F := Ideal) (φ := .f32)
        (Host.dotGeneral (F := Ideal) (φ₁ := .f32) (φ₂ := .f32) dot_S50000x128_S128x528_S50000x528_1_0_0_1_n_n none x
          (transpose S128x528 [1, 0] W transposes_S528x128_S128x528_1_0))
        (broadcastInDim S50000x528 ![0, 1] bcast_S1x528_S50000x528_0_1 (broadcastInDim S1x528 ![1] bcast_S528_S1x528_1 b))
      = RefValue.proj x W b := rfl

/-- The result buffer after the line: each stretch's value at the buffers the next ones read, chained. -/
theorem out_eq (V : Valuation τ sig (Elt Ideal)) :
    after (ops (F := Ideal)) V (main_v53 : DevRef τ sig)
      = Host.scatter scatter_S50000x32x32_S528x2_S50000x528_0_12_12_1 (fun _ u => u)
          (Host.scatter scatter_S50000x32x32_S528x2_S50000x528_0_12_12_1 (fun _ u => u) zeros Stages.idxUp
            (RefValue.proj (V (main_arg0 : DevRef τ sig)) (V (main_arg1 : DevRef τ sig)) (V (main_arg2 : DevRef τ sig))))
          Stages.idxLo (RefValue.proj (V (main_arg0 : DevRef τ sig)) (V (main_arg1 : DevRef τ sig)) (V (main_arg2 : DevRef τ sig))) := by
  let V1 := after (opsA (F := Ideal)) V
  let V2 := after (opsB1 (F := Ideal)) V1
  let V3 := after (opsB2 (F := Ideal)) V2
  let V4 := after (opsB3 (F := Ideal)) V3
  let V5 := after (opsB4 (F := Ideal)) V4
  let V6 := after (opsC1 (F := Ideal)) V5
  let V7 := after (opsC2 (F := Ideal)) V6
  let V8 := after (opsC3 (F := Ideal)) V7
  have h8 : V2 (main_v8 : DevRef τ sig) = Stages.mask8 := B1_v8 V1
  have h20 : V3 (main_v20 : DevRef τ sig) = Stages.flat20 := B2_v20 V2 h8
  have h22 : V4 (main_v22 : DevRef τ sig) = Stages.rows22 := B3_v22 V3 h20
  have h20' : V4 (main_v20 : DevRef τ sig) = Stages.flat20 := (B3_keep_v20 V3).trans h20
  have h24 : V5 (main_v24 : DevRef τ sig) = Stages.cols24 := B4_v24 V4 h20'
  have h22' : V5 (main_v22 : DevRef τ sig) = Stages.rows22 := (B4_keep_v22 V4).trans h22
  have h4 : V5 (main_v4 : DevRef τ sig) = RefValue.proj (V (main_arg0 : DevRef τ sig)) (V (main_arg1 : DevRef τ sig)) (V (main_arg2 : DevRef τ sig)) :=
    (B4_keep_v4 V4).trans ((B3_keep_v4 V3).trans ((B2_keep_v4 V2).trans ((B1_keep_v4 V1).trans ((A_v4 V).trans (proj_eq _ _ _)))))
  have h25 : V6 (main_v25 : DevRef τ sig) = zeros := C1_v25 V5
  have h36 : V6 (main_v36 : DevRef τ sig) = (broadcastInDim S528x1 ![0] bcast_S528_S528x1_0 (Stages.wrap32 Stages.rows22)) := C1_v36 V5 h22'
  have h37 : V6 (main_v37 : DevRef τ sig) = (broadcastInDim S528x1 ![0] bcast_S528_S528x1_0 (Stages.wrap32 Stages.cols24)) := C1_v37 V5 h24
  have h4_6 := (C1_keep_v4 V5).trans h4
  have h22_6 := (C1_keep_v22 V5).trans h22'
  have h24_6 := (C1_keep_v24 V5).trans h24
  have h39 := C2_v39 V6 _ _ _ _ h25 h36 h37 h4_6
  have h4_7 := (C2_keep_v4 V6).trans h4_6
  have h22_7 := (C2_keep_v22 V6).trans h22_6
  have h24_7 := (C2_keep_v24 V6).trans h24_6
  have h50 : V8 (main_v50 : DevRef τ sig) = (broadcastInDim S528x1 ![0] bcast_S528_S528x1_0 (Stages.wrap32 Stages.cols24)) := C3_v50 V7 h24_7
  have h51 : V8 (main_v51 : DevRef τ sig) = (broadcastInDim S528x1 ![0] bcast_S528_S528x1_0 (Stages.wrap32 Stages.rows22)) := C3_v51 V7 h22_7
  have h39_8 := (C3_keep_v39 V7).trans h39
  have h4_8 := (C3_keep_v4 V7).trans h4_7
  have hfin := C4_v53 V8 _ _ _ _ h39_8 h50 h51 h4_8
  show after (opsA ++ opsB1 ++ opsB2 ++ opsB3 ++ opsB4 ++ opsC1 ++ opsC2 ++ opsC3 ++ opsC4) V _ = _
  rw [after_append', after_append', after_append', after_append', after_append', after_append', after_append', after_append']
  simp only [Stages.idxUp, Stages.idxLo, Stages.pairs]
  exact hfin

/-- On every device, from any memory with zero counters: every weakly fair execution of @main terminates with the
    result at that value of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v53)
        = Host.scatter scatter_S50000x32x32_S528x2_S50000x528_0_12_12_1 (fun _ u => u)
            (Host.scatter scatter_S50000x32x32_S528x2_S50000x528_0_12_12_1 (fun _ u => u) zeros Stages.idxUp (RefValue.proj (m ((c.tc : Thread nD τ).loc main_arg0)) (m ((c.tc : Thread nD τ).loc main_arg1)) (m ((c.tc : Thread nD τ).loc main_arg2))))
            Stages.idxLo (RefValue.proj (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v53).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ (fun _ => ops_fresh))

/-- The reference runs and leaves its argument arrays unchanged. -/
theorem frame : Cert.frame_ReferenceIdeal :=
  fun m ρ _ => (θ_run defs _ _).mono (fun _ h c => (h c).2) (run m ρ)

end Cert.ReferenceIdeal.Hand

end
-- ==== Proof.RefCount.lean ====
/-
  Counting the upper triangle of a 32 × 32 array in row-major order, in closed form.  Row a holds the 32 - a
  entries (a, a), …, (a, 31); the rows before it hold offs a = 32·a - a(a-1)/2 entries.
-/

namespace Cert.ReferenceIdeal.Stages

/-- The number of entries on or above the diagonal in the rows before row a. -/
def offs (a : Nat) : Nat := 32 * a - a * (a - 1) / 2

/-- The number of entries on or above the diagonal at flat positions up to and including f. -/
def cntN (f : Nat) : Nat := offs (f / 32) + (if f / 32 ≤ f % 32 then f % 32 - f / 32 + 1 else 0)

/-- The row of the q-th entry (counting from zero): the last row whose offset is at most q. -/
def rowOf (q : Nat) : Nat := ((List.range 32).filter fun a => decide (offs a ≤ q)).length - 1

/-- The flat position of the q-th entry: row a, column a + (q - offs a). -/
def posN (q : Nat) : Nat := 33 * rowOf q + (q - offs (rowOf q))

/-- The number of flat positions whose running count is q: none for q = 0 (position 0 is already counted);
    otherwise the gap from the (q-1)-th entry to the q-th, which is 1 inside a row and a + 1 from the end of row
    a - 1 to the diagonal entry of row a. -/
def binT (q : Nat) : Nat := if q = 0 then 0 else if offs (rowOf q) = q then rowOf q + 1 else 1

/-- The mask's value at flat position f, as a number: one when f / 32 ≤ f % 32, else zero. -/
def maskN (f : Nat) : BitVec 32 := if f / 32 ≤ f % 32 then 1#32 else 0#32

end Cert.ReferenceIdeal.Stages
-- ==== Proof.RefMask.lean ====
/-
  The flattened mask in closed form: position f = 32·a + b of the 32 × 32 array is on or above the diagonal
  exactly when a ≤ b.  The float part of the test is decided here once: the array of ones with zeros written
  strictly below the diagonal differs from zero exactly where the one was kept.
-/
import proofs.«104952_g68075231641772_cont_9to1c4b_264_9_alg».proof.Proof.RefStages
import proofs.«104952_g68075231641772_cont_9to1c4b_264_9_alg».proof.Proof.RefCount
import Idealize.ShloMosaic.PureOps.Ideal.Laws
import Idealize.ShloMosaic.Lib.IdealHost
import Idealize.ShloMosaic.Lib.ValueIdx
import Idealize.ShloMosaic.Lib.Pipeline.Value

noncomputable section

namespace Cert.ReferenceIdeal.Stages

open Idealize.ShloMosaic Idealize.ShloMosaic.ValueIdx Cert.ReferenceIdeal Cert.ReferenceIdeal.Facts₀

/-- The integer test "row - 1 ≥ column": strictly below the diagonal. -/
def below : IVec S32x32 1 :=
  cmpi .sge (addi (iotaInDim S32x32 32 0) (broadcastInDim S32x32 ![] bcast_S_S32x32 (constantI S_ 32 4294967295#32)))
    (iotaInDim S32x32 32 1)

theorem zeros7_apply (i : S32x32.Idx) : zeros7 i = (0 : EReal) := Ideal.ofBits_zero_f32
theorem ones5_apply (i : S32x32.Idx) : ones5 i = (1 : EReal) := Ideal.ofBits_one_f32

theorem triu6_apply (i : S32x32.Idx) : triu6 i = Scalar.select (below i) (zeros7 i) (ones5 i) := rfl

/-- The mask is the negation of the integer test. -/
theorem mask8_apply (i : S32x32.Idx) : mask8 i = if below i = 1#1 then 0#1 else 1#1 := by
  show Scalar.cmpf .une (triu6 i) (zeros7 i) = _
  rw [Ideal.scalar_cmpf_def, triu6_apply]
  rcases BitVec.eq_zero_or_eq_one (below i) with h | h
  · rw [h, select_zero, if_neg (by decide), ones5_apply, zeros7_apply]
    simp [Ideal.cmp]
  · rw [h, select_one, if_pos rfl, zeros7_apply]
    simp [Ideal.cmp]

theorem below_ix2 : ∀ a b : Fin 32, below (ix2 a b) = if b.val < a.val then 1#1 else 0#1 := by decide +kernel

theorem mask1_ix1 (f : Fin 1024) : mask1 (ix1 f) = maskN f.val := by
  have ha : f.val / 32 < 32 := by omega
  have hb : f.val % 32 < 32 := by omega
  show ((shapeCast S1024 mask8 shapeCasts_S32x32_S1024 (ix1 f)).setWidth 32 : BitVec 32) = _
  rw [shapeCast_apply mask8 shapeCasts_S32x32_S1024 (ix1 f) (ix2 ⟨f.val / 32, ha⟩ ⟨f.val % 32, hb⟩)
    (by rw [Shape.rowMajor_val_two, Shape.rowMajor_val_one]; show f.val / 32 * 32 + f.val % 32 = f.val; omega)]
  rw [mask8_apply, below_ix2]
  unfold maskN
  by_cases h : f.val / 32 ≤ f.val % 32
  · have h1 : ¬ ((⟨f.val % 32, hb⟩ : Fin 32).val < (⟨f.val / 32, ha⟩ : Fin 32).val) := by
      show ¬ (f.val % 32 < f.val / 32); omega
    rw [if_neg h1, if_neg (by decide : ¬ (0#1 = 1#1)), if_pos h]; rfl
  · have h1 : (⟨f.val % 32, hb⟩ : Fin 32).val < (⟨f.val / 32, ha⟩ : Fin 32).val := by
      show f.val % 32 < f.val / 32; omega
    rw [if_pos h1, if_pos rfl, if_neg h]; rfl

/-- The flattened mask as one function of the flat position. -/
theorem mask1_eq : mask1 = fun i => maskN (i 0).val := by
  funext i
  rw [eq_ix1 i]
  exact mask1_ix1 _

end Cert.ReferenceIdeal.Stages

end
-- ==== Proof.RefCsumS0.lean ====
/-
  The running count of the flattened mask — the window sum of the mask's closed form — evaluated at the flat
  positions 0 to 127, sixteen at a time: a finite computation on integers.
-/
import proofs.«104952_g68075231641772_cont_9to1c4b_264_9_alg».proof.Proof.RefStages
import proofs.«104952_g68075231641772_cont_9to1c4b_264_9_alg».proof.Proof.RefCount
import Idealize.ShloMosaic.Lib.ValueIdx

set_option Elab.async false

noncomputable section

namespace Cert.ReferenceIdeal.Stages

open Idealize.ShloMosaic Idealize.ShloMosaic.ValueIdx Cert.ReferenceIdeal Cert.ReferenceIdeal.Facts₀

theorem csum_0 : ∀ f : Fin 1024, (0 ≤ f.val ∧ f.val < 16) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_16 : ∀ f : Fin 1024, (16 ≤ f.val ∧ f.val < 32) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_32 : ∀ f : Fin 1024, (32 ≤ f.val ∧ f.val < 48) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_48 : ∀ f : Fin 1024, (48 ≤ f.val ∧ f.val < 64) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_64 : ∀ f : Fin 1024, (64 ≤ f.val ∧ f.val < 80) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_80 : ∀ f : Fin 1024, (80 ≤ f.val ∧ f.val < 96) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_96 : ∀ f : Fin 1024, (96 ≤ f.val ∧ f.val < 112) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_112 : ∀ f : Fin 1024, (112 ≤ f.val ∧ f.val < 128) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

/-- The entries 0 to 127 together. -/
theorem csum_range_0 : ∀ f : Fin 1024, (0 ≤ f.val ∧ f.val < 128) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by
  intro f h
  by_cases h0 : f.val < 16; · exact csum_0 f ⟨by omega, h0⟩
  by_cases h16 : f.val < 32; · exact csum_16 f ⟨by omega, h16⟩
  by_cases h32 : f.val < 48; · exact csum_32 f ⟨by omega, h32⟩
  by_cases h48 : f.val < 64; · exact csum_48 f ⟨by omega, h48⟩
  by_cases h64 : f.val < 80; · exact csum_64 f ⟨by omega, h64⟩
  by_cases h80 : f.val < 96; · exact csum_80 f ⟨by omega, h80⟩
  by_cases h96 : f.val < 112; · exact csum_96 f ⟨by omega, h96⟩
  exact csum_112 f ⟨by omega, h.2⟩

end Cert.ReferenceIdeal.Stages

end
-- ==== Proof.RefCsumS1.lean ====
/-
  The running count of the flattened mask — the window sum of the mask's closed form — evaluated at the flat
  positions 128 to 255, sixteen at a time: a finite computation on integers.
-/
import proofs.«104952_g68075231641772_cont_9to1c4b_264_9_alg».proof.Proof.RefStages
import proofs.«104952_g68075231641772_cont_9to1c4b_264_9_alg».proof.Proof.RefCount
import Idealize.ShloMosaic.Lib.ValueIdx

set_option Elab.async false

noncomputable section

namespace Cert.ReferenceIdeal.Stages

open Idealize.ShloMosaic Idealize.ShloMosaic.ValueIdx Cert.ReferenceIdeal Cert.ReferenceIdeal.Facts₀

theorem csum_128 : ∀ f : Fin 1024, (128 ≤ f.val ∧ f.val < 144) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_144 : ∀ f : Fin 1024, (144 ≤ f.val ∧ f.val < 160) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_160 : ∀ f : Fin 1024, (160 ≤ f.val ∧ f.val < 176) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_176 : ∀ f : Fin 1024, (176 ≤ f.val ∧ f.val < 192) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_192 : ∀ f : Fin 1024, (192 ≤ f.val ∧ f.val < 208) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_208 : ∀ f : Fin 1024, (208 ≤ f.val ∧ f.val < 224) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_224 : ∀ f : Fin 1024, (224 ≤ f.val ∧ f.val < 240) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_240 : ∀ f : Fin 1024, (240 ≤ f.val ∧ f.val < 256) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

/-- The entries 128 to 255 together. -/
theorem csum_range_128 : ∀ f : Fin 1024, (128 ≤ f.val ∧ f.val < 256) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by
  intro f h
  by_cases h128 : f.val < 144; · exact csum_128 f ⟨by omega, h128⟩
  by_cases h144 : f.val < 160; · exact csum_144 f ⟨by omega, h144⟩
  by_cases h160 : f.val < 176; · exact csum_160 f ⟨by omega, h160⟩
  by_cases h176 : f.val < 192; · exact csum_176 f ⟨by omega, h176⟩
  by_cases h192 : f.val < 208; · exact csum_192 f ⟨by omega, h192⟩
  by_cases h208 : f.val < 224; · exact csum_208 f ⟨by omega, h208⟩
  by_cases h224 : f.val < 240; · exact csum_224 f ⟨by omega, h224⟩
  exact csum_240 f ⟨by omega, h.2⟩

end Cert.ReferenceIdeal.Stages

end
-- ==== Proof.RefCsumS2.lean ====
/-
  The running count of the flattened mask — the window sum of the mask's closed form — evaluated at the flat
  positions 256 to 383, sixteen at a time: a finite computation on integers.
-/
import proofs.«104952_g68075231641772_cont_9to1c4b_264_9_alg».proof.Proof.RefStages
import proofs.«104952_g68075231641772_cont_9to1c4b_264_9_alg».proof.Proof.RefCount
import Idealize.ShloMosaic.Lib.ValueIdx

set_option Elab.async false

noncomputable section

namespace Cert.ReferenceIdeal.Stages

open Idealize.ShloMosaic Idealize.ShloMosaic.ValueIdx Cert.ReferenceIdeal Cert.ReferenceIdeal.Facts₀

theorem csum_256 : ∀ f : Fin 1024, (256 ≤ f.val ∧ f.val < 272) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_272 : ∀ f : Fin 1024, (272 ≤ f.val ∧ f.val < 288) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_288 : ∀ f : Fin 1024, (288 ≤ f.val ∧ f.val < 304) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_304 : ∀ f : Fin 1024, (304 ≤ f.val ∧ f.val < 320) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_320 : ∀ f : Fin 1024, (320 ≤ f.val ∧ f.val < 336) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_336 : ∀ f : Fin 1024, (336 ≤ f.val ∧ f.val < 352) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_352 : ∀ f : Fin 1024, (352 ≤ f.val ∧ f.val < 368) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_368 : ∀ f : Fin 1024, (368 ≤ f.val ∧ f.val < 384) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

/-- The entries 256 to 383 together. -/
theorem csum_range_256 : ∀ f : Fin 1024, (256 ≤ f.val ∧ f.val < 384) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by
  intro f h
  by_cases h256 : f.val < 272; · exact csum_256 f ⟨by omega, h256⟩
  by_cases h272 : f.val < 288; · exact csum_272 f ⟨by omega, h272⟩
  by_cases h288 : f.val < 304; · exact csum_288 f ⟨by omega, h288⟩
  by_cases h304 : f.val < 320; · exact csum_304 f ⟨by omega, h304⟩
  by_cases h320 : f.val < 336; · exact csum_320 f ⟨by omega, h320⟩
  by_cases h336 : f.val < 352; · exact csum_336 f ⟨by omega, h336⟩
  by_cases h352 : f.val < 368; · exact csum_352 f ⟨by omega, h352⟩
  exact csum_368 f ⟨by omega, h.2⟩

end Cert.ReferenceIdeal.Stages

end
-- ==== Proof.RefCsumS3.lean ====
/-
  The running count of the flattened mask — the window sum of the mask's closed form — evaluated at the flat
  positions 384 to 511, sixteen at a time: a finite computation on integers.
-/
import proofs.«104952_g68075231641772_cont_9to1c4b_264_9_alg».proof.Proof.RefStages
import proofs.«104952_g68075231641772_cont_9to1c4b_264_9_alg».proof.Proof.RefCount
import Idealize.ShloMosaic.Lib.ValueIdx

set_option Elab.async false

noncomputable section

namespace Cert.ReferenceIdeal.Stages

open Idealize.ShloMosaic Idealize.ShloMosaic.ValueIdx Cert.ReferenceIdeal Cert.ReferenceIdeal.Facts₀

theorem csum_384 : ∀ f : Fin 1024, (384 ≤ f.val ∧ f.val < 400) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_400 : ∀ f : Fin 1024, (400 ≤ f.val ∧ f.val < 416) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_416 : ∀ f : Fin 1024, (416 ≤ f.val ∧ f.val < 432) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_432 : ∀ f : Fin 1024, (432 ≤ f.val ∧ f.val < 448) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_448 : ∀ f : Fin 1024, (448 ≤ f.val ∧ f.val < 464) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_464 : ∀ f : Fin 1024, (464 ≤ f.val ∧ f.val < 480) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_480 : ∀ f : Fin 1024, (480 ≤ f.val ∧ f.val < 496) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_496 : ∀ f : Fin 1024, (496 ≤ f.val ∧ f.val < 512) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

/-- The entries 384 to 511 together. -/
theorem csum_range_384 : ∀ f : Fin 1024, (384 ≤ f.val ∧ f.val < 512) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by
  intro f h
  by_cases h384 : f.val < 400; · exact csum_384 f ⟨by omega, h384⟩
  by_cases h400 : f.val < 416; · exact csum_400 f ⟨by omega, h400⟩
  by_cases h416 : f.val < 432; · exact csum_416 f ⟨by omega, h416⟩
  by_cases h432 : f.val < 448; · exact csum_432 f ⟨by omega, h432⟩
  by_cases h448 : f.val < 464; · exact csum_448 f ⟨by omega, h448⟩
  by_cases h464 : f.val < 480; · exact csum_464 f ⟨by omega, h464⟩
  by_cases h480 : f.val < 496; · exact csum_480 f ⟨by omega, h480⟩
  exact csum_496 f ⟨by omega, h.2⟩

end Cert.ReferenceIdeal.Stages

end
-- ==== Proof.RefCsumS4.lean ====
/-
  The running count of the flattened mask — the window sum of the mask's closed form — evaluated at the flat
  positions 512 to 639, sixteen at a time: a finite computation on integers.
-/
import proofs.«104952_g68075231641772_cont_9to1c4b_264_9_alg».proof.Proof.RefStages
import proofs.«104952_g68075231641772_cont_9to1c4b_264_9_alg».proof.Proof.RefCount
import Idealize.ShloMosaic.Lib.ValueIdx

set_option Elab.async false

noncomputable section

namespace Cert.ReferenceIdeal.Stages

open Idealize.ShloMosaic Idealize.ShloMosaic.ValueIdx Cert.ReferenceIdeal Cert.ReferenceIdeal.Facts₀

theorem csum_512 : ∀ f : Fin 1024, (512 ≤ f.val ∧ f.val < 528) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_528 : ∀ f : Fin 1024, (528 ≤ f.val ∧ f.val < 544) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_544 : ∀ f : Fin 1024, (544 ≤ f.val ∧ f.val < 560) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_560 : ∀ f : Fin 1024, (560 ≤ f.val ∧ f.val < 576) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_576 : ∀ f : Fin 1024, (576 ≤ f.val ∧ f.val < 592) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_592 : ∀ f : Fin 1024, (592 ≤ f.val ∧ f.val < 608) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_608 : ∀ f : Fin 1024, (608 ≤ f.val ∧ f.val < 624) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_624 : ∀ f : Fin 1024, (624 ≤ f.val ∧ f.val < 640) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

/-- The entries 512 to 639 together. -/
theorem csum_range_512 : ∀ f : Fin 1024, (512 ≤ f.val ∧ f.val < 640) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by
  intro f h
  by_cases h512 : f.val < 528; · exact csum_512 f ⟨by omega, h512⟩
  by_cases h528 : f.val < 544; · exact csum_528 f ⟨by omega, h528⟩
  by_cases h544 : f.val < 560; · exact csum_544 f ⟨by omega, h544⟩
  by_cases h560 : f.val < 576; · exact csum_560 f ⟨by omega, h560⟩
  by_cases h576 : f.val < 592; · exact csum_576 f ⟨by omega, h576⟩
  by_cases h592 : f.val < 608; · exact csum_592 f ⟨by omega, h592⟩
  by_cases h608 : f.val < 624; · exact csum_608 f ⟨by omega, h608⟩
  exact csum_624 f ⟨by omega, h.2⟩

end Cert.ReferenceIdeal.Stages

end
-- ==== Proof.RefCsumS5.lean ====
/-
  The running count of the flattened mask — the window sum of the mask's closed form — evaluated at the flat
  positions 640 to 767, sixteen at a time: a finite computation on integers.
-/
import proofs.«104952_g68075231641772_cont_9to1c4b_264_9_alg».proof.Proof.RefStages
import proofs.«104952_g68075231641772_cont_9to1c4b_264_9_alg».proof.Proof.RefCount
import Idealize.ShloMosaic.Lib.ValueIdx

set_option Elab.async false

noncomputable section

namespace Cert.ReferenceIdeal.Stages

open Idealize.ShloMosaic Idealize.ShloMosaic.ValueIdx Cert.ReferenceIdeal Cert.ReferenceIdeal.Facts₀

theorem csum_640 : ∀ f : Fin 1024, (640 ≤ f.val ∧ f.val < 656) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_656 : ∀ f : Fin 1024, (656 ≤ f.val ∧ f.val < 672) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_672 : ∀ f : Fin 1024, (672 ≤ f.val ∧ f.val < 688) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_688 : ∀ f : Fin 1024, (688 ≤ f.val ∧ f.val < 704) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_704 : ∀ f : Fin 1024, (704 ≤ f.val ∧ f.val < 720) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_720 : ∀ f : Fin 1024, (720 ≤ f.val ∧ f.val < 736) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_736 : ∀ f : Fin 1024, (736 ≤ f.val ∧ f.val < 752) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_752 : ∀ f : Fin 1024, (752 ≤ f.val ∧ f.val < 768) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

/-- The entries 640 to 767 together. -/
theorem csum_range_640 : ∀ f : Fin 1024, (640 ≤ f.val ∧ f.val < 768) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by
  intro f h
  by_cases h640 : f.val < 656; · exact csum_640 f ⟨by omega, h640⟩
  by_cases h656 : f.val < 672; · exact csum_656 f ⟨by omega, h656⟩
  by_cases h672 : f.val < 688; · exact csum_672 f ⟨by omega, h672⟩
  by_cases h688 : f.val < 704; · exact csum_688 f ⟨by omega, h688⟩
  by_cases h704 : f.val < 720; · exact csum_704 f ⟨by omega, h704⟩
  by_cases h720 : f.val < 736; · exact csum_720 f ⟨by omega, h720⟩
  by_cases h736 : f.val < 752; · exact csum_736 f ⟨by omega, h736⟩
  exact csum_752 f ⟨by omega, h.2⟩

end Cert.ReferenceIdeal.Stages

end
-- ==== Proof.RefCsumS6.lean ====
/-
  The running count of the flattened mask — the window sum of the mask's closed form — evaluated at the flat
  positions 768 to 895, sixteen at a time: a finite computation on integers.
-/
import proofs.«104952_g68075231641772_cont_9to1c4b_264_9_alg».proof.Proof.RefStages
import proofs.«104952_g68075231641772_cont_9to1c4b_264_9_alg».proof.Proof.RefCount
import Idealize.ShloMosaic.Lib.ValueIdx

set_option Elab.async false

noncomputable section

namespace Cert.ReferenceIdeal.Stages

open Idealize.ShloMosaic Idealize.ShloMosaic.ValueIdx Cert.ReferenceIdeal Cert.ReferenceIdeal.Facts₀

theorem csum_768 : ∀ f : Fin 1024, (768 ≤ f.val ∧ f.val < 784) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_784 : ∀ f : Fin 1024, (784 ≤ f.val ∧ f.val < 800) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_800 : ∀ f : Fin 1024, (800 ≤ f.val ∧ f.val < 816) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_816 : ∀ f : Fin 1024, (816 ≤ f.val ∧ f.val < 832) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_832 : ∀ f : Fin 1024, (832 ≤ f.val ∧ f.val < 848) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_848 : ∀ f : Fin 1024, (848 ≤ f.val ∧ f.val < 864) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_864 : ∀ f : Fin 1024, (864 ≤ f.val ∧ f.val < 880) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_880 : ∀ f : Fin 1024, (880 ≤ f.val ∧ f.val < 896) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

/-- The entries 768 to 895 together. -/
theorem csum_range_768 : ∀ f : Fin 1024, (768 ≤ f.val ∧ f.val < 896) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by
  intro f h
  by_cases h768 : f.val < 784; · exact csum_768 f ⟨by omega, h768⟩
  by_cases h784 : f.val < 800; · exact csum_784 f ⟨by omega, h784⟩
  by_cases h800 : f.val < 816; · exact csum_800 f ⟨by omega, h800⟩
  by_cases h816 : f.val < 832; · exact csum_816 f ⟨by omega, h816⟩
  by_cases h832 : f.val < 848; · exact csum_832 f ⟨by omega, h832⟩
  by_cases h848 : f.val < 864; · exact csum_848 f ⟨by omega, h848⟩
  by_cases h864 : f.val < 880; · exact csum_864 f ⟨by omega, h864⟩
  exact csum_880 f ⟨by omega, h.2⟩

end Cert.ReferenceIdeal.Stages

end
-- ==== Proof.RefCsumS7.lean ====
/-
  The running count of the flattened mask — the window sum of the mask's closed form — evaluated at the flat
  positions 896 to 1023, sixteen at a time: a finite computation on integers.
-/
import proofs.«104952_g68075231641772_cont_9to1c4b_264_9_alg».proof.Proof.RefStages
import proofs.«104952_g68075231641772_cont_9to1c4b_264_9_alg».proof.Proof.RefCount
import Idealize.ShloMosaic.Lib.ValueIdx

set_option Elab.async false

noncomputable section

namespace Cert.ReferenceIdeal.Stages

open Idealize.ShloMosaic Idealize.ShloMosaic.ValueIdx Cert.ReferenceIdeal Cert.ReferenceIdeal.Facts₀

theorem csum_896 : ∀ f : Fin 1024, (896 ≤ f.val ∧ f.val < 912) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_912 : ∀ f : Fin 1024, (912 ≤ f.val ∧ f.val < 928) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_928 : ∀ f : Fin 1024, (928 ≤ f.val ∧ f.val < 944) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_944 : ∀ f : Fin 1024, (944 ≤ f.val ∧ f.val < 960) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_960 : ∀ f : Fin 1024, (960 ≤ f.val ∧ f.val < 976) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_976 : ∀ f : Fin 1024, (976 ≤ f.val ∧ f.val < 992) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_992 : ∀ f : Fin 1024, (992 ≤ f.val ∧ f.val < 1008) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

theorem csum_1008 : ∀ f : Fin 1024, (1008 ≤ f.val ∧ f.val < 1024) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by decide +kernel

/-- The entries 896 to 1023 together. -/
theorem csum_range_896 : ∀ f : Fin 1024, (896 ≤ f.val ∧ f.val < 1024) →
    Host.reduceWindow IntOp.addi ![1024] ![1] ![1023] ![0] (fun i : S1024.Idx => maskN (i 0).val) zero0
      reduceWindows_S1024_S1024_w1024s1p1023_0 h_S_ (ix1 f) = BitVec.ofNat 32 (cntN f.val) := by
  intro f h
  by_cases h896 : f.val < 912; · exact csum_896 f ⟨by omega, h896⟩
  by_cases h912 : f.val < 928; · exact csum_912 f ⟨by omega, h912⟩
  by_cases h928 : f.val < 944; · exact csum_928 f ⟨by omega, h928⟩
  by_cases h944 : f.val < 960; · exact csum_944 f ⟨by omega, h944⟩
  by_cases h960 : f.val < 976; · exact csum_960 f ⟨by omega, h960⟩
  by_cases h976 : f.val < 992; · exact csum_976 f ⟨by omega, h976⟩
  by_cases h992 : f.val < 1008; · exact csum_992 f ⟨by omega, h992⟩
  exact csum_1008 f ⟨by omega, h.2⟩

end Cert.ReferenceIdeal.Stages

end
-- ==== Proof.RefCsum.lean ====
/-
  The running count of the flattened mask, evaluated: entry f is the number of positions on or above the diagonal
  up to and including f.  The window sum is a finite computation on integers; it is evaluated entry by entry, in
  eight ranges of 128 entries (the eight modules imported here), and put together.
-/
import proofs.«104952_g68075231641772_cont_9to1c4b_264_9_alg».proof.Proof.RefMask
import proofs.«104952_g68075231641772_cont_9to1c4b_264_9_alg».proof.Proof.RefCount
import proofs.«104952_g68075231641772_cont_9to1c4b_264_9_alg».proof.Proof.RefCsumS0
import proofs.«104952_g68075231641772_cont_9to1c4b_264_9_alg».proof.Proof.RefCsumS1
import proofs.«104952_g68075231641772_cont_9to1c4b_264_9_alg».proof.Proof.RefCsumS2
import proofs.«104952_g68075231641772_cont_9to1c4b_264_9_alg».proof.Proof.RefCsumS3
import proofs.«104952_g68075231641772_cont_9to1c4b_264_9_alg».proof.Proof.RefCsumS4
import proofs.«104952_g68075231641772_cont_9to1c4b_264_9_alg».proof.Proof.RefCsumS5
import proofs.«104952_g68075231641772_cont_9to1c4b_264_9_alg».proof.Proof.RefCsumS6
import proofs.«104952_g68075231641772_cont_9to1c4b_264_9_alg».proof.Proof.RefCsumS7

noncomputable section

namespace Cert.ReferenceIdeal.Stages

open Idealize.ShloMosaic Idealize.ShloMosaic.ValueIdx Cert.ReferenceIdeal Cert.ReferenceIdeal.Facts₀

/-- The running count at every flat position. -/
theorem csum9_ix1 (f : Fin 1024) : csum9 (ix1 f) = BitVec.ofNat 32 (cntN f.val) := by
  unfold csum9
  rw [mask1_eq]
  have h := f.isLt
  by_cases h0 : f.val < 128; · exact csum_range_0 f ⟨by omega, h0⟩
  by_cases h1 : f.val < 256; · exact csum_range_128 f ⟨by omega, h1⟩
  by_cases h2 : f.val < 384; · exact csum_range_256 f ⟨by omega, h2⟩
  by_cases h3 : f.val < 512; · exact csum_range_384 f ⟨by omega, h3⟩
  by_cases h4 : f.val < 640; · exact csum_range_512 f ⟨by omega, h4⟩
  by_cases h5 : f.val < 768; · exact csum_range_640 f ⟨by omega, h5⟩
  by_cases h6 : f.val < 896; · exact csum_range_768 f ⟨by omega, h6⟩
  exact csum_range_896 f ⟨by omega, by omega⟩

theorem csum9_eq : csum9 = fun i => BitVec.ofNat 32 (cntN (i 0).val) := by
  funext i
  rw [eq_ix1 i]
  exact csum9_ix1 _

end Cert.ReferenceIdeal.Stages

end
-- ==== Proof.RefCountF.lean ====
/-
  The number of flat positions whose running count is q, as a table: none for q = 0; a + 1 where q is the number
  of entries before row a (the gap from the last entry of row a - 1 to the diagonal entry of row a); 1 elsewhere.
-/

namespace Cert.ReferenceIdeal.Stages

/-- The gap table: the row offsets 32·a - a(a-1)/2, a = 1, …, 31, are listed with their gaps a + 1. -/
def binF (q : Nat) : Nat := match q with
  | 0 => 0
  | 32 => 2
  | 63 => 3
  | 93 => 4
  | 122 => 5
  | 150 => 6
  | 177 => 7
  | 203 => 8
  | 228 => 9
  | 252 => 10
  | 275 => 11
  | 297 => 12
  | 318 => 13
  | 338 => 14
  | 357 => 15
  | 375 => 16
  | 392 => 17
  | 408 => 18
  | 423 => 19
  | 437 => 20
  | 450 => 21
  | 462 => 22
  | 473 => 23
  | 483 => 24
  | 492 => 25
  | 500 => 26
  | 507 => 27
  | 513 => 28
  | 518 => 29
  | 522 => 30
  | 525 => 31
  | 527 => 32
  | _ => 1

end Cert.ReferenceIdeal.Stages
-- ==== Proof.RefBinsS0.lean ====
/-
  The accumulating scatter of ones at the running counts, evaluated at the bins 0 to 65, eleven at a time:
  a finite computation on integers.
-/
import proofs.«104952_g68075231641772_cont_9to1c4b_264_9_alg».proof.Proof.RefStages
import proofs.«104952_g68075231641772_cont_9to1c4b_264_9_alg».proof.Proof.RefCount
import Idealize.ShloMosaic.Lib.ValueIdx

set_option Elab.async false

noncomputable section

namespace Cert.ReferenceIdeal.Stages

open Idealize.ShloMosaic Idealize.ShloMosaic.ValueIdx Cert.ReferenceIdeal Cert.ReferenceIdeal.Facts₀

theorem bins_0 : ∀ q : Fin 528, (0 ≤ q.val ∧ q.val < 11) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_11 : ∀ q : Fin 528, (11 ≤ q.val ∧ q.val < 22) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_22 : ∀ q : Fin 528, (22 ≤ q.val ∧ q.val < 33) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_33 : ∀ q : Fin 528, (33 ≤ q.val ∧ q.val < 44) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_44 : ∀ q : Fin 528, (44 ≤ q.val ∧ q.val < 55) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_55 : ∀ q : Fin 528, (55 ≤ q.val ∧ q.val < 66) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

/-- The entries 0 to 65 together. -/
theorem bins_range_0 : ∀ q : Fin 528, (0 ≤ q.val ∧ q.val < 66) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by
  intro q h
  by_cases h0 : q.val < 11; · exact bins_0 q ⟨by omega, h0⟩
  by_cases h11 : q.val < 22; · exact bins_11 q ⟨by omega, h11⟩
  by_cases h22 : q.val < 33; · exact bins_22 q ⟨by omega, h22⟩
  by_cases h33 : q.val < 44; · exact bins_33 q ⟨by omega, h33⟩
  by_cases h44 : q.val < 55; · exact bins_44 q ⟨by omega, h44⟩
  exact bins_55 q ⟨by omega, h.2⟩

end Cert.ReferenceIdeal.Stages

end
-- ==== Proof.RefBinsS1.lean ====
/-
  The accumulating scatter of ones at the running counts, evaluated at the bins 66 to 131, eleven at a time:
  a finite computation on integers.
-/
import proofs.«104952_g68075231641772_cont_9to1c4b_264_9_alg».proof.Proof.RefStages
import proofs.«104952_g68075231641772_cont_9to1c4b_264_9_alg».proof.Proof.RefCount
import Idealize.ShloMosaic.Lib.ValueIdx

set_option Elab.async false

noncomputable section

namespace Cert.ReferenceIdeal.Stages

open Idealize.ShloMosaic Idealize.ShloMosaic.ValueIdx Cert.ReferenceIdeal Cert.ReferenceIdeal.Facts₀

theorem bins_66 : ∀ q : Fin 528, (66 ≤ q.val ∧ q.val < 77) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_77 : ∀ q : Fin 528, (77 ≤ q.val ∧ q.val < 88) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_88 : ∀ q : Fin 528, (88 ≤ q.val ∧ q.val < 99) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_99 : ∀ q : Fin 528, (99 ≤ q.val ∧ q.val < 110) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_110 : ∀ q : Fin 528, (110 ≤ q.val ∧ q.val < 121) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_121 : ∀ q : Fin 528, (121 ≤ q.val ∧ q.val < 132) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

/-- The entries 66 to 131 together. -/
theorem bins_range_66 : ∀ q : Fin 528, (66 ≤ q.val ∧ q.val < 132) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by
  intro q h
  by_cases h66 : q.val < 77; · exact bins_66 q ⟨by omega, h66⟩
  by_cases h77 : q.val < 88; · exact bins_77 q ⟨by omega, h77⟩
  by_cases h88 : q.val < 99; · exact bins_88 q ⟨by omega, h88⟩
  by_cases h99 : q.val < 110; · exact bins_99 q ⟨by omega, h99⟩
  by_cases h110 : q.val < 121; · exact bins_110 q ⟨by omega, h110⟩
  exact bins_121 q ⟨by omega, h.2⟩

end Cert.ReferenceIdeal.Stages

end
-- ==== Proof.RefBinsS2.lean ====
/-
  The accumulating scatter of ones at the running counts, evaluated at the bins 132 to 197, eleven at a time:
  a finite computation on integers.
-/
import proofs.«104952_g68075231641772_cont_9to1c4b_264_9_alg».proof.Proof.RefStages
import proofs.«104952_g68075231641772_cont_9to1c4b_264_9_alg».proof.Proof.RefCount
import Idealize.ShloMosaic.Lib.ValueIdx

set_option Elab.async false

noncomputable section

namespace Cert.ReferenceIdeal.Stages

open Idealize.ShloMosaic Idealize.ShloMosaic.ValueIdx Cert.ReferenceIdeal Cert.ReferenceIdeal.Facts₀

theorem bins_132 : ∀ q : Fin 528, (132 ≤ q.val ∧ q.val < 143) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_143 : ∀ q : Fin 528, (143 ≤ q.val ∧ q.val < 154) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_154 : ∀ q : Fin 528, (154 ≤ q.val ∧ q.val < 165) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_165 : ∀ q : Fin 528, (165 ≤ q.val ∧ q.val < 176) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_176 : ∀ q : Fin 528, (176 ≤ q.val ∧ q.val < 187) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_187 : ∀ q : Fin 528, (187 ≤ q.val ∧ q.val < 198) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

/-- The entries 132 to 197 together. -/
theorem bins_range_132 : ∀ q : Fin 528, (132 ≤ q.val ∧ q.val < 198) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by
  intro q h
  by_cases h132 : q.val < 143; · exact bins_132 q ⟨by omega, h132⟩
  by_cases h143 : q.val < 154; · exact bins_143 q ⟨by omega, h143⟩
  by_cases h154 : q.val < 165; · exact bins_154 q ⟨by omega, h154⟩
  by_cases h165 : q.val < 176; · exact bins_165 q ⟨by omega, h165⟩
  by_cases h176 : q.val < 187; · exact bins_176 q ⟨by omega, h176⟩
  exact bins_187 q ⟨by omega, h.2⟩

end Cert.ReferenceIdeal.Stages

end
-- ==== Proof.RefBinsS3.lean ====
/-
  The accumulating scatter of ones at the running counts, evaluated at the bins 198 to 263, eleven at a time:
  a finite computation on integers.
-/
import proofs.«104952_g68075231641772_cont_9to1c4b_264_9_alg».proof.Proof.RefStages
import proofs.«104952_g68075231641772_cont_9to1c4b_264_9_alg».proof.Proof.RefCount
import Idealize.ShloMosaic.Lib.ValueIdx

set_option Elab.async false

noncomputable section

namespace Cert.ReferenceIdeal.Stages

open Idealize.ShloMosaic Idealize.ShloMosaic.ValueIdx Cert.ReferenceIdeal Cert.ReferenceIdeal.Facts₀

theorem bins_198 : ∀ q : Fin 528, (198 ≤ q.val ∧ q.val < 209) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_209 : ∀ q : Fin 528, (209 ≤ q.val ∧ q.val < 220) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_220 : ∀ q : Fin 528, (220 ≤ q.val ∧ q.val < 231) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_231 : ∀ q : Fin 528, (231 ≤ q.val ∧ q.val < 242) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_242 : ∀ q : Fin 528, (242 ≤ q.val ∧ q.val < 253) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_253 : ∀ q : Fin 528, (253 ≤ q.val ∧ q.val < 264) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

/-- The entries 198 to 263 together. -/
theorem bins_range_198 : ∀ q : Fin 528, (198 ≤ q.val ∧ q.val < 264) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by
  intro q h
  by_cases h198 : q.val < 209; · exact bins_198 q ⟨by omega, h198⟩
  by_cases h209 : q.val < 220; · exact bins_209 q ⟨by omega, h209⟩
  by_cases h220 : q.val < 231; · exact bins_220 q ⟨by omega, h220⟩
  by_cases h231 : q.val < 242; · exact bins_231 q ⟨by omega, h231⟩
  by_cases h242 : q.val < 253; · exact bins_242 q ⟨by omega, h242⟩
  exact bins_253 q ⟨by omega, h.2⟩

end Cert.ReferenceIdeal.Stages

end
-- ==== Proof.RefBinsS4.lean ====
/-
  The accumulating scatter of ones at the running counts, evaluated at the bins 264 to 329, eleven at a time:
  a finite computation on integers.
-/
import proofs.«104952_g68075231641772_cont_9to1c4b_264_9_alg».proof.Proof.RefStages
import proofs.«104952_g68075231641772_cont_9to1c4b_264_9_alg».proof.Proof.RefCount
import Idealize.ShloMosaic.Lib.ValueIdx

set_option Elab.async false

noncomputable section

namespace Cert.ReferenceIdeal.Stages

open Idealize.ShloMosaic Idealize.ShloMosaic.ValueIdx Cert.ReferenceIdeal Cert.ReferenceIdeal.Facts₀

theorem bins_264 : ∀ q : Fin 528, (264 ≤ q.val ∧ q.val < 275) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_275 : ∀ q : Fin 528, (275 ≤ q.val ∧ q.val < 286) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_286 : ∀ q : Fin 528, (286 ≤ q.val ∧ q.val < 297) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_297 : ∀ q : Fin 528, (297 ≤ q.val ∧ q.val < 308) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_308 : ∀ q : Fin 528, (308 ≤ q.val ∧ q.val < 319) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_319 : ∀ q : Fin 528, (319 ≤ q.val ∧ q.val < 330) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

/-- The entries 264 to 329 together. -/
theorem bins_range_264 : ∀ q : Fin 528, (264 ≤ q.val ∧ q.val < 330) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by
  intro q h
  by_cases h264 : q.val < 275; · exact bins_264 q ⟨by omega, h264⟩
  by_cases h275 : q.val < 286; · exact bins_275 q ⟨by omega, h275⟩
  by_cases h286 : q.val < 297; · exact bins_286 q ⟨by omega, h286⟩
  by_cases h297 : q.val < 308; · exact bins_297 q ⟨by omega, h297⟩
  by_cases h308 : q.val < 319; · exact bins_308 q ⟨by omega, h308⟩
  exact bins_319 q ⟨by omega, h.2⟩

end Cert.ReferenceIdeal.Stages

end
-- ==== Proof.RefBinsS5.lean ====
/-
  The accumulating scatter of ones at the running counts, evaluated at the bins 330 to 395, eleven at a time:
  a finite computation on integers.
-/
import proofs.«104952_g68075231641772_cont_9to1c4b_264_9_alg».proof.Proof.RefStages
import proofs.«104952_g68075231641772_cont_9to1c4b_264_9_alg».proof.Proof.RefCount
import Idealize.ShloMosaic.Lib.ValueIdx

set_option Elab.async false

noncomputable section

namespace Cert.ReferenceIdeal.Stages

open Idealize.ShloMosaic Idealize.ShloMosaic.ValueIdx Cert.ReferenceIdeal Cert.ReferenceIdeal.Facts₀

theorem bins_330 : ∀ q : Fin 528, (330 ≤ q.val ∧ q.val < 341) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_341 : ∀ q : Fin 528, (341 ≤ q.val ∧ q.val < 352) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_352 : ∀ q : Fin 528, (352 ≤ q.val ∧ q.val < 363) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_363 : ∀ q : Fin 528, (363 ≤ q.val ∧ q.val < 374) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_374 : ∀ q : Fin 528, (374 ≤ q.val ∧ q.val < 385) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_385 : ∀ q : Fin 528, (385 ≤ q.val ∧ q.val < 396) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

/-- The entries 330 to 395 together. -/
theorem bins_range_330 : ∀ q : Fin 528, (330 ≤ q.val ∧ q.val < 396) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by
  intro q h
  by_cases h330 : q.val < 341; · exact bins_330 q ⟨by omega, h330⟩
  by_cases h341 : q.val < 352; · exact bins_341 q ⟨by omega, h341⟩
  by_cases h352 : q.val < 363; · exact bins_352 q ⟨by omega, h352⟩
  by_cases h363 : q.val < 374; · exact bins_363 q ⟨by omega, h363⟩
  by_cases h374 : q.val < 385; · exact bins_374 q ⟨by omega, h374⟩
  exact bins_385 q ⟨by omega, h.2⟩

end Cert.ReferenceIdeal.Stages

end
-- ==== Proof.RefBinsS6.lean ====
/-
  The accumulating scatter of ones at the running counts, evaluated at the bins 396 to 461, eleven at a time:
  a finite computation on integers.
-/
import proofs.«104952_g68075231641772_cont_9to1c4b_264_9_alg».proof.Proof.RefStages
import proofs.«104952_g68075231641772_cont_9to1c4b_264_9_alg».proof.Proof.RefCount
import Idealize.ShloMosaic.Lib.ValueIdx

set_option Elab.async false

noncomputable section

namespace Cert.ReferenceIdeal.Stages

open Idealize.ShloMosaic Idealize.ShloMosaic.ValueIdx Cert.ReferenceIdeal Cert.ReferenceIdeal.Facts₀

theorem bins_396 : ∀ q : Fin 528, (396 ≤ q.val ∧ q.val < 407) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_407 : ∀ q : Fin 528, (407 ≤ q.val ∧ q.val < 418) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_418 : ∀ q : Fin 528, (418 ≤ q.val ∧ q.val < 429) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_429 : ∀ q : Fin 528, (429 ≤ q.val ∧ q.val < 440) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_440 : ∀ q : Fin 528, (440 ≤ q.val ∧ q.val < 451) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_451 : ∀ q : Fin 528, (451 ≤ q.val ∧ q.val < 462) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

/-- The entries 396 to 461 together. -/
theorem bins_range_396 : ∀ q : Fin 528, (396 ≤ q.val ∧ q.val < 462) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by
  intro q h
  by_cases h396 : q.val < 407; · exact bins_396 q ⟨by omega, h396⟩
  by_cases h407 : q.val < 418; · exact bins_407 q ⟨by omega, h407⟩
  by_cases h418 : q.val < 429; · exact bins_418 q ⟨by omega, h418⟩
  by_cases h429 : q.val < 440; · exact bins_429 q ⟨by omega, h429⟩
  by_cases h440 : q.val < 451; · exact bins_440 q ⟨by omega, h440⟩
  exact bins_451 q ⟨by omega, h.2⟩

end Cert.ReferenceIdeal.Stages

end
-- ==== Proof.RefBinsS7.lean ====
/-
  The accumulating scatter of ones at the running counts, evaluated at the bins 462 to 527, eleven at a time:
  a finite computation on integers.
-/
import proofs.«104952_g68075231641772_cont_9to1c4b_264_9_alg».proof.Proof.RefStages
import proofs.«104952_g68075231641772_cont_9to1c4b_264_9_alg».proof.Proof.RefCount
import Idealize.ShloMosaic.Lib.ValueIdx

set_option Elab.async false

noncomputable section

namespace Cert.ReferenceIdeal.Stages

open Idealize.ShloMosaic Idealize.ShloMosaic.ValueIdx Cert.ReferenceIdeal Cert.ReferenceIdeal.Facts₀

theorem bins_462 : ∀ q : Fin 528, (462 ≤ q.val ∧ q.val < 473) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_473 : ∀ q : Fin 528, (473 ≤ q.val ∧ q.val < 484) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_484 : ∀ q : Fin 528, (484 ≤ q.val ∧ q.val < 495) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_495 : ∀ q : Fin 528, (495 ≤ q.val ∧ q.val < 506) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_506 : ∀ q : Fin 528, (506 ≤ q.val ∧ q.val < 517) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

theorem bins_517 : ∀ q : Fin 528, (517 ≤ q.val ∧ q.val < 528) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by decide +kernel

/-- The entries 462 to 527 together. -/
theorem bins_range_462 : ∀ q : Fin 528, (462 ≤ q.val ∧ q.val < 528) →
    Host.scatter scatter_S528_S1024x1_S1024_n_0_0_1 IntOp.addi (broadcastInDim S528 ![] bcast_S_S528 (constantI S_ 32 0#32))
      (broadcastInDim S1024x1 ![0] bcast_S1024_S1024x1_0 (fun i : S1024.Idx => BitVec.ofNat 32 (cntN (i 0).val)))
      (broadcastInDim S1024 ![] bcast_S_S1024 (constantI S_ 32 1#32)) (ix1 q) = BitVec.ofNat 32 (binT q.val) := by
  intro q h
  by_cases h462 : q.val < 473; · exact bins_462 q ⟨by omega, h462⟩
  by_cases h473 : q.val < 484; · exact bins_473 q ⟨by omega, h473⟩
  by_cases h484 : q.val < 495; · exact bins_484 q ⟨by omega, h484⟩
  by_cases h495 : q.val < 506; · exact bins_495 q ⟨by omega, h495⟩
  by_cases h506 : q.val < 517; · exact bins_506 q ⟨by omega, h506⟩
  exact bins_517 q ⟨by omega, h.2⟩

end Cert.ReferenceIdeal.Stages

end
-- ==== Proof.RefBins.lean ====
/-
  How many flat positions have each running count.  The running counts are never negative, so the clamp at zero
  and the wrap-around leave them as they are; the accumulating scatter of ones at those counts is then a finite
  computation on integers (a count of 528, reached at the last position, falls outside the 528 bins and is
  dropped); it is evaluated bin by bin, in eight ranges of 66 bins.
-/
import proofs.«104952_g68075231641772_cont_9to1c4b_264_9_alg».proof.Proof.RefCsum
import proofs.«104952_g68075231641772_cont_9to1c4b_264_9_alg».proof.Proof.RefCountF
import proofs.«104952_g68075231641772_cont_9to1c4b_264_9_alg».proof.Proof.RefBinsS0
import proofs.«104952_g68075231641772_cont_9to1c4b_264_9_alg».proof.Proof.RefBinsS1
import proofs.«104952_g68075231641772_cont_9to1c4b_264_9_alg».proof.Proof.RefBinsS2
import proofs.«104952_g68075231641772_cont_9to1c4b_264_9_alg».proof.Proof.RefBinsS3
import proofs.«104952_g68075231641772_cont_9to1c4b_264_9_alg».proof.Proof.RefBinsS4
import proofs.«104952_g68075231641772_cont_9to1c4b_264_9_alg».proof.Proof.RefBinsS5
import proofs.«104952_g68075231641772_cont_9to1c4b_264_9_alg».proof.Proof.RefBinsS6
import proofs.«104952_g68075231641772_cont_9to1c4b_264_9_alg».proof.Proof.RefBinsS7

noncomputable section

namespace Cert.ReferenceIdeal.Stages

open Idealize.ShloMosaic Idealize.ShloMosaic.ValueIdx Cert.ReferenceIdeal Cert.ReferenceIdeal.Facts₀

/-- The clamp below at zero followed by the wrap-around of a negative value by 528, on one entry. -/
def wrapClip (v : BitVec 32) : BitVec 32 :=
  Scalar.select (IntOp.cmpi .slt (IntOp.maxsi 0#32 v) 0#32) (IntOp.addi (IntOp.maxsi 0#32 v) 528#32) (IntOp.maxsi 0#32 v)

theorem idx16_apply (i : S1024.Idx) : idx16 i = wrapClip (csum9 i) := rfl

theorem wrapClip_cnt : ∀ f : Fin 1024, wrapClip (BitVec.ofNat 32 (cntN f.val)) = BitVec.ofNat 32 (cntN f.val) := by
  decide +kernel

theorem idx16_eq : idx16 = fun i => BitVec.ofNat 32 (cntN (i 0).val) := by
  funext i
  rw [idx16_apply, csum9_eq]
  exact wrapClip_cnt (i 0)

/-- The number of positions with running count q, for every q below 528. -/
theorem bins19_ix1 (q : Fin 528) : bins19 (ix1 q) = BitVec.ofNat 32 (binT q.val) := by
  unfold bins19
  rw [idx16_eq]
  have h := q.isLt
  by_cases h0 : q.val < 66; · exact bins_range_0 q ⟨by omega, h0⟩
  by_cases h1 : q.val < 132; · exact bins_range_66 q ⟨by omega, h1⟩
  by_cases h2 : q.val < 198; · exact bins_range_132 q ⟨by omega, h2⟩
  by_cases h3 : q.val < 264; · exact bins_range_198 q ⟨by omega, h3⟩
  by_cases h4 : q.val < 330; · exact bins_range_264 q ⟨by omega, h4⟩
  by_cases h5 : q.val < 396; · exact bins_range_330 q ⟨by omega, h5⟩
  by_cases h6 : q.val < 462; · exact bins_range_396 q ⟨by omega, h6⟩
  exact bins_range_462 q ⟨by omega, by omega⟩

/-- The gap formula and the gap table agree on the 528 bins. -/
theorem binT_eq_binF : ∀ q : Fin 528, binT q.val = binF q.val := by decide +kernel

theorem bins19_eq : bins19 = fun i => BitVec.ofNat 32 (binF (i 0).val) := by
  funext i
  rw [eq_ix1 i]
  exact (bins19_ix1 _).trans (congrArg (BitVec.ofNat 32) (binT_eq_binF _))

end Cert.ReferenceIdeal.Stages

end
-- ==== Proof.RefFlatS0.lean ====
/-
  The running sum of the bin counts, evaluated at the entries 0 to 131, twenty-two at a time: a finite
  computation on integers.
-/
import proofs.«104952_g68075231641772_cont_9to1c4b_264_9_alg».proof.Proof.RefStages
import proofs.«104952_g68075231641772_cont_9to1c4b_264_9_alg».proof.Proof.RefCount
import Idealize.ShloMosaic.Lib.ValueIdx
import proofs.«104952_g68075231641772_cont_9to1c4b_264_9_alg».proof.Proof.RefCountF

set_option Elab.async false

noncomputable section

namespace Cert.ReferenceIdeal.Stages

open Idealize.ShloMosaic Idealize.ShloMosaic.ValueIdx Cert.ReferenceIdeal Cert.ReferenceIdeal.Facts₀

theorem flat_0 : ∀ p : Fin 528, (0 ≤ p.val ∧ p.val < 22) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

theorem flat_22 : ∀ p : Fin 528, (22 ≤ p.val ∧ p.val < 44) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

theorem flat_44 : ∀ p : Fin 528, (44 ≤ p.val ∧ p.val < 66) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

theorem flat_66 : ∀ p : Fin 528, (66 ≤ p.val ∧ p.val < 88) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

theorem flat_88 : ∀ p : Fin 528, (88 ≤ p.val ∧ p.val < 110) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

theorem flat_110 : ∀ p : Fin 528, (110 ≤ p.val ∧ p.val < 132) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

/-- The entries 0 to 131 together. -/
theorem flat_range_0 : ∀ p : Fin 528, (0 ≤ p.val ∧ p.val < 132) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by
  intro p h
  by_cases h0 : p.val < 22; · exact flat_0 p ⟨by omega, h0⟩
  by_cases h22 : p.val < 44; · exact flat_22 p ⟨by omega, h22⟩
  by_cases h44 : p.val < 66; · exact flat_44 p ⟨by omega, h44⟩
  by_cases h66 : p.val < 88; · exact flat_66 p ⟨by omega, h66⟩
  by_cases h88 : p.val < 110; · exact flat_88 p ⟨by omega, h88⟩
  exact flat_110 p ⟨by omega, h.2⟩

end Cert.ReferenceIdeal.Stages

end
-- ==== Proof.RefFlatS1.lean ====
/-
  The running sum of the bin counts, evaluated at the entries 132 to 263, twenty-two at a time: a finite
  computation on integers.
-/
import proofs.«104952_g68075231641772_cont_9to1c4b_264_9_alg».proof.Proof.RefStages
import proofs.«104952_g68075231641772_cont_9to1c4b_264_9_alg».proof.Proof.RefCount
import Idealize.ShloMosaic.Lib.ValueIdx
import proofs.«104952_g68075231641772_cont_9to1c4b_264_9_alg».proof.Proof.RefCountF

set_option Elab.async false

noncomputable section

namespace Cert.ReferenceIdeal.Stages

open Idealize.ShloMosaic Idealize.ShloMosaic.ValueIdx Cert.ReferenceIdeal Cert.ReferenceIdeal.Facts₀

theorem flat_132 : ∀ p : Fin 528, (132 ≤ p.val ∧ p.val < 154) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

theorem flat_154 : ∀ p : Fin 528, (154 ≤ p.val ∧ p.val < 176) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

theorem flat_176 : ∀ p : Fin 528, (176 ≤ p.val ∧ p.val < 198) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

theorem flat_198 : ∀ p : Fin 528, (198 ≤ p.val ∧ p.val < 220) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

theorem flat_220 : ∀ p : Fin 528, (220 ≤ p.val ∧ p.val < 242) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

theorem flat_242 : ∀ p : Fin 528, (242 ≤ p.val ∧ p.val < 264) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

/-- The entries 132 to 263 together. -/
theorem flat_range_132 : ∀ p : Fin 528, (132 ≤ p.val ∧ p.val < 264) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by
  intro p h
  by_cases h132 : p.val < 154; · exact flat_132 p ⟨by omega, h132⟩
  by_cases h154 : p.val < 176; · exact flat_154 p ⟨by omega, h154⟩
  by_cases h176 : p.val < 198; · exact flat_176 p ⟨by omega, h176⟩
  by_cases h198 : p.val < 220; · exact flat_198 p ⟨by omega, h198⟩
  by_cases h220 : p.val < 242; · exact flat_220 p ⟨by omega, h220⟩
  exact flat_242 p ⟨by omega, h.2⟩

end Cert.ReferenceIdeal.Stages

end
-- ==== Proof.RefFlatS2.lean ====
/-
  The running sum of the bin counts, evaluated at the entries 264 to 395, twenty-two at a time: a finite
  computation on integers.
-/
import proofs.«104952_g68075231641772_cont_9to1c4b_264_9_alg».proof.Proof.RefStages
import proofs.«104952_g68075231641772_cont_9to1c4b_264_9_alg».proof.Proof.RefCount
import Idealize.ShloMosaic.Lib.ValueIdx
import proofs.«104952_g68075231641772_cont_9to1c4b_264_9_alg».proof.Proof.RefCountF

set_option Elab.async false

noncomputable section

namespace Cert.ReferenceIdeal.Stages

open Idealize.ShloMosaic Idealize.ShloMosaic.ValueIdx Cert.ReferenceIdeal Cert.ReferenceIdeal.Facts₀

theorem flat_264 : ∀ p : Fin 528, (264 ≤ p.val ∧ p.val < 286) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

theorem flat_286 : ∀ p : Fin 528, (286 ≤ p.val ∧ p.val < 308) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

theorem flat_308 : ∀ p : Fin 528, (308 ≤ p.val ∧ p.val < 330) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

theorem flat_330 : ∀ p : Fin 528, (330 ≤ p.val ∧ p.val < 352) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

theorem flat_352 : ∀ p : Fin 528, (352 ≤ p.val ∧ p.val < 374) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

theorem flat_374 : ∀ p : Fin 528, (374 ≤ p.val ∧ p.val < 396) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

/-- The entries 264 to 395 together. -/
theorem flat_range_264 : ∀ p : Fin 528, (264 ≤ p.val ∧ p.val < 396) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by
  intro p h
  by_cases h264 : p.val < 286; · exact flat_264 p ⟨by omega, h264⟩
  by_cases h286 : p.val < 308; · exact flat_286 p ⟨by omega, h286⟩
  by_cases h308 : p.val < 330; · exact flat_308 p ⟨by omega, h308⟩
  by_cases h330 : p.val < 352; · exact flat_330 p ⟨by omega, h330⟩
  by_cases h352 : p.val < 374; · exact flat_352 p ⟨by omega, h352⟩
  exact flat_374 p ⟨by omega, h.2⟩

end Cert.ReferenceIdeal.Stages

end
-- ==== Proof.RefFlatS3.lean ====
/-
  The running sum of the bin counts, evaluated at the entries 396 to 527, twenty-two at a time: a finite
  computation on integers.
-/
import proofs.«104952_g68075231641772_cont_9to1c4b_264_9_alg».proof.Proof.RefStages
import proofs.«104952_g68075231641772_cont_9to1c4b_264_9_alg».proof.Proof.RefCount
import Idealize.ShloMosaic.Lib.ValueIdx
import proofs.«104952_g68075231641772_cont_9to1c4b_264_9_alg».proof.Proof.RefCountF

set_option Elab.async false

noncomputable section

namespace Cert.ReferenceIdeal.Stages

open Idealize.ShloMosaic Idealize.ShloMosaic.ValueIdx Cert.ReferenceIdeal Cert.ReferenceIdeal.Facts₀

theorem flat_396 : ∀ p : Fin 528, (396 ≤ p.val ∧ p.val < 418) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

theorem flat_418 : ∀ p : Fin 528, (418 ≤ p.val ∧ p.val < 440) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

theorem flat_440 : ∀ p : Fin 528, (440 ≤ p.val ∧ p.val < 462) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

theorem flat_462 : ∀ p : Fin 528, (462 ≤ p.val ∧ p.val < 484) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

theorem flat_484 : ∀ p : Fin 528, (484 ≤ p.val ∧ p.val < 506) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

theorem flat_506 : ∀ p : Fin 528, (506 ≤ p.val ∧ p.val < 528) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by decide +kernel

/-- The entries 396 to 527 together. -/
theorem flat_range_396 : ∀ p : Fin 528, (396 ≤ p.val ∧ p.val < 528) →
    Host.reduceWindow IntOp.addi ![528] ![1] ![527] ![0] (fun i : S528.Idx => BitVec.ofNat 32 (binF (i 0).val)) zero0
      reduceWindows_S528_S528_w528s1p527_0 h_S_ (ix1 p) = BitVec.ofNat 32 (posN p.val) := by
  intro p h
  by_cases h396 : p.val < 418; · exact flat_396 p ⟨by omega, h396⟩
  by_cases h418 : p.val < 440; · exact flat_418 p ⟨by omega, h418⟩
  by_cases h440 : p.val < 462; · exact flat_440 p ⟨by omega, h440⟩
  by_cases h462 : p.val < 484; · exact flat_462 p ⟨by omega, h462⟩
  by_cases h484 : p.val < 506; · exact flat_484 p ⟨by omega, h484⟩
  exact flat_506 p ⟨by omega, h.2⟩

end Cert.ReferenceIdeal.Stages

end
-- ==== Proof.RefFlat.lean ====
/-
  The running sum of the bin counts: entry p is the number of flat positions whose running count is at most p,
  which is the flat position of the p-th entry on or above the diagonal.  A finite computation on integers,
  evaluated entry by entry in four ranges of 132 entries (the four modules imported here).
-/
import proofs.«104952_g68075231641772_cont_9to1c4b_264_9_alg».proof.Proof.RefBins
import proofs.«104952_g68075231641772_cont_9to1c4b_264_9_alg».proof.Proof.RefFlatS0
import proofs.«104952_g68075231641772_cont_9to1c4b_264_9_alg».proof.Proof.RefFlatS1
import proofs.«104952_g68075231641772_cont_9to1c4b_264_9_alg».proof.Proof.RefFlatS2
import proofs.«104952_g68075231641772_cont_9to1c4b_264_9_alg».proof.Proof.RefFlatS3

noncomputable section

namespace Cert.ReferenceIdeal.Stages

open Idealize.ShloMosaic Idealize.ShloMosaic.ValueIdx Cert.ReferenceIdeal Cert.ReferenceIdeal.Facts₀

/-- The flat position of the p-th entry, for every p below 528. -/
theorem flat20_ix1 (p : Fin 528) : flat20 (ix1 p) = BitVec.ofNat 32 (posN p.val) := by
  unfold flat20
  rw [bins19_eq]
  have h := p.isLt
  by_cases h0 : p.val < 132; · exact flat_range_0 p ⟨by omega, h0⟩
  by_cases h1 : p.val < 264; · exact flat_range_132 p ⟨by omega, h1⟩
  by_cases h2 : p.val < 396; · exact flat_range_264 p ⟨by omega, h2⟩
  exact flat_range_396 p ⟨by omega, by omega⟩

end Cert.ReferenceIdeal.Stages

end
-- ==== Proof.RefRowCol.lean ====
/-
  From the flat position of the p-th entry to its row and column.  The floor quotient, the remainder and the
  wrap-around of negative indices are entry-by-entry operations, so entry p of each depends on entry p of its
  operand alone; on the 528 positions that occur they are the ordinary quotient and remainder by 32.
-/
import proofs.«104952_g68075231641772_cont_9to1c4b_264_9_alg».proof.Proof.RefStages
import proofs.«104952_g68075231641772_cont_9to1c4b_264_9_alg».proof.Proof.RefCount
import Idealize.ShloMosaic.Lib.ValueIdx

noncomputable section

namespace Cert.ReferenceIdeal.Stages

open Idealize.ShloMosaic Idealize.ShloMosaic.ValueIdx Cert.ReferenceIdeal Cert.ReferenceIdeal.Facts₀

/-- The wrapped row index at entry i, as a function of the flat position at entry i alone. -/
def rowAt (v : BitVec 32) (i : S528.Idx) : BitVec 32 :=
  wrap32 (floorRem (floorDiv (fun _ => v) (constantI S_ 32 32#32)) (constantI S_ 32 32#32)) i

/-- The wrapped column index likewise. -/
def colAt (v : BitVec 32) (i : S528.Idx) : BitVec 32 :=
  wrap32 (floorRem (floorDiv (fun _ => v) (constantI S_ 32 1#32)) (constantI S_ 32 32#32)) i

theorem wrap_rows22_apply (i : S528.Idx) : wrap32 rows22 i = rowAt (flat20 i) i := by
  unfold rows22 rowAt
  generalize flat20 = a
  simp only [wrap32, floorRem, floorDiv, select, andi, cmpi, signi, subi, addi, Host.divsi, Host.remsi, broadcastInDim,
    constantI, id]
theorem wrap_cols24_apply (i : S528.Idx) : wrap32 cols24 i = colAt (flat20 i) i := by
  unfold cols24 colAt
  generalize flat20 = a
  simp only [wrap32, floorRem, floorDiv, select, andi, cmpi, signi, subi, addi, Host.divsi, Host.remsi, broadcastInDim,
    constantI, id]

theorem posN_lt : ∀ p : Fin 528, posN p.val < 1024 := by decide +kernel

theorem rowAt_pos : ∀ p : Fin 528, rowAt (BitVec.ofNat 32 (posN p.val)) (ix1 p) = BitVec.ofNat 32 (posN p.val / 32) := by
  decide +kernel

theorem colAt_pos : ∀ p : Fin 528, colAt (BitVec.ofNat 32 (posN p.val)) (ix1 p) = BitVec.ofNat 32 (posN p.val % 32) := by
  decide +kernel

/-- The p-th entry's row and column, as numbers below 32. -/
def rowsV (p : Fin 528) : Fin 32 := ⟨posN p.val / 32, by have := posN_lt p; omega⟩
def colsV (p : Fin 528) : Fin 32 := ⟨posN p.val % 32, Nat.mod_lt _ (by decide)⟩

end Cert.ReferenceIdeal.Stages

end
-- ==== Proof.RefTable.lean ====
/-
  The reference's index pairs are the upper triangle in row-major order.  The p-th pair (rowsV p, colsV p) has
  row ≤ column, its position among the pairs is p, and conversely the pair at position tri i j is (i, j) when
  i ≤ j: p ↦ (rowsV p, colsV p) and tri are inverse bijections between {0, …, 527} and the pairs i ≤ j.  With
  that the two overwriting scatters put, at entry (i, j) of node n, the linear layer's output number tri i j:
  the reference computes the specification.
-/
import proofs.«104952_g68075231641772_cont_9to1c4b_264_9_alg».proof.Proof.RefFlat
import proofs.«104952_g68075231641772_cont_9to1c4b_264_9_alg».proof.Proof.RefRowCol
import proofs.«104952_g68075231641772_cont_9to1c4b_264_9_alg».proof.Proof.RefVal
import proofs.«104952_g68075231641772_cont_9to1c4b_264_9_alg».proof.Proof.Spec

noncomputable section

namespace Cert.ReferenceIdeal.Stages

open Idealize.ShloMosaic Idealize.ShloMosaic.ValueIdx Cert.ReferenceIdeal Cert.ReferenceIdeal.Facts₀ Cert.SymSpec

/-- The wrapped row vector holds the p-th pair's row, -/
theorem rows_at (p : Fin 528) : wrap32 rows22 (ix1 p) = BitVec.ofNat 32 (rowsV p).val := by
  rw [wrap_rows22_apply, flat20_ix1]
  exact rowAt_pos p

/-- and the wrapped column vector its column. -/
theorem cols_at (p : Fin 528) : wrap32 cols24 (ix1 p) = BitVec.ofNat 32 (colsV p).val := by
  rw [wrap_cols24_apply, flat20_ix1]
  exact colAt_pos p

theorem rows_le_cols : ∀ p : Fin 528, rowsV p ≤ colsV p := by decide +kernel

theorem tri_rows_cols : ∀ p : Fin 528, tri (rowsV p) (colsV p) = p := by decide +kernel

theorem rows_cols_tri : ∀ i j : Fin 32, i ≤ j → rowsV (tri i j) = i ∧ colsV (tri i j) = j := by decide +kernel

/-- The reference's two scatters of the linear layer's output into an array of zeros are the specification. -/
theorem ref_out (x : S50000x128.Idx → EReal) (W : S528x128.Idx → EReal) (b : S528.Idx → EReal)
    (zeros : S50000x32x32.Idx → EReal) :
    Host.scatter scatter_S50000x32x32_S528x2_S50000x528_0_12_12_1 (fun _ u => u)
      (Host.scatter scatter_S50000x32x32_S528x2_S50000x528_0_12_12_1 (fun _ u => u) zeros idxUp (RefValue.proj x W b))
      idxLo (RefValue.proj x W b) = SymSpec.out x W b :=
  RefValue.ref_value x W b zeros (wrap32 rows22) (wrap32 cols24) rowsV colsV rows_at cols_at rows_le_cols tri_rows_cols
    rows_cols_tri

end Cert.ReferenceIdeal.Stages

end
-- ==== Proof.Algebraic.lean ====
/-
  The two idealized programs compute the same array.  The kernel's result is the specification's array of its three
  arguments; the reference's result is the linear layer's output written at the upper triangle's index pairs and at
  the transposed pairs, which is the specification's array of ITS arguments; and the two programs are started from
  memories that agree on the arguments.  So both end with the specification's array of the kernel's arguments.
-/
import proofs.«104952_g68075231641772_cont_9to1c4b_264_9_alg».proof.Defs
import proofs.«104952_g68075231641772_cont_9to1c4b_264_9_alg».proof.Proof.KFinal
import proofs.«104952_g68075231641772_cont_9to1c4b_264_9_alg».proof.Proof.RefTable
import proofs.«104952_g68075231641772_cont_9to1c4b_264_9_alg».proof.Proof.RefRun

noncomputable section

namespace Cert.Proof

open Idealize.ShloMosaic Idealize.ShloMosaic.TcCoe Idealize.SL.Sem

/-- From memories agreeing on the arguments both programs run, end with equal results (the specification's array
    of the arguments) and leave the arguments unchanged. -/
theorem algebraic : Cert.algebraic_KernelIdeal_ReferenceIdeal := by
  intro m g m' g' _ hagree
  refine ⟨fun c => Cert.SymSpec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.kernel_run m g, ?_⟩
  refine (θ_run (Cert.ReferenceIdeal.defs (F := Ideal)) _ _).mono (fun r h c => ⟨(h c).1.trans ?_, (h c).2⟩)
    (Cert.ReferenceIdeal.Hand.run m' g')
  rw [(hagree c).1, (hagree c).2.1, (hagree c).2.2]
  exact Cert.ReferenceIdeal.Stages.ref_out _ _ _ _

end Cert.Proof

end
-- ==== Proof.lean ====
/-
  The certificate of the symmetric-matrix projection.  A node's 128 features go through a linear layer to 528
  numbers, one per unordered pair {i, j} of {0, …, 31}, and are laid out as a symmetric 32 × 32 matrix: entry
  (i, j) of node n is  Σ_k W(tri i j, k) · x(n, k) + b(tri i j)  (Proof/Spec.lean).

  The kernel gathers the rows of W and the entries of b at a table of 1024 positions — the table is tri read at
  (p / 32, p % 32) — and computes the 1024 × 50000 product of the gathered weights with the features in 25 blocks of
  2048 nodes, the last block reaching past the 50000th node; entry (p, n) of a block depends on node n's
  features alone, so what lies past the array never reaches an entry that is written back.  A reshape and a
  transpose then read entry (32·i + j, n) as entry (n, i, j).  The reference computes the 528 numbers per node
  and writes them into a zero array twice, at the index pairs of the upper triangle and at the swapped pairs;
  it computes those pairs at run time (a mask, two running sums and a count), and that computation is
  evaluated here to the row-major list of the pairs i ≤ j, of which tri is the inverse.  Both results are the
  specification; the products W·x and x·W agree because multiplication of extended reals commutes, and no law
  that needs finiteness is used.

  The three frames: the word-level kernel's frame forgets the output window's contents (a product entry there
  depends on the whole staged block, whose rows past the array hold words nothing names); the idealized
  kernel's and the reference's frames are their value runs with the results dropped.  The idealization rewrote
  nothing, so its preservation claim is trivial.
-/
import proofs.«104952_g68075231641772_cont_9to1c4b_264_9_alg».proof.Defs
import proofs.«104952_g68075231641772_cont_9to1c4b_264_9_alg».proof.Proof.Gen.Kernel
import proofs.«104952_g68075231641772_cont_9to1c4b_264_9_alg».proof.Proof.Gen.KernelIdeal
import proofs.«104952_g68075231641772_cont_9to1c4b_264_9_alg».proof.Proof.Gen.ReferenceIdeal
import proofs.«104952_g68075231641772_cont_9to1c4b_264_9_alg».proof.Proof.Gen.Pre_finite_inputs
import proofs.«104952_g68075231641772_cont_9to1c4b_264_9_alg».proof.Proof.KRunBits
import proofs.«104952_g68075231641772_cont_9to1c4b_264_9_alg».proof.Proof.KFinal
import proofs.«104952_g68075231641772_cont_9to1c4b_264_9_alg».proof.Proof.RefRun
import proofs.«104952_g68075231641772_cont_9to1c4b_264_9_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Kernel.Hand.frame, Cert.KernelIdeal.Hand.frame, Cert.ReferenceIdeal.Hand.frame, trivial, Cert.Proof.algebraic⟩

end Cert.Proof

end
